-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128x1 .f32 := Host.absf main_arg16
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S1 .f32) (main_arg14 : FVec F S128x1 .f32) (main_arg15 : FVec F S1 .f32) (main_arg16 : FVec F S128x1 .f32) (main_arg17 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg16 main_arg17 main_v63 main_v67

def fn_part2 {F : FTy → Type} [FloatOps F] (main_arg9 : FVec F S2x128 .f32) (main_arg10 : FVec F S2x128x128 .f32) (main_arg11 : FVec F S2x128 .f32) (main_arg12 : FVec F S128x1 .f32) (main_arg13 : FVec F S1 .f32) (main_arg14 : FVec F S128x1 .f32) (main_arg15 : FVec F S1 .f32) (main_arg16 : FVec F S128x1 .f32) (main_arg17 : FVec F S1 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg10
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S2x128x128 .f32) (main_arg9 : FVec F S2x128 .f32) (main_arg10 : FVec F S2x128x128 .f32) (main_arg11 : FVec F S2x128 .f32) (main_arg12 : FVec F S128x1 .f32) (main_arg13 : FVec F S1 .f32) (main_arg14 : FVec F S128x1 .f32) (main_arg15 : FVec F S1 .f32) (main_arg16 : FVec F S128x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x128 .f32 := Host.absf main_arg8
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x128 .f32) (main_arg1 : IVec S100000 32) (main_arg2 : FVec F S100000 .f32) (main_arg3 : IVec S2x1600000 32) (main_arg4 : FVec F S128x128 .f32) (main_arg5 : FVec F S128 .f32) (main_arg6 : FVec F S128x128 .f32) (main_arg7 : FVec F S128 .f32) (main_arg8 : FVec F S2x128x128 .f32) (main_arg9 : FVec F S2x128 .f32) (main_arg10 : FVec F S2x128x128 .f32) (main_arg11 : FVec F S2x128 .f32) (main_arg12 : FVec F S128x1 .f32) (main_arg13 : FVec F S1 .f32) (main_arg14 : FVec F S128x1 .f32) (main_arg15 : FVec F S1 .f32) (main_arg16 : FVec F S128x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S100000 : Shape := ⟨1, ![100000]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1600000x128 : Shape := ⟨2, ![1600000, 128]⟩
abbrev S1x128x128 : Shape := ⟨3, ![1, 128, 128]⟩
abbrev S1x1 : Shape := ⟨2, ![1, 1]⟩
abbrev S2000x128 : Shape := ⟨2, ![2000, 128]⟩
abbrev S2000x1 : Shape := ⟨2, ![2000, 1]⟩

abbrev nBuf : Space → Nat
  | .hbm => 83
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100000, .f32⟩
  | .hbm, ⟨3, _⟩ => ⟨S2x1600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x128x128, .f32⟩
  | .hbm, ⟨9, _⟩ => ⟨S2x128, .f32⟩
  | .hbm, ⟨10, _⟩ => ⟨S2x128x128, .f32⟩
  | .hbm, ⟨11, _⟩ => ⟨S2x128, .f32⟩
  | .hbm, ⟨12, _⟩ => ⟨S128x1, .f32⟩
  | .hbm, ⟨13, _⟩ => ⟨S1, .f32⟩
  | .hbm, ⟨14, _⟩ => ⟨S128x1, .f32⟩
  | .hbm, ⟨15, _⟩ => ⟨S1, .f32⟩
  | .hbm, ⟨16, _⟩ => ⟨S128x1, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1x128, .f32⟩
  | .hbm, ⟨34, _⟩ => ⟨S1x128, .f32⟩
  | .hbm, ⟨35, _⟩ => ⟨S100000x128, .f32⟩
  | .hbm, ⟨36, _⟩ => ⟨S100000x128, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .bf16⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x128, .f32⟩
  | .hbm, ⟨52, _⟩ => ⟨S100000x128, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .bf16⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x1, .i32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S1x128x128, .f32⟩
  | .hbm, ⟨74, _⟩ => ⟨S128x128, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S1x1, .f32⟩
  | .hbm, ⟨79, _⟩ => ⟨S1x1, .f32⟩
  | .hbm, ⟨80, _⟩ => ⟨S1x1, .f32⟩
  | .hbm, ⟨81, _⟩ => ⟨S100000x1, .f32⟩
  | .hbm, ⟨82, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S1x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .bf16⟩
  | .local _ .vmem, ⟨20, _⟩ => ⟨S5000x128, .bf16⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S2000x1, .i32⟩
  | .local _ .vmem, ⟨29, _⟩ => ⟨S2000x1, .i32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S128x1, .f32⟩
  | .local _ .vmem, ⟨35, _⟩ => ⟨S1x1, .f32⟩
  | .local _ .vmem, ⟨36, _⟩ => ⟨S128x1, .f32⟩
  | .local _ .vmem, ⟨37, _⟩ => ⟨S1x1, .f32⟩
  | .local _ .vmem, ⟨38, _⟩ => ⟨S128x1, .f32⟩
  | .local _ .vmem, ⟨39, _⟩ => ⟨S1x1, .f32⟩
  | .local _ .vmem, ⟨40, _⟩ => ⟨S2000x1, .f32⟩
  | .local _ .vmem, ⟨41, _⟩ => ⟨S2000x1, .f32⟩
  | .local _ .vmem, ⟨42, _⟩ => ⟨S2000x1, .f32⟩
  | .local _ .vmem, ⟨43, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52_0 : Ref sig .tc := ⟨.hbm, 81, rfl⟩
abbrev main_v52_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg13_0 : Ref sig .tc := ⟨.vmem, 38, rfl⟩
abbrev cc2_stg14_0 : Ref sig .tc := ⟨.vmem, 39, rfl⟩
abbrev cc2_stg15_0 : Ref sig .tc := ⟨.vmem, 40, rfl⟩
abbrev cc2_stg15_1 : Ref sig .tc := ⟨.vmem, 41, rfl⟩
abbrev cc2_stg16_0 : Ref sig .tc := ⟨.vmem, 42, rfl⟩
abbrev cc2_stg16_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem10_0 : DmaSem sig := 35
abbrev cc2_sem11_0 : DmaSem sig := 36
abbrev cc2_sem12_0 : DmaSem sig := 37
abbrev cc2_sem13_0 : DmaSem sig := 38
abbrev cc2_sem14_0 : DmaSem sig := 39
abbrev cc2_sem15_0 : DmaSem sig := 40
abbrev cc2_sem15_1 : DmaSem sig := 41
abbrev cc2_sem16_0 : DmaSem sig := 42
abbrev cc2_sem16_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S2000x1 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S2000x1 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_1_0_0 : S2x128x128.Slices ![1, 0, 0] S1x128x128
  shapeCasts_S1x128x128_S128x128 : S1x128x128.ShapeCasts S128x128
  slices_S2x128_S1x128_1_0 : S2x128.Slices ![1, 0] S1x128
  shapeCasts_S1x128_S128 : S1x128.ShapeCasts S128
  shapeCasts_S1_S1x1 : S1.ShapeCasts S1x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  broadcasts_S1x128_S2000x128 : S1x128.Broadcasts S2000x128
  shapeCasts_S128x128_S128x128 : S128x128.ShapeCasts S128x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .i32 = 32 ∨ (Rect.block (s := S100000x1) S2000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x1.size a ≤ S128x1.size a
  hwx2_9 : ∀ i : grid2.Coords, EltTy.bits .f32 = 32 ∨ (Rect.block (s := S128x1) S128x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x1.size a ≤ S1x1.size a
  hwx2_10 : ∀ i : grid2.Coords, EltTy.bits .f32 = 32 ∨ (Rect.block (s := S1x1) S1x1.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x1.size a ≤ S128x1.size a
  hwx2_11 : ∀ i : grid2.Coords, EltTy.bits .f32 = 32 ∨ (Rect.block (s := S128x1) S128x1.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x1.size a ≤ S1x1.size a
  hwx2_12 : ∀ i : grid2.Coords, EltTy.bits .f32 = 32 ∨ (Rect.block (s := S1x1) S1x1.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x1.size a ≤ S128x1.size a
  hwx2_13 : ∀ i : grid2.Coords, EltTy.bits .f32 = 32 ∨ (Rect.block (s := S128x1) S128x1.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x1.size a ≤ S1x1.size a
  hwx2_14 : ∀ i : grid2.Coords, EltTy.bits .f32 = 32 ∨ (Rect.block (s := S1x1) S1x1.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x1.size a ≤ S100000x1.size a
  hwx2_15 : ∀ i : grid2.Coords, EltTy.bits .f32 = 32 ∨ (Rect.block (s := S100000x1) S2000x1.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2000x1.size a ≤ S100000x1.size a
  hwx2_16 : ∀ i : grid2.Coords, EltTy.bits .f32 = 32 ∨ (Rect.block (s := S100000x1) S2000x1.size (cc2_transform_16 i) (hinb2_16 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v40) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v48) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg12) S128x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v49) S1x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg14) S128x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v50) S1x1.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg16) S128x1.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v51) S1x1.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v52_0) S2000x1.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v52_1) S2000x1.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000 : Shape := ⟨1, ![100000]⟩
abbrev S2x1600000 : Shape := ⟨2, ![2, 1600000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x128x128 : Shape := ⟨3, ![1, 128, 128]⟩
abbrev S1x1 : Shape := ⟨2, ![1, 1]⟩

abbrev nBuf : Space → Nat
  | .hbm => 191
  | .vmem => 0
  | .smem => 0
  | _ => 0

abbrev hbmTy0_0 (i : Nat) : BufTy := match i % 128 with
  | 0 => ⟨S100000x128, .f32⟩
  | 1 => ⟨S100000, .i32⟩
  | 2 => ⟨S100000, .f32⟩
  | 3 => ⟨S2x1600000, .i32⟩
  | 4 => ⟨S128x128, .f32⟩
  | 5 => ⟨S128, .f32⟩
  | 6 => ⟨S128x128, .f32⟩
  | 7 => ⟨S128, .f32⟩
  | 8 => ⟨S2x128x128, .f32⟩
  | 9 => ⟨S2x128, .f32⟩
  | 10 => ⟨S2x128x128, .f32⟩
  | 11 => ⟨S2x128, .f32⟩
  | 12 => ⟨S128x1, .f32⟩
  | 13 => ⟨S1, .f32⟩
  | 14 => ⟨S128x1, .f32⟩
  | 15 => ⟨S1, .f32⟩
  | 16 => ⟨S128x1, .f32⟩
  | 17 => ⟨S1, .f32⟩
  | 18 => ⟨S100000x128, .f32⟩
  | 19 => ⟨S1x1600000, .i32⟩
  | 20 => ⟨S1600000, .i32⟩
  | 21 => ⟨S1x1600000, .i32⟩
  | 22 => ⟨S1600000, .i32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S1x1600000, .i32⟩
  | 81 => ⟨S1600000, .i32⟩
  | 82 => ⟨S1x1600000, .i32⟩
  | 83 => ⟨S1600000, .i32⟩
  | 84 => ⟨S_, .f32⟩
  | 85 => ⟨S1600000, .f32⟩
  | 86 => ⟨S_, .f32⟩
  | 87 => ⟨S100000, .f32⟩
  | 88 => ⟨S1600000x1, .i32⟩
  | 89 => ⟨S100000, .f32⟩
  | 90 => ⟨S_, .f32⟩
  | 91 => ⟨S100000, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S1600000x1, .f32⟩
  | 123 => ⟨S1600000x128, .f32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000, .f32⟩
  | 2 => ⟨S100000x1, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S1x128x128, .f32⟩
  | 13 => ⟨S128x128, .f32⟩
  | 14 => ⟨S100000x128, .f32⟩
  | 15 => ⟨S1x128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S1x128x128, .f32⟩
  | 24 => ⟨S128x128, .f32⟩
  | 25 => ⟨S100000x128, .f32⟩
  | 26 => ⟨S1x128, .f32⟩
  | 27 => ⟨S128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S100000x1, .f32⟩
  | 35 => ⟨S1x1, .f32⟩
  | 36 => ⟨S100000x1, .f32⟩
  | 37 => ⟨S100000x1, .f32⟩
  | 38 => ⟨S100000, .f32⟩
  | 39 => ⟨S100000x1, .f32⟩
  | 40 => ⟨S1x1, .f32⟩
  | 41 => ⟨S100000x1, .f32⟩
  | 42 => ⟨S100000x1, .f32⟩
  | 43 => ⟨S100000, .f32⟩
  | 44 => ⟨S_, .i32⟩
  | 45 => ⟨S100000, .i32⟩
  | 46 => ⟨S100000, .i1⟩
  | 47 => ⟨S100000, .f32⟩
  | 48 => ⟨S100000x1, .f32⟩
  | 49 => ⟨S1x1, .f32⟩
  | 50 => ⟨S100000x1, .f32⟩
  | 51 => ⟨S100000x1, .f32⟩
  | 52 => ⟨S100000, .f32⟩
  | 53 => ⟨S100000, .f32⟩
  | 54 => ⟨S100000, .f32⟩
  | 55 => ⟨S_, .f32⟩
  | 56 => ⟨S100000, .f32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_11 : Ref sig .tc := ⟨.hbm, 94, rfl⟩
abbrev main_v61 : Ref sig .tc := ⟨.hbm, 95, rfl⟩
abbrev main_v62 : Ref sig .tc := ⟨.hbm, 96, rfl⟩
abbrev main_c_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_13 : Ref sig .tc := ⟨.hbm, 103, rfl⟩
abbrev main_v68 : Ref sig .tc := ⟨.hbm, 104, rfl⟩
abbrev main_v69 : Ref sig .tc := ⟨.hbm, 105, rfl⟩
abbrev main_c_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_15 : Ref sig .tc := ⟨.hbm, 113, rfl⟩
abbrev main_v76 : Ref sig .tc := ⟨.hbm, 114, rfl⟩
abbrev main_v77 : Ref sig .tc := ⟨.hbm, 115, rfl⟩
abbrev main_c_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_call1_cst : Ref sig .tc := ⟨.hbm, 137, rfl⟩
abbrev main_call1_v0 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_call2_cst : Ref sig .tc := ⟨.hbm, 148, rfl⟩
abbrev main_call2_v0 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_call3_cst : Ref sig .tc := ⟨.hbm, 159, rfl⟩
abbrev main_call3_v0 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_c_18 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_19 : Ref sig .tc := ⟨.hbm, 183, rfl⟩
abbrev main_v136 : Ref sig .tc := ⟨.hbm, 184, rfl⟩
abbrev main_v137 : Ref sig .tc := ⟨.hbm, 185, rfl⟩
abbrev main_cst_20 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_1_0_0 : S2x128x128.Slices ![1, 0, 0] S1x128x128
  shapeCasts_S1x128x128_S128x128 : S1x128x128.ShapeCasts S128x128
  slices_S2x128_S1x128_1_0 : S2x128.Slices ![1, 0] S1x128
  shapeCasts_S1x128_S128 : S1x128.ShapeCasts S128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KerRun.lean ====
/-
  The idealized kernel program's run with its two results named.  The program is three kernel regions among stretches
  of host operations; every weakly fair execution terminates, the two result arrays end at the contents the last
  region's write-backs leave (`Gen.W6` at their buffers) and the arguments end unchanged.
-/
import proofs.«139885_j17411797418342_2_alg».proof.Proof.KernelIdealFrameP

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with each result array at the last boundary's contents and
    the argument arrays as launched. -/
theorem run_results : θ_run defs (onTc (τ := τ) (main (F := F))) ⟨m, fun _ => 0, ρ⟩ (fun r => ∀ c : Dev nD,
      r.2.mem ((c.tc : Thread nD τ).loc main_v52_0) = W6 m ρ c (Proc.devRef .tc main_v52_0)
      ∧ r.2.mem ((c.tc : Thread nD τ).loc main_v52_1) = W6 m ρ c (Proc.devRef .tc main_v52_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52_0 (by decide)),
       h c _ (mem_uc main_v52_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c)⟩)

end Cert.KernelIdeal.RunValue

end
-- ==== Proof.LibScatterRead.lean ====
/-
  An accumulating scatter (each update added onto the operand element its start index names, an update
  whose start index names no element dropped) and a gather (each result element the operand element its
  start index names, the start index clamped into range), read at an index, for the dimension numbers of
  an edge list scattered into, or gathered from, an array of nodes: one start index per edge, or a pair.
-/
import Idealize.ShloMosaic.Lib.ValueIdx

open scoped BigOperators

namespace Cert.LibScatterRead

open Idealize.ShloMosaic Idealize.ShloMosaic.ValueIdx

/-! ## Generalities -/

/-- An update lands on operand index `i` exactly when, on every axis, its start (read signed, not
    clamped) plus its window coordinate is `i`'s coordinate: a sum that leaves `[0, size)` on some axis
    drops the update, and no coordinate of `i` is outside that range. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- Rank-1 indices are the coordinates. -/
def ix1Equiv (n : Nat) : Fin n ≃ (⟨1, ![n]⟩ : Shape).Idx where
  toFun := ix1
  invFun j := j 0
  left_inv _ := rfl
  right_inv j := (eq_ix1 j).symm

/-- Indices of an `[n, 1]` array are the first coordinates. -/
def ix2Equiv1 (n : Nat) : Fin n ≃ (⟨2, ![n, 1]⟩ : Shape).Idx where
  toFun e := ix2 e 0
  invFun j := j 0
  left_inv _ := rfl
  right_inv j := by
    funext a
    refine Fin.ext ?_
    match a with
    | ⟨0, _⟩ => rfl
    | ⟨1, _⟩ =>
      show (0 : ℕ) = (j 1).val
      have := idx2_lt1 j
      omega

/-- A sum over the members of a finite type that satisfy `P`, carried along a bijection. -/
theorem sum_filter_equiv {α β M : Type*} [Fintype α] [Fintype β] [AddCommMonoid M] (σ : α ≃ β)
    (P : β → Prop) [DecidablePred P] (f : β → M) :
    ∑ b ∈ Finset.univ.filter P, f b = ∑ a ∈ Finset.univ.filter (fun a => P (σ a)), f (σ a) := by
  rw [Finset.sum_filter, Finset.sum_filter, ← Equiv.sum_comp σ]

/-! ## One start index per edge, into a rank-1 array of nodes -/

section Scatter1
variable {N E w : Nat} (wf : ScatterDims.WF ⟨1, ![N]⟩ ⟨2, ![E, 1]⟩ ⟨1, ![E]⟩ [] [0] [0] 1)

/-- `x.at[idx].add(upd)` for `x : [N]`, `idx : [E, 1]`, `upd : [E]`: no window axes, the operand's one
    axis inserted and named by the start index's one component. -/
abbrev scatter1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Edge `e`'s start on the node axis is `idx[e, 0]` read signed. -/
theorem scatter1_start (e : Fin E) (idx : IVec ⟨2, ![E, 1]⟩ w) :
    (scatter1Dims N E wf).start (ix1 e) idx 0 = (idx (ix2 e 0)).toInt := by
  unfold ScatterDims.start
  rw [dif_pos (show (0 : Fin 1) ∈ (scatter1Dims N E wf).scatterDimsToOperandDims from List.mem_singleton.mpr rfl)]
  have hsi : (scatter1Dims N E wf).siIdx (ix1 e) ⟨List.idxOf (0 : Fin 1) (scatter1Dims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window: the window coordinate on the node axis is `0`. -/
theorem scatter1_window (j : (⟨1, ![E]⟩ : Shape).Idx) : (scatter1Dims N E wf).window j 0 = 0 := by
  unfold ScatterDims.window
  have hk : (0 : Fin 1) ∉ (scatter1Dims N E wf).sKept := by
    show (0 : Fin 1) ∉ ([] : List (Fin 1))
    exact List.not_mem_nil
  rw [dif_neg hk]

/-- Edge `e` lands on node `i` exactly when `idx[e, 0]`, read signed, is `i`. -/
theorem scatter1_resultIdx?_iff (e : Fin E) (i : Fin N) (idx : IVec ⟨2, ![E, 1]⟩ w) :
    (scatter1Dims N E wf).resultIdx? (ix1 e) idx = some (ix1 i) ↔ (idx (ix2 e 0)).toInt = (i.val : ℤ) := by
  rw [resultIdx?_eq_some_iff]
  constructor
  · intro h
    have := h 0
    rw [scatter1_start, scatter1_window, Nat.cast_zero, add_zero] at this
    exact this
  · intro h a
    obtain rfl : a = 0 := Subsingleton.elim _ _
    rw [scatter1_start, scatter1_window, Nat.cast_zero, add_zero]
    exact h

/-- THE SCATTER-ADD READ AT NODE `i`: the operand there plus the updates of the edges whose start index is `i`. -/
theorem scatterAdd1_apply {φ : FTy} (x : FVec Ideal ⟨1, ![N]⟩ φ) (idx : IVec ⟨2, ![E, 1]⟩ w)
    (upd : FVec Ideal ⟨1, ![E]⟩ φ) (i : Fin N) :
    Host.scatterAdd (F := Ideal) (scatter1Dims N E wf) x idx upd (ix1 i)
      = x (ix1 i) + ∑ e ∈ Finset.univ.filter (fun e : Fin E => (idx (ix2 e 0)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter1_resultIdx?_iff wf e i idx) fun _ _ => rfl

/-- The same read when the start indices are known to name nodes: `col e` is edge `e`'s node. -/
theorem scatterAdd1_apply_of_nodes {φ : FTy} (x : FVec Ideal ⟨1, ![N]⟩ φ) (idx : IVec ⟨2, ![E, 1]⟩ w)
    (upd : FVec Ideal ⟨1, ![E]⟩ φ) (col : Fin E → Fin N)
    (hcol : ∀ e, (idx (ix2 e 0)).toInt = ((col e).val : ℤ)) (i : Fin N) :
    Host.scatterAdd (F := Ideal) (scatter1Dims N E wf) x idx upd (ix1 i)
      = x (ix1 i) + ∑ e ∈ Finset.univ.filter (fun e : Fin E => col e = i), upd (ix1 e) := by
  rw [scatterAdd1_apply]
  congr 1
  refine Finset.sum_congr (Finset.filter_congr fun e _ => ?_) fun _ _ => rfl
  rw [hcol e, Nat.cast_inj, Fin.val_inj]

end Scatter1

/-! ## One start index per edge, into an `[N, 1]` array of nodes: a window axis of size 1 -/

section Scatter1Col
variable {N E w : Nat} (wf : ScatterDims.WF ⟨2, ![N, 1]⟩ ⟨2, ![E, 1]⟩ ⟨2, ![E, 1]⟩ [1] [0] [0] 1)

/-- `x.at[idx].add(upd)` for `x : [N, 1]`, `idx : [E, 1]`, `upd : [E, 1]`: the updates' trailing axis is a
    window over the operand's trailing axis, the operand's leading axis inserted and named by the start
    index's one component. -/
abbrev scatter1ColDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Edge `e`'s start on the node axis is `idx[e, 0]` read signed. -/
theorem scatter1Col_start0 (e : Fin E) (idx : IVec ⟨2, ![E, 1]⟩ w) :
    (scatter1ColDims N E wf).start (ix2 e 0) idx 0 = (idx (ix2 e 0)).toInt := by
  unfold ScatterDims.start
  rw [dif_pos (show (0 : Fin 2) ∈ (scatter1ColDims N E wf).scatterDimsToOperandDims from List.mem_singleton.mpr rfl)]
  have hsi : (scatter1ColDims N E wf).siIdx (ix2 e 0) ⟨List.idxOf (0 : Fin 2) (scatter1ColDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The start index names no position on the trailing axis: the start there is `0`. -/
theorem scatter1Col_start1 (j : (⟨2, ![E, 1]⟩ : Shape).Idx) (idx : IVec ⟨2, ![E, 1]⟩ w) :
    (scatter1ColDims N E wf).start j idx 1 = 0 := by
  unfold ScatterDims.start
  have h : (1 : Fin 2) ∉ (scatter1ColDims N E wf).scatterDimsToOperandDims := by
    show (1 : Fin 2) ∉ ([0] : List (Fin 2))
    decide
  rw [dif_neg h]

/-- The node axis is inserted: the window coordinate there is `0`. -/
theorem scatter1Col_window0 (j : (⟨2, ![E, 1]⟩ : Shape).Idx) : (scatter1ColDims N E wf).window j 0 = 0 := by
  unfold ScatterDims.window
  have hk : (0 : Fin 2) ∉ (scatter1ColDims N E wf).sKept := by
    show (0 : Fin 2) ∉ ([1] : List (Fin 2))
    decide
  rw [dif_neg hk]

/-- The window coordinate on the trailing axis is the update's trailing coordinate, `0`. -/
theorem scatter1Col_window1 (e : Fin E) : (scatter1ColDims N E wf).window (ix2 e 0) 1 = 0 := by
  unfold ScatterDims.window
  have hk : (1 : Fin 2) ∈ (scatter1ColDims N E wf).sKept := by
    show (1 : Fin 2) ∈ ([1] : List (Fin 2))
    decide
  rw [dif_pos hk]
  rfl

/-- Update `(e, 0)` lands on `(i, 0)` exactly when `idx[e, 0]`, read signed, is `i`. -/
theorem scatter1Col_resultIdx?_iff (e : Fin E) (i : Fin N) (idx : IVec ⟨2, ![E, 1]⟩ w) :
    (scatter1ColDims N E wf).resultIdx? (ix2 e 0) idx = some (ix2 i 0) ↔ (idx (ix2 e 0)).toInt = (i.val : ℤ) := by
  rw [resultIdx?_eq_some_iff]
  constructor
  · intro h
    have := h 0
    rw [scatter1Col_start0, scatter1Col_window0, Nat.cast_zero, add_zero] at this
    exact this
  · intro h a
    match a with
    | ⟨0, _⟩ =>
      show (scatter1ColDims N E wf).start (ix2 e 0) idx 0 + ((scatter1ColDims N E wf).window (ix2 e 0) 0 : ℤ) = (i.val : ℤ)
      rw [scatter1Col_start0, scatter1Col_window0, Nat.cast_zero, add_zero]
      exact h
    | ⟨1, _⟩ =>
      show (scatter1ColDims N E wf).start (ix2 e 0) idx 1 + ((scatter1ColDims N E wf).window (ix2 e 0) 1 : ℤ) = ((0 : ℕ) : ℤ)
      rw [scatter1Col_start1, scatter1Col_window1, Nat.cast_zero, add_zero]

/-- THE SCATTER-ADD READ AT `(i, 0)`: the operand there plus the updates `(e, 0)` of the edges whose start index is `i`. -/
theorem scatterAdd1Col_apply {φ : FTy} (x : FVec Ideal ⟨2, ![N, 1]⟩ φ) (idx : IVec ⟨2, ![E, 1]⟩ w)
    (upd : FVec Ideal ⟨2, ![E, 1]⟩ φ) (i : Fin N) :
    Host.scatterAdd (F := Ideal) (scatter1ColDims N E wf) x idx upd (ix2 i 0)
      = x (ix2 i 0) + ∑ e ∈ Finset.univ.filter (fun e : Fin E => (idx (ix2 e 0)).toInt = (i.val : ℤ)), upd (ix2 e 0) := by
  unfold Host.scatterAdd
  rw [Ideal.hostScatterAdd_def]
  unfold Ideal.hostScatterAdd
  congr 1
  rw [sum_filter_equiv (ix2Equiv1 E)]
  exact Finset.sum_congr (Finset.filter_congr fun e _ => scatter1Col_resultIdx?_iff wf e i idx) fun _ _ => rfl

/-- The same read when the start indices are known to name nodes: `col e` is edge `e`'s node. -/
theorem scatterAdd1Col_apply_of_nodes {φ : FTy} (x : FVec Ideal ⟨2, ![N, 1]⟩ φ) (idx : IVec ⟨2, ![E, 1]⟩ w)
    (upd : FVec Ideal ⟨2, ![E, 1]⟩ φ) (col : Fin E → Fin N)
    (hcol : ∀ e, (idx (ix2 e 0)).toInt = ((col e).val : ℤ)) (i : Fin N) :
    Host.scatterAdd (F := Ideal) (scatter1ColDims N E wf) x idx upd (ix2 i 0)
      = x (ix2 i 0) + ∑ e ∈ Finset.univ.filter (fun e : Fin E => col e = i), upd (ix2 e 0) := by
  rw [scatterAdd1Col_apply]
  congr 1
  refine Finset.sum_congr (Finset.filter_congr fun e _ => ?_) fun _ _ => rfl
  rw [hcol e, Nat.cast_inj, Fin.val_inj]

end Scatter1Col

/-! ## A pair of start indices per edge, into a rank-2 array: the dense adjacency accumulation -/

section Scatter2
variable {N0 N1 E w : Nat} (wf : ScatterDims.WF ⟨2, ![N0, N1]⟩ ⟨2, ![E, 2]⟩ ⟨1, ![E]⟩ [] [0, 1] [0, 1] 1)

/-- `x.at[idx[:, 0], idx[:, 1]].add(upd)` for `x : [N0, N1]`, `idx : [E, 2]`, `upd : [E]`: no window axes, both
    operand axes inserted, the start index's two components naming them in order. -/
abbrev scatter2Dims (N0 N1 E : Nat) (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

/-- Edge `e`'s start on the first axis is `idx[e, 0]` read signed. -/
theorem scatter2_start0 (e : Fin E) (idx : IVec ⟨2, ![E, 2]⟩ w) :
    (scatter2Dims N0 N1 E wf).start (ix1 e) idx 0 = (idx (ix2 e 0)).toInt := by
  unfold ScatterDims.start
  have hm : (0 : Fin 2) ∈ (scatter2Dims N0 N1 E wf).scatterDimsToOperandDims := by
    show (0 : Fin 2) ∈ ([0, 1] : List (Fin 2))
    decide
  rw [dif_pos hm]
  have hsi : (scatter2Dims N0 N1 E wf).siIdx (ix1 e) ⟨List.idxOf (0 : Fin 2) (scatter2Dims N0 N1 E wf).scatterDimsToOperandDims,
      List.idxOf_lt_length_iff.2 hm⟩ = ix2 e 0 := by
    funext b; refine Fin.ext ?_
    match b with
    | ⟨0, _⟩ => rfl
    | ⟨1, _⟩ => rfl
  rw [hsi]

/-- Edge `e`'s start on the second axis is `idx[e, 1]` read signed. -/
theorem scatter2_start1 (e : Fin E) (idx : IVec ⟨2, ![E, 2]⟩ w) :
    (scatter2Dims N0 N1 E wf).start (ix1 e) idx 1 = (idx (ix2 e 1)).toInt := by
  unfold ScatterDims.start
  have hm : (1 : Fin 2) ∈ (scatter2Dims N0 N1 E wf).scatterDimsToOperandDims := by
    show (1 : Fin 2) ∈ ([0, 1] : List (Fin 2))
    decide
  rw [dif_pos hm]
  have hsi : (scatter2Dims N0 N1 E wf).siIdx (ix1 e) ⟨List.idxOf (1 : Fin 2) (scatter2Dims N0 N1 E wf).scatterDimsToOperandDims,
      List.idxOf_lt_length_iff.2 hm⟩ = ix2 e 1 := by
    funext b; refine Fin.ext ?_
    match b with
    | ⟨0, _⟩ => rfl
    | ⟨1, _⟩ => rfl
  rw [hsi]

/-- There is no window: the window coordinate is `0` on both axes. -/
theorem scatter2_window (j : (⟨1, ![E]⟩ : Shape).Idx) (a : Fin 2) : (scatter2Dims N0 N1 E wf).window j a = 0 := by
  unfold ScatterDims.window
  have hk : a ∉ (scatter2Dims N0 N1 E wf).sKept := by
    show a ∉ ([] : List (Fin 2))
    exact List.not_mem_nil
  rw [dif_neg hk]

/-- Edge `e` lands on `(j, i)` exactly when `idx[e, 0]` is `j` and `idx[e, 1]` is `i`, both read signed. -/
theorem scatter2_resultIdx?_iff (e : Fin E) (j : Fin N0) (i : Fin N1) (idx : IVec ⟨2, ![E, 2]⟩ w) :
    (scatter2Dims N0 N1 E wf).resultIdx? (ix1 e) idx = some (ix2 j i)
      ↔ (idx (ix2 e 0)).toInt = (j.val : ℤ) ∧ (idx (ix2 e 1)).toInt = (i.val : ℤ) := by
  rw [resultIdx?_eq_some_iff]
  constructor
  · intro h
    have h0 := h 0
    have h1 := h 1
    rw [scatter2_start0, scatter2_window, Nat.cast_zero, add_zero] at h0
    rw [scatter2_start1, scatter2_window, Nat.cast_zero, add_zero] at h1
    exact ⟨h0, h1⟩
  · rintro ⟨h0, h1⟩ a
    match a with
    | ⟨0, _⟩ =>
      show (scatter2Dims N0 N1 E wf).start (ix1 e) idx 0 + ((scatter2Dims N0 N1 E wf).window (ix1 e) 0 : ℤ) = (j.val : ℤ)
      rw [scatter2_start0, scatter2_window, Nat.cast_zero, add_zero]
      exact h0
    | ⟨1, _⟩ =>
      show (scatter2Dims N0 N1 E wf).start (ix1 e) idx 1 + ((scatter2Dims N0 N1 E wf).window (ix1 e) 1 : ℤ) = (i.val : ℤ)
      rw [scatter2_start1, scatter2_window, Nat.cast_zero, add_zero]
      exact h1

/-- THE SCATTER-ADD READ AT `(j, i)`: the operand there plus the updates of the edges whose pair of start
    indices is `(j, i)`. -/
theorem scatterAdd2_apply {φ : FTy} (x : FVec Ideal ⟨2, ![N0, N1]⟩ φ) (idx : IVec ⟨2, ![E, 2]⟩ w)
    (upd : FVec Ideal ⟨1, ![E]⟩ φ) (j : Fin N0) (i : Fin N1) :
    Host.scatterAdd (F := Ideal) (scatter2Dims N0 N1 E wf) x idx upd (ix2 j i)
      = x (ix2 j i) + ∑ e ∈ Finset.univ.filter (fun e : Fin E =>
          (idx (ix2 e 0)).toInt = (j.val : ℤ) ∧ (idx (ix2 e 1)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter2_resultIdx?_iff wf e j i idx) fun _ _ => rfl

/-- The same read when both start indices are known to name nodes: `row e` and `col e` are edge `e`'s two
    nodes, and the edges summed are those with `row e = j ∧ col e = i`. -/
theorem scatterAdd2_apply_of_nodes {φ : FTy} (x : FVec Ideal ⟨2, ![N0, N1]⟩ φ) (idx : IVec ⟨2, ![E, 2]⟩ w)
    (upd : FVec Ideal ⟨1, ![E]⟩ φ) (row : Fin E → Fin N0) (col : Fin E → Fin N1)
    (hrow : ∀ e, (idx (ix2 e 0)).toInt = ((row e).val : ℤ)) (hcol : ∀ e, (idx (ix2 e 1)).toInt = ((col e).val : ℤ))
    (j : Fin N0) (i : Fin N1) :
    Host.scatterAdd (F := Ideal) (scatter2Dims N0 N1 E wf) x idx upd (ix2 j i)
      = x (ix2 j i) + ∑ e ∈ Finset.univ.filter (fun e : Fin E => row e = j ∧ col e = i), upd (ix1 e) := by
  rw [scatterAdd2_apply]
  congr 1
  refine Finset.sum_congr (Finset.filter_congr fun e _ => ?_) fun _ _ => rfl
  rw [hrow e, hcol e, Nat.cast_inj, Nat.cast_inj, Fin.val_inj, Fin.val_inj]

end Scatter2

/-! ## Clamped start indices -/

/-- The node a signed start index names once clamped into `[0, N − 1]`, as a gather reads it. -/
def clampIdx {N : Nat} (hN : 0 < N) (z : ℤ) : Fin N := ⟨min z.toNat (N - 1), by omega⟩

/-- Inside `[0, N)` the clamp is the identity. -/
theorem clampIdx_of_inRange {N : Nat} (hN : 0 < N) {z : ℤ} (h0 : 0 ≤ z) (h1 : z < N) :
    clampIdx hN z = ⟨z.toNat, by omega⟩ := by
  refine Fin.ext ?_
  show min z.toNat (N - 1) = z.toNat
  omega

/-- A signed start index is node `j` (a scatter's landing condition) exactly when it is inside `[0, N)` and
    clamps to `j` (a gather's reading). -/
theorem eq_coe_iff_clampIdx {N : Nat} (hN : 0 < N) (z : ℤ) (j : Fin N) :
    z = (j.val : ℤ) ↔ (0 ≤ z ∧ z < N) ∧ clampIdx hN z = j := by
  have hj := j.isLt
  constructor
  · intro h
    refine ⟨⟨by omega, by omega⟩, Fin.ext ?_⟩
    show min z.toNat (N - 1) = j.val
    omega
  · rintro ⟨⟨h0, h1⟩, h⟩
    have := congrArg Fin.val h
    change min z.toNat (N - 1) = j.val at this
    omega

/-! ## Gathers: one start index per edge -/

section Gather1
variable {N E w : Nat} {α : Type} (wf : GatherDims.WF ⟨1, ![N]⟩ ⟨2, ![E, 1]⟩ ⟨1, ![E]⟩ [] [0] [] [0] [] 1 ![1])

/-- `x[idx]` for `x : [N]`, `idx : [E, 1]`: slices of one element, the operand's axis collapsed and named by
    the start index's one component. -/
abbrev gather1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT EDGE `e`: the operand at `idx[e, 0]`, read signed and clamped into `[0, N − 1]`. -/
theorem gather1_apply (hN : 0 < N) (x : (⟨1, ![N]⟩ : Shape).Idx → α) (idx : IVec ⟨2, ![E, 1]⟩ w) (e : Fin E) :
    Host.gather (gather1Dims N E wf) x idx (ix1 e) = x (ix1 (clampIdx hN (idx (ix2 e 0)).toInt)) := by
  unfold Host.gather
  congr 1
  funext a
  obtain rfl : a = 0 := Subsingleton.elim _ _
  refine Fin.ext ?_
  show (gather1Dims N E wf).start (ix1 e) idx 0 + (gather1Dims N E wf).batchCoord (ix1 e) 0
    + (gather1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N E wf).startIndexMap from List.mem_singleton.mpr rfl)]
  have hsi : (gather1Dims N E wf).siIdx (ix1 e) ⟨List.idxOf (0 : Fin 1) (gather1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather read at edge `e` when `idx[e, 0]` names a node: the operand at that node. -/
theorem gather1_apply_of_inRange (x : (⟨1, ![N]⟩ : Shape).Idx → α) (idx : IVec ⟨2, ![E, 1]⟩ w) (e : Fin E)
    (h0 : 0 ≤ (idx (ix2 e 0)).toInt) (h1 : (idx (ix2 e 0)).toInt < N) :
    Host.gather (gather1Dims N E wf) x idx (ix1 e) = x (ix1 ⟨(idx (ix2 e 0)).toInt.toNat, by omega⟩) := by
  have hN : 0 < N := by omega
  rw [gather1_apply wf hN, clampIdx_of_inRange hN h0 h1]

end Gather1

section Gather1Col
variable {N E w : Nat} {α : Type}
  (wf : GatherDims.WF ⟨2, ![N, 1]⟩ ⟨2, ![E, 1]⟩ ⟨2, ![E, 1]⟩ [1] [0] [] [0] [] 1 ![1, 1])

/-- `x[idx]` for `x : [N, 1]`, `idx : [E, 1]`: slices `[1, 1]`, the operand's leading axis collapsed and named by
    the start index's one component, its trailing axis the result's offset axis. -/
abbrev gather1ColDims (N E : Nat)
    (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- THE GATHER READ AT `(e, 0)`: the operand at `(idx[e, 0], 0)`, the start index read signed and clamped into
    `[0, N − 1]`. -/
theorem gather1Col_apply (hN : 0 < N) (x : (⟨2, ![N, 1]⟩ : Shape).Idx → α) (idx : IVec ⟨2, ![E, 1]⟩ w) (e : Fin E) :
    Host.gather (gather1ColDims N E wf) x idx (ix2 e 0) = x (ix2 (clampIdx hN (idx (ix2 e 0)).toInt) 0) := by
  unfold Host.gather
  congr 1
  funext a
  refine Fin.ext ?_
  match a with
  | ⟨0, _⟩ =>
    show (gather1ColDims N E wf).start (ix2 e 0) idx 0 + (gather1ColDims N E wf).batchCoord (ix2 e 0) 0
      + (gather1ColDims N E wf).offCoord (ix2 e 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather1ColDims N E wf).startIndexMap from List.mem_singleton.mpr rfl)]
    have hsi : (gather1ColDims N E wf).siIdx (ix2 e 0) ⟨List.idxOf (0 : Fin 2) (gather1ColDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gather1ColDims N E wf).start (ix2 e 0) idx 1 + (gather1ColDims N E wf).batchCoord (ix2 e 0) 1
      + (gather1ColDims N E wf).offCoord (ix2 e 0) 1 = 0
    have hs : (gather1ColDims N E wf).start (ix2 e 0) idx 1 = 0 := by
      unfold GatherDims.start
      have h : (1 : Fin 2) ∉ (gather1ColDims N E wf).startIndexMap := by
        show (1 : Fin 2) ∉ ([0] : List (Fin 2))
        decide
      rw [dif_neg h]
    have ho : (gather1ColDims N E wf).offCoord (ix2 e 0) 1 = 0 := by
      unfold GatherDims.offCoord
      have hk : (1 : Fin 2) ∈ (gather1ColDims N E wf).sKept := by
        show (1 : Fin 2) ∈ ([1] : List (Fin 2))
        decide
      rw [dif_pos hk]
      rfl
    rw [hs, GatherDims.batchCoord_eq_zero _ _ _ List.not_mem_nil, ho]

/-- The gather read at `(e, 0)` when `idx[e, 0]` names a node: the operand at `(that node, 0)`. -/
theorem gather1Col_apply_of_inRange (x : (⟨2, ![N, 1]⟩ : Shape).Idx → α) (idx : IVec ⟨2, ![E, 1]⟩ w) (e : Fin E)
    (h0 : 0 ≤ (idx (ix2 e 0)).toInt) (h1 : (idx (ix2 e 0)).toInt < N) :
    Host.gather (gather1ColDims N E wf) x idx (ix2 e 0) = x (ix2 ⟨(idx (ix2 e 0)).toInt.toNat, by omega⟩ 0) := by
  have hN : 0 < N := by omega
  rw [gather1Col_apply wf hN, clampIdx_of_inRange hN h0 h1]

end Gather1Col

end Cert.LibScatterRead
-- ==== Proof.Spec.lean ====
/-
  The function both programs compute, index by index, on the extended reals.

  A two-layer graph convolution followed by a two-branch head.  The graph has 100000 nodes and 1600000 edges;
  edge `e` goes from node `row e` to node `col e`, both read from the integer array `ei : [2, 1600000]`.
  An edge LANDS on node `j` when its raw target index is `j` (out-of-range targets are dropped); the SOURCE it
  reads is its source index with a negative value wrapped by 100000 and then clamped into range.
  With `deg j = 1 + #{edges landing on j}` and `dinv j = deg j ^ (-1/2)`, one convolution of node features `f` is
      rep j n = max (dinv j * ((0 + Σ_{e lands on j} f' (src e) n) + f' j n) + b n) 0,   f' j n = (Σ_k f j k * W k n) * dinv j.
-/
import proofs.«139885_j17411797418342_2_alg».proof.Proof.LibScatterRead
import Idealize.ShloMosaic.PureOps.Ideal
import Idealize.ShloMosaic.Lib.ValueIdx

noncomputable section

namespace Cert.Spec

open Idealize.ShloMosaic Idealize.ShloMosaic.ValueIdx Cert.LibScatterRead
open scoped BigOperators

abbrev NN : Nat := 100000
abbrev EE : Nat := 1600000

abbrev SNC : Shape := ⟨2, ![100000, 128]⟩
abbrev SN : Shape := ⟨1, ![100000]⟩
abbrev SEI : Shape := ⟨2, ![2, 1600000]⟩
abbrev SCC : Shape := ⟨2, ![128, 128]⟩
abbrev SC : Shape := ⟨1, ![128]⟩
abbrev S2CC : Shape := ⟨3, ![2, 128, 128]⟩
abbrev S2C : Shape := ⟨2, ![2, 128]⟩
abbrev SC1 : Shape := ⟨2, ![128, 1]⟩
abbrev SONE : Shape := ⟨1, ![1]⟩

theorem NN_pos : 0 < NN := by decide

/-- A negative index wrapped by the number of nodes (what indexing an array with a negative index means). -/
def wrap (z : BitVec 32) : BitVec 32 := Scalar.select (IntOp.cmpi .slt z 0#32) (IntOp.addi z 100000#32) z

/-- The edges that land on node `j`: those whose raw target index is `j`. -/
def lands (ei : SEI.Idx → BitVec 32) (j : Fin NN) : Finset (Fin EE) :=
  Finset.univ.filter (fun e : Fin EE => (ei (ix2 (1 : Fin 2) e)).toInt = (j.val : ℤ))

/-- The node edge `e` reads: its source index wrapped, then clamped into range. -/
def src (ei : SEI.Idx → BitVec 32) (e : Fin EE) : Fin NN := clampIdx NN_pos (wrap (ei (ix2 (0 : Fin 2) e))).toInt

/-- The node edge `e`'s target index names when wrapped and clamped (on an edge that lands it is the target). -/
def dstc (ei : SEI.Idx → BitVec 32) (e : Fin EE) : Fin NN := clampIdx NN_pos (wrap (ei (ix2 (1 : Fin 2) e))).toInt

/-- `deg j`: one for the self loop plus one per edge landing on `j`. -/
def deg (ei : SEI.Idx → BitVec 32) (j : Fin NN) : EReal :=
  (Ideal.ofBits .f32 0x00000000#32 + ∑ _e ∈ lands ei j, Ideal.ofBits .f32 0x3F800000#32) + Ideal.ofBits .f32 0x3F800000#32

/-- `dinv j = deg j ^ (-1/2)`. -/
def dinv (ei : SEI.Idx → BitVec 32) (j : Fin NN) : EReal := Ideal.rsqrt (deg ei j)

/-- Features times a weight matrix, then scaled by the node's `dinv`. -/
def scaled (ei : SEI.Idx → BitVec 32) (f : Fin NN → Fin 128 → EReal) (W : SCC.Idx → EReal) (j : Fin NN) (n : Fin 128) : EReal :=
  (∑ k : Fin 128, f j k * W (ix2 k n)) * dinv ei j

/-- The sum over the edges landing on `j` of the scaled features of their sources. -/
def agg (ei : SEI.Idx → BitVec 32) (g : Fin NN → Fin 128 → EReal) (j : Fin NN) (n : Fin 128) : EReal :=
  Ideal.ofBits .f32 0x00000000#32 + ∑ e ∈ lands ei j, g (src ei e) n

/-- One convolution from the scaled features `g`: neighbours and self loop, rescaled, biased, rectified. -/
def conv (ei : SEI.Idx → BitVec 32) (g : Fin NN → Fin 128 → EReal) (b : SC.Idx → EReal) (j : Fin NN) (n : Fin 128) : EReal :=
  max (dinv ei j * (agg ei g j n + g j n) + b (ix1 n)) (Ideal.ofBits .f32 0x00000000#32)

/-- The first layer's output. -/
def rep1 (ei : SEI.Idx → BitVec 32) (x : SNC.Idx → EReal) (W0 : SCC.Idx → EReal) (b0 : SC.Idx → EReal) : Fin NN → Fin 128 → EReal :=
  conv ei (scaled ei (fun j k => x (ix2 j k)) W0) b0

/-- The second layer's output. -/
def rep2 (ei : SEI.Idx → BitVec 32) (x : SNC.Idx → EReal) (W0 : SCC.Idx → EReal) (b0 : SC.Idx → EReal)
    (W1 : SCC.Idx → EReal) (b1 : SC.Idx → EReal) : Fin NN → Fin 128 → EReal :=
  conv ei (scaled ei (rep1 ei x W0 b0) W1) b1

/-- A hidden branch of the head: the LAST of the two weight matrices and biases, rectified. -/
def hidden (r : Fin NN → Fin 128 → EReal) (W : S2CC.Idx → EReal) (b : S2C.Idx → EReal) (j : Fin NN) (n : Fin 128) : EReal :=
  max ((∑ k : Fin 128, r j k * W (ix3 (1 : Fin 2) k n)) + b (ix2 (1 : Fin 2) n)) (Ideal.ofBits .f32 0x00000000#32)

/-- A scalar read-out: a dot product with a column plus a bias. -/
def readout (r : Fin NN → Fin 128 → EReal) (w : SC1.Idx → EReal) (b : SONE.Idx → EReal) (j : Fin NN) : EReal :=
  (∑ k : Fin 128, r j k * w (ix2 k (0 : Fin 1))) + b (ix1 (0 : Fin 1))

/-- The second result: the read-out of the branch the node's treatment flag chooses. -/
def yOut (ei : SEI.Idx → BitVec 32) (x : SNC.Idx → EReal) (t : SN.Idx → BitVec 32) (W0 : SCC.Idx → EReal) (b0 : SC.Idx → EReal)
    (W1 : SCC.Idx → EReal) (b1 : SC.Idx → EReal) (W00 : S2CC.Idx → EReal) (b00 : S2C.Idx → EReal) (W10 : S2CC.Idx → EReal)
    (b10 : S2C.Idx → EReal) (w01 : SC1.Idx → EReal) (b01 : SONE.Idx → EReal) (w11 : SC1.Idx → EReal) (b11 : SONE.Idx → EReal)
    (j : Fin NN) : EReal :=
  Scalar.select (IntOp.cmpi .sgt (t (ix1 j)) 0#32)
    (readout (hidden (rep2 ei x W0 b0 W1 b1) W10 b10) w11 b11 j)
    (readout (hidden (rep2 ei x W0 b0 W1 b1) W00 b00) w01 b01 j)

/-- The first result: the logistic function of a read-out of the second layer. -/
def pOut (ei : SEI.Idx → BitVec 32) (x : SNC.Idx → EReal) (W0 : SCC.Idx → EReal) (b0 : SC.Idx → EReal)
    (W1 : SCC.Idx → EReal) (b1 : SC.Idx → EReal) (ppw : SC1.Idx → EReal) (ppb : SONE.Idx → EReal) (j : Fin NN) : EReal :=
  Ideal.logistic (readout (rep2 ei x W0 b0 W1 b1) ppw ppb j)

end Cert.Spec

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.KerHost0.lean ====
/-
  The edge array `[2, 1600000]` read at an index: row `r` sliced out and flattened to a vector of edge indices is
  `e ↦ ei (r, e)`, and such a vector laid out as the `[1600000, 1]` column of start indices a gather or a scatter takes
  reads, at `(e, 0)`, the vector's entry `e`.
-/
import proofs.«139885_j17411797418342_2_alg».proof.Proof.KernelIdealFrameP
import proofs.«139885_j17411797418342_2_alg».proof.Proof.Spec
import proofs.«139885_j17411797418342_2_alg».proof.Proof.LibKeepdims
import Idealize.ShloMosaic.Lib.StableHlo.Run
import Idealize.ShloMosaic.Lib.Pipeline.Value

set_option maxRecDepth 16384

noncomputable section

namespace Cert.KernelIdeal.Host

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx Cert.LibScatterRead
open scoped BigOperators

/-! ## The edge array's rows -/

/-- Row `r` of the edge array as a vector of edge indices. -/
def eiRow (r : Nat) (h : S2x1600000.Slices ![r, 0] S1x1600000) (ei : S2x1600000.Idx → BitVec 32) : IVec S1600000 32 :=
  shapeCast S1600000 (extractStridedSlice S1x1600000 ![r, 0] ei h) shapeCasts_S1x1600000_S1600000

theorem eiRow_apply (r : Fin 2) (h : S2x1600000.Slices ![r.val, 0] S1x1600000) (ei : S2x1600000.Idx → BitVec 32) (e : Fin 1600000) :
    eiRow r.val h ei (ix1 e) = ei (ix2 r e) := by
  unfold eiRow
  rw [shapeCast_apply _ shapeCasts_S1x1600000_S1600000 (ix1 e) (ix2 (0 : Fin 1) e) (by
    rw [Shape.rowMajor_val_two, Shape.rowMajor_val_one]
    show 0 * 1600000 + e.val = e.val
    omega)]
  refine extractStridedSlice_apply _ ei h (ix2 (0 : Fin 1) e) (ix2 r e) fun a => ?_
  match a with
  | ⟨0, _⟩ => show r.val = r.val + 0; omega
  | ⟨1, _⟩ => show e.val = 0 + e.val; omega

/-- A vector of edge indices as the column of start indices a gather or a scatter takes. -/
theorem col_apply (v : IVec S1600000 32) (e : Fin 1600000) :
    broadcastInDim S1600000x1 ![0] bcast_S1600000_S1600000x1_0 v (ix2 e (0 : Fin 1)) = v (ix1 e) :=
  broadcastInDim_apply _ _ v (ix2 e (0 : Fin 1)) (ix1 e) fun a => by
    match a with
    | ⟨0, _⟩ => rfl

end Cert.KernelIdeal.Host

end
-- ==== Proof.LibRowScatter.lean ====
/-
  The row forms of an accumulating scatter and of a gather, read at an index: an array of `N` nodes with `C`
  channels each, and one start index per edge. A scatter adds edge `e`'s whole row of `C` updates onto the
  row of the node its start index names (dropped when it names none); a gather copies, for edge `e`, the whole
  row of the node its start index names once clamped into range. In both the channel coordinate is carried
  through unchanged, so at channel `c` each is the rank-1 statement about column `c`.
-/
import proofs.«139885_j17411797418342_2_alg».proof.Proof.LibScatterRead

open scoped BigOperators

namespace Cert.LibRowScatter

open Idealize.ShloMosaic Idealize.ShloMosaic.ValueIdx Cert.LibScatterRead

/-! ## Scatter of rows -/

section ScatterRow
variable {N C E w : Nat} (wf : ScatterDims.WF ⟨2, ![N, C]⟩ ⟨2, ![E, 1]⟩ ⟨2, ![E, C]⟩ [1] [0] [0] 1)

/-- `x.at[idx].add(upd)` for `x : [N, C]`, `idx : [E, 1]`, `upd : [E, C]`: the updates' trailing axis is a
    window over the operand's channel axis, the operand's node axis inserted and named by the start
    index's one component. -/
abbrev scatterRowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, c)`'s start on the node axis is `idx[e, 0]` read signed, whatever the channel. -/
theorem scatterRow_start0 (e : Fin E) (c : Fin C) (idx : IVec ⟨2, ![E, 1]⟩ w) :
    (scatterRowDims N C E wf).start (ix2 e c) idx 0 = (idx (ix2 e 0)).toInt := by
  unfold ScatterDims.start
  rw [dif_pos (show (0 : Fin 2) ∈ (scatterRowDims N C E wf).scatterDimsToOperandDims from List.mem_singleton.mpr rfl)]
  have hsi : (scatterRowDims N C E wf).siIdx (ix2 e c) ⟨List.idxOf (0 : Fin 2) (scatterRowDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The start index names no position on the channel axis: the start there is `0`. -/
theorem scatterRow_start1 (j : (⟨2, ![E, C]⟩ : Shape).Idx) (idx : IVec ⟨2, ![E, 1]⟩ w) :
    (scatterRowDims N C E wf).start j idx 1 = 0 := by
  unfold ScatterDims.start
  have h : (1 : Fin 2) ∉ (scatterRowDims N C E wf).scatterDimsToOperandDims := by
    show (1 : Fin 2) ∉ ([0] : List (Fin 2))
    decide
  rw [dif_neg h]

/-- The node axis is inserted: the window coordinate there is `0`. -/
theorem scatterRow_window0 (j : (⟨2, ![E, C]⟩ : Shape).Idx) : (scatterRowDims N C E wf).window j 0 = 0 := by
  unfold ScatterDims.window
  have hk : (0 : Fin 2) ∉ (scatterRowDims N C E wf).sKept := by
    show (0 : Fin 2) ∉ ([1] : List (Fin 2))
    decide
  rw [dif_neg hk]

/-- The window coordinate on the channel axis is the update's channel. -/
theorem scatterRow_window1 (e : Fin E) (c : Fin C) : (scatterRowDims N C E wf).window (ix2 e c) 1 = c.val := by
  unfold ScatterDims.window
  have hk : (1 : Fin 2) ∈ (scatterRowDims N C E wf).sKept := by
    show (1 : Fin 2) ∈ ([1] : List (Fin 2))
    decide
  rw [dif_pos hk]
  rfl

/-- Update `(e, c')` lands on `(i, c)` exactly when `idx[e, 0]`, read signed, is `i` and the channels agree. -/
theorem scatterRow_resultIdx?_iff (e : Fin E) (c' c : Fin C) (i : Fin N) (idx : IVec ⟨2, ![E, 1]⟩ w) :
    (scatterRowDims N C E wf).resultIdx? (ix2 e c') idx = some (ix2 i c)
      ↔ (idx (ix2 e 0)).toInt = (i.val : ℤ) ∧ c' = c := by
  rw [resultIdx?_eq_some_iff]
  constructor
  · intro h
    have h0 := h 0
    have h1 := h 1
    rw [scatterRow_start0, scatterRow_window0, Nat.cast_zero, add_zero] at h0
    rw [scatterRow_start1, scatterRow_window1, zero_add] at h1
    refine ⟨h0, Fin.ext ?_⟩
    have h1' : ((c'.val : ℕ) : ℤ) = ((c.val : ℕ) : ℤ) := h1
    exact_mod_cast h1'
  · rintro ⟨h0, rfl⟩ a
    match a with
    | ⟨0, _⟩ =>
      show (scatterRowDims N C E wf).start (ix2 e c') idx 0 + ((scatterRowDims N C E wf).window (ix2 e c') 0 : ℤ) = (i.val : ℤ)
      rw [scatterRow_start0, scatterRow_window0, Nat.cast_zero, add_zero]
      exact h0
    | ⟨1, _⟩ =>
      show (scatterRowDims N C E wf).start (ix2 e c') idx 1 + ((scatterRowDims N C E wf).window (ix2 e c') 1 : ℤ) = ((c'.val : ℕ) : ℤ)
      rw [scatterRow_start1, scatterRow_window1, zero_add]

/-- THE ROW SCATTER-ADD READ AT `(i, c)`: the operand there plus channel `c` of the rows of the edges whose
    start index is `i`. -/
theorem scatterAddRow_apply {φ : FTy} (x : FVec Ideal ⟨2, ![N, C]⟩ φ) (idx : IVec ⟨2, ![E, 1]⟩ w)
    (upd : FVec Ideal ⟨2, ![E, C]⟩ φ) (i : Fin N) (c : Fin C) :
    Host.scatterAdd (F := Ideal) (scatterRowDims N C E wf) x idx upd (ix2 i c)
      = x (ix2 i c) + ∑ e ∈ Finset.univ.filter (fun e : Fin E => (idx (ix2 e 0)).toInt = (i.val : ℤ)), upd (ix2 e c) := by
  unfold Host.scatterAdd
  rw [Ideal.hostScatterAdd_def]
  unfold Ideal.hostScatterAdd
  congr 1
  rw [Finset.sum_filter, sum_idx2, Finset.sum_filter]
  refine Finset.sum_congr rfl fun e _ => ?_
  have h : ∀ c' : Fin C,
      (if (scatterRowDims N C E wf).resultIdx? (ix2 e c') idx = some (ix2 i c) then upd (ix2 e c') else 0)
        = if c' = c then (if (idx (ix2 e 0)).toInt = (i.val : ℤ) then upd (ix2 e c) else 0) else 0 := by
    intro c'
    by_cases hc : c' = c
    · subst hc
      rw [if_pos rfl]
      exact if_congr ((scatterRow_resultIdx?_iff wf e c' c' i idx).trans (and_iff_left rfl)) rfl rfl
    · rw [if_neg hc, if_neg]
      intro hr
      exact hc ((scatterRow_resultIdx?_iff wf e c' c i idx).mp hr).2
  rw [Finset.sum_congr rfl fun c' _ => h c', Finset.sum_ite_eq' Finset.univ c]
  simp only [Finset.mem_univ, if_true]

end ScatterRow

/-! ## Gather of rows -/

section GatherRow
variable {N C E w : Nat} {α : Type}
  (wf : GatherDims.WF ⟨2, ![N, C]⟩ ⟨2, ![E, 1]⟩ ⟨2, ![E, C]⟩ [1] [0] [] [0] [] 1 ![1, C])

/-- `x[idx]` for `x : [N, C]`, `idx : [E, 1]`: slices `[1, C]`, the operand's node axis collapsed and named by
    the start index's one component, its channel axis the result's offset axis. -/
abbrev gatherRowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at `(idx[e, 0], c)`, the start index read signed and clamped
    into `[0, N − 1]`. -/
theorem gatherRow_apply (hN : 0 < N) (x : (⟨2, ![N, C]⟩ : Shape).Idx → α) (idx : IVec ⟨2, ![E, 1]⟩ w)
    (e : Fin E) (c : Fin C) :
    Host.gather (gatherRowDims N C E wf) x idx (ix2 e c) = x (ix2 (clampIdx hN (idx (ix2 e 0)).toInt) c) := by
  unfold Host.gather
  congr 1
  funext a
  refine Fin.ext ?_
  match a with
  | ⟨0, _⟩ =>
    show (gatherRowDims N C E wf).start (ix2 e c) idx 0 + (gatherRowDims N C E wf).batchCoord (ix2 e c) 0
      + (gatherRowDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowDims N C E wf).startIndexMap from List.mem_singleton.mpr rfl)]
    have hsi : (gatherRowDims N C E wf).siIdx (ix2 e c) ⟨List.idxOf (0 : Fin 2) (gatherRowDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowDims N C E wf).start (ix2 e c) idx 1 + (gatherRowDims N C E wf).batchCoord (ix2 e c) 1
      + (gatherRowDims N C E wf).offCoord (ix2 e c) 1 = c.val
    have hs : (gatherRowDims N C E wf).start (ix2 e c) idx 1 = 0 := by
      unfold GatherDims.start
      have h : (1 : Fin 2) ∉ (gatherRowDims N C E wf).startIndexMap := by
        show (1 : Fin 2) ∉ ([0] : List (Fin 2))
        decide
      rw [dif_neg h]
    have ho : (gatherRowDims N C E wf).offCoord (ix2 e c) 1 = c.val := by
      unfold GatherDims.offCoord
      have hk : (1 : Fin 2) ∈ (gatherRowDims N C E wf).sKept := by
        show (1 : Fin 2) ∈ ([1] : List (Fin 2))
        decide
      rw [dif_pos hk]
      rfl
    rw [hs, GatherDims.batchCoord_eq_zero _ _ _ List.not_mem_nil, ho]
    omega

end GatherRow

end Cert.LibRowScatter
-- ==== Proof.LibSegmentSum.lean ====
/-
  A segment sum read at an index: scattering, with addition, the gathered rows of an array onto the rows of another.
  Entry `(j, n)` of the result is the operand's entry there plus the sum, over the edges whose destination index is
  `j`, of entry `n` of the row of `P` that the edge's source index names (clamped into range).
-/
import proofs.«139885_j17411797418342_2_alg».proof.Proof.LibRowScatter

open scoped BigOperators

namespace Cert.LibSegmentSum

open Idealize.ShloMosaic Idealize.ShloMosaic.ValueIdx Cert.LibScatterRead Cert.LibRowScatter

/-- `z.at[dst].add(P[src])` at `(j, n)`, for `z : [N, C]`, `P : [M, C]`, `dst src : [E, 1]`. -/
theorem scatter_gather_apply {N C E M w : Nat} {φ : FTy}
    (wfS : ScatterDims.WF ⟨2, ![N, C]⟩ ⟨2, ![E, 1]⟩ ⟨2, ![E, C]⟩ [1] [0] [0] 1)
    (wfG : GatherDims.WF ⟨2, ![M, C]⟩ ⟨2, ![E, 1]⟩ ⟨2, ![E, C]⟩ [1] [0] [] [0] [] 1 ![1, C]) (hM : 0 < M)
    (z : FVec Ideal ⟨2, ![N, C]⟩ φ) (dst src : IVec ⟨2, ![E, 1]⟩ w) (P : FVec Ideal ⟨2, ![M, C]⟩ φ) (j : Fin N) (n : Fin C) :
    Host.scatterAdd (F := Ideal) (scatterRowDims N C E wfS) z dst (Host.gather (gatherRowDims M C E wfG) P src) (ix2 j n)
      = z (ix2 j n) + ∑ e ∈ Finset.univ.filter (fun e : Fin E => (dst (ix2 e 0)).toInt = (j.val : ℤ)),
          P (ix2 (clampIdx hM (src (ix2 e 0)).toInt) n) := by
  rw [scatterAddRow_apply]
  exact congrArg (z (ix2 j n) + ·) (Finset.sum_congr rfl fun e _ => gatherRow_apply wfG hM P src e n)

end Cert.LibSegmentSum
-- ==== Proof.KerSeg.lean ====
/-
  The host operations between the kernel program's regions, read at an index against the specification.
  * The aggregation: the bf16 copy of the scaled features is gathered at each edge's source index (a negative index
    wrapped by the number of nodes, then clamped into range by the gather), widened to f32 (the identity on extended
    reals), and scattered with addition into zeros at each edge's raw target index. Entry (j, n) of the result is
    `0 + Σ_{e lands on j} P (src e, n)`.
  * The normalisation column: ones scattered with addition into zeros at the raw target indices, plus one, under the
    reciprocal square root, recast as a column. Entry (j, 0) is `(0 + Σ_{e lands on j} 1 + 1) ^ (-1/2)`.
  The start-index columns are the edge list's two rows laid along a trailing unit axis.
-/
import proofs.«139885_j17411797418342_2_alg».proof.KernelIdeal
import proofs.«139885_j17411797418342_2_alg».proof.Proof.Spec
import proofs.«139885_j17411797418342_2_alg».proof.Proof.LibSegmentSum
import proofs.«139885_j17411797418342_2_alg».proof.Proof.LibKeepdims
import Idealize.ShloMosaic.Lib.Pipeline.Value

noncomputable section

namespace Cert.KernelIdeal.Seg

open Cert.KernelIdeal Idealize.ShloMosaic Idealize.ShloMosaic.ValueIdx
open Cert.LibScatterRead Cert.LibRowScatter Cert.LibSegmentSum
open scoped BigOperators

variable [Facts₀]
open Facts₀

/-- The column of source start indices: each source index, wrapped by 100000 where negative, along a unit axis. -/
def srcCol (rowV : IVec S1600000 32) : IVec S1600000x1 32 :=
  broadcastInDim S1600000x1 ![0] bcast_S1600000_S1600000x1_0 (select (cmpi .slt rowV (broadcastInDim S1600000 ![] bcast_S_S1600000 (constantI S_ 32 0#32))) (addi rowV (broadcastInDim S1600000 ![] bcast_S_S1600000 (constantI S_ 32 100000#32))) rowV)
/-- The column of target start indices: each raw target index along a unit axis. -/
def dstCol (colV : IVec S1600000 32) : IVec S1600000x1 32 := broadcastInDim S1600000x1 ![0] bcast_S1600000_S1600000x1_0 colV

/-- Entry `(e, 0)` of a vector laid along a trailing unit axis is the vector's entry `e`. -/
theorem col_apply (v : IVec S1600000 32) (e : Fin 1600000) :
    broadcastInDim S1600000x1 ![0] bcast_S1600000_S1600000x1_0 v (ix2 e (0 : Fin 1)) = v (ix1 e) :=
  broadcastInDim_apply _ _ v (ix2 e (0 : Fin 1)) (ix1 e) (fun a => by
    match a with
    | ⟨0, _⟩ => rfl)

/-- The target column at edge `e` is the raw target index. -/
theorem dstCol_apply (colV : IVec S1600000 32) (e : Fin 1600000) : dstCol colV (ix2 e (0 : Fin 1)) = colV (ix1 e) :=
  col_apply colV e

/-- The source column at edge `e` is the source index wrapped. -/
theorem srcCol_apply (rowV : IVec S1600000 32) (e : Fin 1600000) :
    srcCol rowV (ix2 e (0 : Fin 1)) = Cert.Spec.wrap (rowV (ix1 e)) :=
  (col_apply _ e).trans rfl

/-- THE AGGREGATION AT `(j, n)`: zero plus the sum, over the edges landing on node `j`, of channel `n` of the row of `P`
    at the edge's wrapped and clamped source. -/
theorem seg_apply (ei : S2x1600000.Idx → BitVec 32) (P : FVec Ideal S100000x128 .bf16) (rowV colV : IVec S1600000 32)
    (hrow : ∀ e : Fin 1600000, rowV (ix1 e) = ei (ix2 (0 : Fin 2) e)) (hcol : ∀ e : Fin 1600000, colV (ix1 e) = ei (ix2 (1 : Fin 2) e)) (j : Fin 100000) (n : Fin 128) :
    Host.scatterAdd (F := Ideal) scatter_S100000x128_S1600000x1_S1600000x128_1_0_0_1 (broadcastInDim S100000x128 ![] bcast_S_S100000x128 (constant (F := Ideal) S_ .f32 0x00000000#32)) (dstCol colV)
      (extf .f32 (Host.gather gather_S100000x128_S1600000x1_S1600000x128_1_0_n_n_0_1_1128 P (srcCol rowV)) bitsLt_bf16_f32) (ix2 j n)
    = Cert.Spec.agg ei (fun j n => P (ix2 j n)) j n := by
  -- widening bf16 to f32 is the identity on extended reals
  have hx : (extf .f32 (Host.gather gather_S100000x128_S1600000x1_S1600000x128_1_0_n_n_0_1_1128 P (srcCol rowV)) bitsLt_bf16_f32
        : FVec Ideal S1600000x128 .f32)
      = Host.gather (gatherRowDims 100000 128 1600000 gather_S100000x128_S1600000x1_S1600000x128_1_0_n_n_0_1_1128_wf)
          (P : FVec Ideal S100000x128 .f32) (srcCol rowV) := funext fun _ => rfl
  rw [hx]
  unfold Cert.Spec.agg Cert.Spec.lands Cert.Spec.src
  refine (scatter_gather_apply (φ := .f32) scatter_S100000x128_S1600000x1_S1600000x128_1_0_0_1_wf
    gather_S100000x128_S1600000x1_S1600000x128_1_0_n_n_0_1_1128_wf Cert.Spec.NN_pos _ (dstCol colV) (srcCol rowV) P j n).trans ?_
  refine congrArg₂ (· + ·) rfl (Finset.sum_congr (Finset.filter_congr fun e _ => ?_) fun e _ => ?_)
  · rw [dstCol_apply, hcol]
  · rw [srcCol_apply, hrow]

/-- The host's reciprocal square root at an index is that of the entry. -/
theorem hostRsqrt_apply {s : Shape} (x : FVec Ideal s .f32) (i : s.Idx) :
    Host.rsqrt (F := Ideal) x i = Ideal.rsqrt (x i) := rfl

/-- THE NORMALISATION COLUMN AT `(j, 0)`: the reciprocal square root of one plus the number of edges landing on `j`. -/
theorem dinv_apply (ei : S2x1600000.Idx → BitVec 32) (colV : IVec S1600000 32) (hcol : ∀ e : Fin 1600000, colV (ix1 e) = ei (ix2 (1 : Fin 2) e)) (j : Fin 100000) :
    shapeCast S100000x1 (Host.rsqrt (F := Ideal) (addf (Host.scatterAdd (F := Ideal) scatter_S100000_S1600000x1_S1600000_n_0_0_1 (broadcastInDim S100000 ![] bcast_S_S100000 (constant (F := Ideal) S_ .f32 0x00000000#32)) (dstCol colV) (broadcastInDim S1600000 ![] bcast_S_S1600000 (constant (F := Ideal) S_ .f32 0x3F800000#32))) (broadcastInDim S100000 ![] bcast_S_S100000 (constant (F := Ideal) S_ .f32 0x3F800000#32)))) shapeCasts_S100000_S100000x1 (ix2 j (0 : Fin 1))
    = Cert.Spec.dinv ei j := by
  unfold Cert.Spec.dinv Cert.Spec.deg Cert.Spec.lands
  refine (shapeCast_a_a1_apply _ shapeCasts_S100000_S100000x1 j (0 : Fin 1)).trans ?_
  refine (hostRsqrt_apply _ (ix1 j)).trans (congrArg Ideal.rsqrt ?_)
  refine (addf_apply _ _ _).trans (congrArg₂ (· + ·) ?_ rfl)
  refine (scatterAdd1_apply scatter_S100000_S1600000x1_S1600000_n_0_0_1_wf _ (dstCol colV) _ j).trans ?_
  refine congrArg₂ (· + ·) rfl (Finset.sum_congr (Finset.filter_congr fun e _ => ?_) fun _ _ => rfl)
  rw [dstCol_apply, hcol]

end Cert.KernelIdeal.Seg

end
-- ==== Proof.BlockSpec.lean ====
/-
  What the three kernel bodies compute on ONE block of rows, as functions of the blocks they load, index by index on
  the extended reals.  `P` is the number of rows of the block (5000 or 2000); every row is treated alike.
-/
import Idealize.ShloMosaic.PureOps.Ideal
import Idealize.ShloMosaic.Lib.ValueIdx

noncomputable section

namespace Cert.BlockSpec

open Idealize.ShloMosaic Idealize.ShloMosaic.ValueIdx
open scoped BigOperators

/-- A row of features against a weight matrix with `C` columns: the dot product with column `n`. -/
def lin {P C : Nat} (r : Fin P → Fin 128 → EReal) (W : (⟨2, ![128, C]⟩ : Shape).Idx → EReal) (p : Fin P) (n : Fin C) : EReal :=
  ∑ k : Fin 128, r p k * W (ix2 k n)

/-- The combine step of a convolution on a block: `max (dinv * (agg + hprev) + b) 0`, row `p`, channel `k`. -/
def combine {P : Nat} (agg hprev : (⟨2, ![P, 128]⟩ : Shape).Idx → EReal) (dinv : (⟨2, ![P, 1]⟩ : Shape).Idx → EReal)
    (b : (⟨2, ![1, 128]⟩ : Shape).Idx → EReal) (p : Fin P) (k : Fin 128) : EReal :=
  max (dinv (ix2 p (0 : Fin 1)) * (agg (ix2 p k) + hprev (ix2 p k)) + b (ix2 (0 : Fin 1) k)) (Ideal.ofBits .f32 0x00000000#32)

/-- The first kernel's block: `(x @ W) * dinv`. -/
def linearDinv {P : Nat} (x : (⟨2, ![P, 128]⟩ : Shape).Idx → EReal) (W : (⟨2, ![128, 128]⟩ : Shape).Idx → EReal)
    (dinv : (⟨2, ![P, 1]⟩ : Shape).Idx → EReal) (p : Fin P) (n : Fin 128) : EReal :=
  lin (fun p k => x (ix2 p k)) W p n * dinv (ix2 p (0 : Fin 1))

/-- The second kernel's block: `(combine @ W) * dinv`. -/
def combineLinear {P : Nat} (agg hprev : (⟨2, ![P, 128]⟩ : Shape).Idx → EReal) (dinv : (⟨2, ![P, 1]⟩ : Shape).Idx → EReal)
    (b : (⟨2, ![1, 128]⟩ : Shape).Idx → EReal) (W : (⟨2, ![128, 128]⟩ : Shape).Idx → EReal) (p : Fin P) (n : Fin 128) : EReal :=
  lin (combine agg hprev dinv b) W p n * dinv (ix2 p (0 : Fin 1))

/-- A hidden branch of the head on a block: `max (r @ W + b) 0`. -/
def hiddenB {P : Nat} (r : Fin P → Fin 128 → EReal) (W : (⟨2, ![128, 128]⟩ : Shape).Idx → EReal)
    (b : (⟨2, ![1, 128]⟩ : Shape).Idx → EReal) (p : Fin P) (n : Fin 128) : EReal :=
  max (lin r W p n + b (ix2 (0 : Fin 1) n)) (Ideal.ofBits .f32 0x00000000#32)

/-- A scalar read-out on a block: `r @ w + b` for a column `w` and a one-element bias. -/
def readoutB {P : Nat} (r : Fin P → Fin 128 → EReal) (w : (⟨2, ![128, 1]⟩ : Shape).Idx → EReal)
    (b : (⟨2, ![1, 1]⟩ : Shape).Idx → EReal) (p : Fin P) : EReal :=
  lin r w p (0 : Fin 1) + b (ix2 (0 : Fin 1) (0 : Fin 1))

/-- The third kernel's first output on a block: the logistic function of a read-out of the combine step. -/
def headP {P : Nat} (agg hprev : (⟨2, ![P, 128]⟩ : Shape).Idx → EReal) (dinv : (⟨2, ![P, 1]⟩ : Shape).Idx → EReal)
    (b : (⟨2, ![1, 128]⟩ : Shape).Idx → EReal) (ppw : (⟨2, ![128, 1]⟩ : Shape).Idx → EReal)
    (ppb : (⟨2, ![1, 1]⟩ : Shape).Idx → EReal) (p : Fin P) : EReal :=
  Ideal.logistic (readoutB (combine agg hprev dinv b) ppw ppb p)

/-- The third kernel's second output on a block: the read-out of the branch the row's flag chooses. -/
def headY {P : Nat} (agg hprev : (⟨2, ![P, 128]⟩ : Shape).Idx → EReal) (dinv : (⟨2, ![P, 1]⟩ : Shape).Idx → EReal)
    (b : (⟨2, ![1, 128]⟩ : Shape).Idx → EReal) (t : (⟨2, ![P, 1]⟩ : Shape).Idx → BitVec 32)
    (w00 : (⟨2, ![128, 128]⟩ : Shape).Idx → EReal) (b00 : (⟨2, ![1, 128]⟩ : Shape).Idx → EReal)
    (w10 : (⟨2, ![128, 128]⟩ : Shape).Idx → EReal) (b10 : (⟨2, ![1, 128]⟩ : Shape).Idx → EReal)
    (w01 : (⟨2, ![128, 1]⟩ : Shape).Idx → EReal) (b01 : (⟨2, ![1, 1]⟩ : Shape).Idx → EReal)
    (w11 : (⟨2, ![128, 1]⟩ : Shape).Idx → EReal) (b11 : (⟨2, ![1, 1]⟩ : Shape).Idx → EReal) (p : Fin P) : EReal :=
  Scalar.select (IntOp.cmpi .sgt (t (ix2 p (0 : Fin 1))) 0#32)
    (readoutB (hiddenB (combine agg hprev dinv b) w10 b10) w11 b11 p)
    (readoutB (hiddenB (combine agg hprev dinv b) w00 b00) w01 b01 p)

end Cert.BlockSpec

end
-- ==== Proof.KerBodyLib.lean ====
/-
  Reading lemmas shared by the three kernel bodies, all at the ideal values (a float is an extended real).
  * the zero offsets of a whole-block access, spelt as the printed program spells them;
  * a product of a [m, k] block by a [k, n] matrix accumulated into the zero splat, read at (a, b): the sum over the
    contracted coordinate c of A (a, c) * B (c, b);
  * the combine step of a convolution as the second and third bodies write it, read at (p, k):
    max (dinv (p, 0) * (agg (p, k) + hprev (p, k)) + b (0, k)) 0.
-/
import Idealize.ShloMosaic.Lib.StackMember
import Idealize.ShloMosaic.Lib.ValueLayout
import proofs.«139885_j17411797418342_2_alg».proof.Proof.LibKeepdims
import proofs.«139885_j17411797418342_2_alg».proof.Proof.BlockSpec

noncomputable section

namespace Cert.KerBody

open Idealize.ShloMosaic Idealize.ShloMosaic.ValueIdx
open scoped BigOperators

/-- The offsets `![0, 0]` of a whole-block load or store are the zero function. -/
theorem zeros2 : (![0, 0] : Fin 2 → Nat) = fun _ => 0 := funext fun a => by fin_cases a <;> rfl

/-- The plain product of an m×k block by a k×n matrix, accumulated into the zero splat, read at `(a, b)`: the
    accumulator contributes `0`, and the contraction index is its one coordinate. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) :=
  (congrFun (matmul_zero_eq_dotGeneral (DotDims.plain m k n) prec A B) (ix2 a b)).trans
    (StackMember.dotGeneral_plain_apply prec A B a b)

/-- The combine step on a block of `P` rows as the bodies write it — the column `dinv` broadcast along the channels,
    times the sum of the two feature blocks, plus the bias row broadcast down the rows, clamped below at zero, then
    narrowed to bf16 (the identity here; the casts to the same shape are identities too) — read at row `p`, channel `k`. -/
theorem combine_apply {P : ℕ} (dinv : FVec Ideal ⟨2, ![P, 1]⟩ .f32) (agg hprev : FVec Ideal ⟨2, ![P, 128]⟩ .f32)
    (b : FVec Ideal ⟨2, ![1, 128]⟩ .f32)
    (hd : (⟨2, ![P, 1]⟩ : Shape).ShapeCasts ⟨2, ![P, 1]⟩) (ha : (⟨2, ![P, 128]⟩ : Shape).ShapeCasts ⟨2, ![P, 128]⟩)
    (hb : (⟨2, ![1, 128]⟩ : Shape).ShapeCasts ⟨2, ![1, 128]⟩)
    (hbd : (⟨2, ![P, 1]⟩ : Shape).Broadcasts ⟨2, ![P, 128]⟩) (hbb : (⟨2, ![1, 128]⟩ : Shape).Broadcasts ⟨2, ![P, 128]⟩)
    (hlt : FTy.bits .bf16 < FTy.bits .f32) (p : Fin P) (k : Fin 128) :
    (truncf .bf16 (maximumf
        (addf (mulf (broadcastTo ⟨2, ![P, 128]⟩ (shapeCast ⟨2, ![P, 1]⟩ dinv hd) hbd)
                (addf (shapeCast ⟨2, ![P, 128]⟩ agg ha) (shapeCast ⟨2, ![P, 128]⟩ hprev ha)))
          (broadcastTo ⟨2, ![P, 128]⟩ (shapeCast ⟨2, ![1, 128]⟩ b hb) hbb))
        (broadcast ⟨2, ![P, 128]⟩ (Scalar.ofBits (F := Ideal) .f32 0x00000000#32))) hlt : FVec Ideal ⟨2, ![P, 128]⟩ .bf16) (ix2 p k)
      = Cert.BlockSpec.combine agg hprev dinv b p k := by
  simp only [shapeCast_self]
  show max (broadcastTo ⟨2, ![P, 128]⟩ dinv hbd (ix2 p k) * (agg (ix2 p k) + hprev (ix2 p k))
      + broadcastTo ⟨2, ![P, 128]⟩ b hbb (ix2 p k)) (Ideal.ofBits .f32 0x00000000#32) = _
  rw [broadcastTo_a1_ab_apply, broadcastTo_1b_ab_apply]
  rfl

end Cert.KerBody

end
-- ==== Proof.KerBody0.lean ====
/-
  The first kernel's body on one block of 5000 rows, read at an index: the product of the row block with the weight
  matrix, each row scaled by its entry of the column `dinv`. The body stores the same value twice, once as f32 and once
  narrowed to bf16; at the ideal values a change of float format is the identity, so both outputs read alike.
  Each output buffer is left by ONE store of the whole block, so it reads back as the stored value, and each input is
  loaded whole, so the loaded block is the input block.
-/
import proofs.«139885_j17411797418342_2_alg».proof.Proof.KernelIdealFrameP
import proofs.«139885_j17411797418342_2_alg».proof.Proof.BlockSpec
import proofs.«139885_j17411797418342_2_alg».proof.Proof.KerBodyLib

noncomputable section

namespace Cert.KerBody

open Idealize.ShloMosaic Idealize.ShloMosaic.ValueIdx Cert.KernelIdeal Cert.KernelIdeal.Gen
open scoped BigOperators

/-- The stored value of the first body at row `p`, channel `n`: `(∑ k, x (p, k) * W (k, n)) * dinv (p, 0)`. The two
    operands of the product are narrowed to bf16 first (the identity here), the accumulator is the zero splat, and the
    column `dinv` is broadcast along the channels. -/
theorem k0_pay1_apply (x0 : Vec Ideal S5000x128 .f32) (x1 : Vec Ideal S128x128 .f32) (x2 : Vec Ideal S5000x1 .f32)
    (p : Fin 5000) (n : Fin 128) :
    Gen.k0_pay1 (F := Ideal) x0 x1 x2 (ix2 p n) = Cert.BlockSpec.linearDinv x0 x1 x2 p n := by
  unfold Gen.k0_pay1 Cert.BlockSpec.linearDinv Cert.BlockSpec.lin
  refine (mulf_apply _ _ _).trans ?_
  refine congrArg₂ (· * ·) ?_ ?_
  · exact matmul_plain_zero_apply (m := 5000) (k := 128) (n := 128) none _ _ p n
  · rw [shapeCast_self]
    exact broadcastTo_a1_ab_apply x2 _ p n

/-- The same value narrowed to bf16 for the second store: the identity here. -/
theorem k0_pay2_apply (x0 : Vec Ideal S5000x128 .f32) (x1 : Vec Ideal S128x128 .f32) (x2 : Vec Ideal S5000x1 .f32)
    (p : Fin 5000) (n : Fin 128) :
    Gen.k0_pay2 (F := Ideal) x0 x1 x2 (ix2 p n) = Cert.BlockSpec.linearDinv x0 x1 x2 p n := by
  unfold Gen.k0_pay2
  exact (truncf_apply (ψ := .bf16) (Gen.k0_pay1 (F := Ideal) x0 x1 x2) bitsLt_bf16_f32 (ix2 p n)).trans (k0_pay1_apply x0 x1 x2 p n)

/-- The first output's buffer after the body, at row `p`, channel `n`. -/
theorem out0_3_apply (x0 : Vec Ideal S5000x128 .f32) (x1 : Vec Ideal S128x128 .f32) (x2 : Vec Ideal S5000x1 .f32)
    (p : Fin 5000) (n : Fin 128) :
    GenP.out0_3 (F := Ideal) x0 x1 x2 (ix2 p n) = Cert.BlockSpec.linearDinv x0 x1 x2 p n := by
  unfold GenP.out0_3
  rw [View.canon_unit_zero zeros2]
  simp only [View.ld_unit_zero (S := S5000x128) zeros2, View.ld_unit_zero (S := S128x128) zeros2,
    View.ld_unit_zero (S := S5000x1) zeros2]
  exact k0_pay1_apply x0 x1 x2 p n

/-- The second output's buffer (bf16) after the body, at row `p`, channel `n`: the same value. -/
theorem out0_4_apply (x0 : Vec Ideal S5000x128 .f32) (x1 : Vec Ideal S128x128 .f32) (x2 : Vec Ideal S5000x1 .f32)
    (p : Fin 5000) (n : Fin 128) :
    GenP.out0_4 (F := Ideal) x0 x1 x2 (ix2 p n) = Cert.BlockSpec.linearDinv x0 x1 x2 p n := by
  unfold GenP.out0_4
  rw [View.canon_unit_zero zeros2]
  simp only [View.ld_unit_zero (S := S5000x128) zeros2, View.ld_unit_zero (S := S128x128) zeros2,
    View.ld_unit_zero (S := S5000x1) zeros2]
  exact k0_pay2_apply x0 x1 x2 p n

end Cert.KerBody

end
-- ==== Proof.KerFinal0.lean ====
/-
  The first kernel region, from blocks to arrays.  Point `t` of its 20 points reads rows `5000 t … 5000 t + 4999` of
  the features and of the column of inverse square-root degrees, and the whole weight matrix, and writes the same rows
  of its two outputs; every row is written by the point numbered by the row's quotient by 5000.  So each output array ends
  as ONE function of the region's input arrays: `(features @ W) * dinv`, row by row.
-/
import proofs.«139885_j17411797418342_2_alg».proof.Proof.KerBody0
import Idealize.ShloMosaic.Lib.Pipeline.Value

set_option maxRecDepth 16384

noncomputable section

namespace Cert.KernelIdeal.Final0

open Cert.KernelIdeal Cert.KernelIdeal.Gen Cert.KernelIdeal.GenP
open Idealize.ShloMosaic Idealize.ShloMosaic.TcCoe Idealize.ShloMosaic.ValueIdx Cert.BlockSpec
open Idealize.ShloMosaic.Pipeline (Dat Cfg Window)

variable (V : (c : Dev nD) → (b : Ref sig .tc) → Buf (Elt Ideal) ((c : Thread nD τ).loc b))

/-- The index maps over the grid: a row-blocked window's block index is the point's number on the row axis, the
    resident weight matrix's is zero; the column index is always zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem lt_pts (t : Fin cfg0.N) : t.val < 20 := lt_of_lt_of_eq t.isLt N_0

/-- Row `p` of the block at point `t` is row `5000 t + p` of the array. -/
def rowAt (t : Fin cfg0.N) (p : Fin 5000) : Fin 100000 :=
  ⟨t.val * 5000 + p.val, by have := lt_pts t; have := p.isLt; omega⟩

/-- The features' block at a point is the array at the block's rows. -/
theorem blk_0 (c : Dev nD) (t : Fin cfg0.N) (p : Fin 5000) (k : Fin 128) :
    iblk0 V c 0 t (ix2 p k) = V c main_arg0 (ix2 (rowAt t p) k) := by
  obtain ⟨e0a, e0b, -⟩ := idx_facts t
  show V c main_arg0 (((cfg0.win 0).blk t).view.emb (ix2 p k)) = _
  refine congrArg (V c main_arg0) (funext fun a => Fin.ext ?_)
  match a with
  | ⟨0, _⟩ =>
    show win0_0.index t (0 : Fin 2) * 5000 + 1 * p.val = t.val * 5000 + p.val
    rw [e0a]; omega
  | ⟨1, _⟩ =>
    show win0_0.index t (1 : Fin 2) * 128 + 1 * k.val = k.val
    rw [e0b]; omega

/-- The weight matrix's block is the whole matrix. -/
theorem blk_1 (c : Dev nD) (t : Fin cfg0.N) (p : Fin 128) (k : Fin 128) :
    iblk0 V c 1 t (ix2 p k) = V c main_arg4 (ix2 p k) := by
  obtain ⟨-, -, e1a, e1b, -⟩ := idx_facts t
  show V c main_arg4 (((cfg0.win 1).blk t).view.emb (ix2 p k)) = _
  refine congrArg (V c main_arg4) (funext fun a => Fin.ext ?_)
  match a with
  | ⟨0, _⟩ =>
    show win0_1.index t (0 : Fin 2) * 128 + 1 * p.val = p.val
    rw [e1a]; omega
  | ⟨1, _⟩ =>
    show win0_1.index t (1 : Fin 2) * 128 + 1 * k.val = k.val
    rw [e1b]; omega

/-- The degree column's block at a point is the column at the block's rows. -/
theorem blk_2 (c : Dev nD) (t : Fin cfg0.N) (p : Fin 5000) (k : Fin 1) :
    iblk0 V c 2 t (ix2 p k) = V c main_v11 (ix2 (rowAt t p) k) := by
  obtain ⟨-, -, -, -, e2a, e2b, -⟩ := idx_facts t
  show V c main_v11 (((cfg0.win 2).blk t).view.emb (ix2 p k)) = _
  refine congrArg (V c main_v11) (funext fun a => Fin.ext ?_)
  match a with
  | ⟨0, _⟩ =>
    show win0_2.index t (0 : Fin 2) * 5000 + 1 * p.val = t.val * 5000 + p.val
    rw [e2a]; omega
  | ⟨1, _⟩ =>
    show win0_2.index t (1 : Fin 2) * 1 + 1 * k.val = k.val
    rw [e2b]; omega

/-- The block-level function of the blocks at a point is the same function of the whole arrays at the block's row. -/
theorem block_eq (c : Dev nD) (t : Fin cfg0.N) (p : Fin 5000) (q : Fin 128) :
    linearDinv (iblk0 V c 0 t) (iblk0 V c 1 t) (iblk0 V c 2 t) p q
      = linearDinv (P := 100000) (V c main_arg0) (V c main_arg4) (V c main_v11) (rowAt t p) q := by
  unfold linearDinv lin
  simp only [blk_0 V c t, blk_1 V c t, blk_2 V c t]

/-- The whole array the region's output blocks are blocks of. -/
def arr (X : S100000x128.Idx → EReal) (W : S128x128.Idx → EReal) (Dv : S100000x1.Idx → EReal) : S100000x128.Idx → EReal :=
  fun i => linearDinv (P := 100000) X W Dv ⟨(i 0).val, (i 0).isLt⟩ ⟨(i 1).val, (i 1).isLt⟩

theorem arr_apply (X : S100000x128.Idx → EReal) (W : S128x128.Idx → EReal) (Dv : S100000x1.Idx → EReal) (j : Fin 100000) (n : Fin 128) :
    arr X W Dv (ix2 j n) = linearDinv (P := 100000) X W Dv j n := rfl

/-- Where an element of output window 3's block sits in the array. -/
theorem emb_3 (t : Fin cfg0.N) (p : Fin 5000) (q : Fin 128) :
    ((cfg0.win 3).blk t).view.emb (ix2 p q) = ix2 (rowAt t p) q := by
  obtain ⟨-, -, -, -, -, -, e3a, e3b, -⟩ := idx_facts t
  refine funext fun a => Fin.ext ?_
  match a with
  | ⟨0, _⟩ =>
    show win0_3.index t (0 : Fin 2) * 5000 + 1 * p.val = t.val * 5000 + p.val
    rw [e3a]; omega
  | ⟨1, _⟩ =>
    show win0_3.index t (1 : Fin 2) * 128 + 1 * q.val = q.val
    rw [e3b]; omega

/-- The same for output window 4. -/
theorem emb_4 (t : Fin cfg0.N) (p : Fin 5000) (q : Fin 128) :
    ((cfg0.win 4).blk t).view.emb (ix2 p q) = ix2 (rowAt t p) q := by
  obtain ⟨-, -, -, -, -, -, -, -, e4a, e4b⟩ := idx_facts t
  refine funext fun a => Fin.ext ?_
  match a with
  | ⟨0, _⟩ =>
    show win0_4.index t (0 : Fin 2) * 5000 + 1 * p.val = t.val * 5000 + p.val
    rw [e4a]; omega
  | ⟨1, _⟩ =>
    show win0_4.index t (1 : Fin 2) * 128 + 1 * q.val = q.val
    rw [e4b]; omega

/-- What point `t` leaves in output window 3's buffer is block `t` of the array function, index by index. -/
theorem pt_3 (c : Dev nD) (t : Fin cfg0.N) (y : S5000x128.Idx) :
    out0_3 (iblk0 V c 0 t) (iblk0 V c 1 t) (iblk0 V c 2 t) y
      = arr (V c main_arg0) (V c main_arg4) (V c main_v11) (((cfg0.win 3).blk t).view.emb y) := by
  obtain ⟨p, q, rfl⟩ : ∃ (p : Fin 5000) (q : Fin 128), y = ix2 p q := ⟨y 0, y 1, eq_ix2 y⟩
  rw [emb_3, arr_apply]
  exact (Cert.KerBody.out0_3_apply (iblk0 V c 0 t) (iblk0 V c 1 t) (iblk0 V c 2 t) p q).trans (block_eq V c t p q)

theorem pt_4 (c : Dev nD) (t : Fin cfg0.N) (y : S5000x128.Idx) :
    out0_4 (iblk0 V c 0 t) (iblk0 V c 1 t) (iblk0 V c 2 t) y
      = arr (V c main_arg0) (V c main_arg4) (V c main_v11) (((cfg0.win 4).blk t).view.emb y) := by
  obtain ⟨p, q, rfl⟩ : ∃ (p : Fin 5000) (q : Fin 128), y = ix2 p q := ⟨y 0, y 1, eq_ix2 y⟩
  rw [emb_4, arr_apply]
  exact (Cert.KerBody.out0_4_apply (iblk0 V c 0 t) (iblk0 V c 1 t) (iblk0 V c 2 t) p q).trans (block_eq V c t p q)

/-- WHAT POINT `t` WRITES BACK through output window 3 is block `t` of the array function. -/
theorem flushed_3 (c : Dev nD) (t : Fin cfg0.N) :
    (dat0 V c).flushed 3 t = ((cfg0.win 3).blk t).view.read (Elt Ideal) (arr (V c main_arg0) (V c main_arg4) (V c main_v11)) := by
  show (cfg0.win 3).cut (grid0.coords t) ((dat0 V c).after 3 t) = _
  rw [after0_3]
  funext y
  exact pt_3 V c t y

theorem flushed_4 (c : Dev nD) (t : Fin cfg0.N) :
    (dat0 V c).flushed 4 t = ((cfg0.win 4).blk t).view.read (Elt Ideal) (arr (V c main_arg0) (V c main_arg4) (V c main_v11)) := by
  show (cfg0.win 4).cut (grid0.coords t) ((dat0 V c).after 4 t) = _
  rw [after0_4]
  funext y
  exact pt_4 V c t y

/-- An index of the array is in point `t`'s block iff each coordinate is in the block's range on its axis. -/
theorem mem_blk_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14_0).slice (win0_3.rect t)).set ↔ _
  rw [View.set_slice_whole, Rect.mem_set_unit]
  exact Iff.rfl

theorem mem_blk_4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v14_1).slice (win0_4.rect t)).set ↔ _
  rw [View.set_slice_whole, Rect.mem_set_unit]
  exact Iff.rfl

/-- Every row lies in the block of the point numbered by the row's quotient by the block height. -/
theorem cover_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < cfg0.N := by rw [show cfg0.N = 20 from N_0]; omega
  obtain ⟨-, -, -, -, -, -, e3a, e3b, -⟩ := idx_facts ⟨(i 0).val / 5000, hlt⟩
  refine ⟨⟨(i 0).val / 5000, hlt⟩, flush0_3 _, ?_⟩
  rw [mem_blk_3]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e3a]
    show (i 0).val / 5000 * 5000 ≤ (i 0).val ∧ (i 0).val < (i 0).val / 5000 * 5000 + 5000
    omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    rw [e3b]
    omega

theorem cover_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hlt : (i 0).val / 5000 < cfg0.N := by rw [show cfg0.N = 20 from N_0]; omega
  obtain ⟨-, -, -, -, -, -, -, -, e4a, e4b⟩ := idx_facts ⟨(i 0).val / 5000, hlt⟩
  refine ⟨⟨(i 0).val / 5000, hlt⟩, flush0_4 _, ?_⟩
  rw [mem_blk_4]
  intro a
  match a with
  | ⟨0, _⟩ =>
    show win0_4.index ⟨(i 0).val / 5000, hlt⟩ (0 : Fin 2) * 5000 ≤ (i 0).val ∧ (i 0).val < win0_4.index ⟨(i 0).val / 5000, hlt⟩ (0 : Fin 2) * 5000 + 5000
    rw [e4a]
    show (i 0).val / 5000 * 5000 ≤ (i 0).val ∧ (i 0).val < (i 0).val / 5000 * 5000 + 5000
    omega
  | ⟨1, _⟩ =>
    show win0_4.index ⟨(i 0).val / 5000, hlt⟩ (1 : Fin 2) * 128 ≤ (i 1).val ∧ (i 1).val < win0_4.index ⟨(i 0).val / 5000, hlt⟩ (1 : Fin 2) * 128 + 128
    rw [e4b]
    omega

/-- THE ARRAYS after the region: every row is covered, so each output array is the array function. -/
theorem final_3 (c : Dev nD) : (dat0 V c).arrAt 3 cfg0.N = arr (V c main_arg0) (V c main_arg4) (V c main_v11) :=
  (dat0 V c).arrAt_eq_of_cover 3 (arr (V c main_arg0) (V c main_arg4) (V c main_v11)) (fun t _ => flushed_3 V c t) cover_3

theorem final_4 (c : Dev nD) : (dat0 V c).arrAt 4 cfg0.N = arr (V c main_arg0) (V c main_arg4) (V c main_v11) :=
  (dat0 V c).arrAt_eq_of_cover 4 (arr (V c main_arg0) (V c main_arg4) (V c main_v11)) (fun t _ => flushed_4 V c t) cover_4

end Cert.KernelIdeal.Final0

end
-- ==== Proof.SpecBridge.lean ====
/-
  The block-level functions taken at the whole arrays (a block of all 100000 rows) are the layers of the
  specification, once the arrays they are given are known index by index.
-/
import proofs.«139885_j17411797418342_2_alg».proof.Proof.Spec
import proofs.«139885_j17411797418342_2_alg».proof.Proof.BlockSpec

noncomputable section

namespace Cert.SpecBridge

open Idealize.ShloMosaic Idealize.ShloMosaic.ValueIdx Cert.Spec Cert.BlockSpec
open scoped BigOperators

variable (ei : SEI.Idx → BitVec 32)

/-- The first kernel at the whole arrays: the scaled features of the first layer. -/
theorem linearDinv_eq (X : SNC.Idx → EReal) (W : SCC.Idx → EReal) (Dv : (⟨2, ![100000, 1]⟩ : Shape).Idx → EReal)
    (hD : ∀ j : Fin NN, Dv (ix2 j (0 : Fin 1)) = dinv ei j) (j : Fin NN) (n : Fin 128) :
    linearDinv X W Dv j n = scaled ei (fun j k => X (ix2 j k)) W j n := by
  unfold linearDinv scaled lin
  rw [hD]

/-- The combine step at the whole arrays is one convolution of the specification. -/
theorem combine_eq (Agg Hp : SNC.Idx → EReal) (Dv : (⟨2, ![100000, 1]⟩ : Shape).Idx → EReal)
    (b' : (⟨2, ![1, 128]⟩ : Shape).Idx → EReal) (g : Fin NN → Fin 128 → EReal) (b : SC.Idx → EReal)
    (hA : ∀ (j : Fin NN) (k : Fin 128), Agg (ix2 j k) = agg ei g j k) (hH : ∀ (j : Fin NN) (k : Fin 128), Hp (ix2 j k) = g j k)
    (hD : ∀ j : Fin NN, Dv (ix2 j (0 : Fin 1)) = dinv ei j) (hb : ∀ k : Fin 128, b' (ix2 (0 : Fin 1) k) = b (ix1 k)) :
    combine Agg Hp Dv b' = conv ei g b := by
  funext j k
  unfold combine conv
  rw [hA, hH, hD, hb]

/-- The second kernel at the whole arrays: the scaled features of the next layer. -/
theorem combineLinear_eq (Agg Hp : SNC.Idx → EReal) (Dv : (⟨2, ![100000, 1]⟩ : Shape).Idx → EReal)
    (b' : (⟨2, ![1, 128]⟩ : Shape).Idx → EReal) (W : SCC.Idx → EReal) (g : Fin NN → Fin 128 → EReal) (b : SC.Idx → EReal)
    (hA : ∀ (j : Fin NN) (k : Fin 128), Agg (ix2 j k) = agg ei g j k) (hH : ∀ (j : Fin NN) (k : Fin 128), Hp (ix2 j k) = g j k)
    (hD : ∀ j : Fin NN, Dv (ix2 j (0 : Fin 1)) = dinv ei j) (hb : ∀ k : Fin 128, b' (ix2 (0 : Fin 1) k) = b (ix1 k))
    (j : Fin NN) (n : Fin 128) :
    combineLinear Agg Hp Dv b' W j n = scaled ei (conv ei g b) W j n := by
  unfold combineLinear scaled
  rw [combine_eq ei Agg Hp Dv b' g b hA hH hD hb, hD]
  rfl

/-- A hidden branch at the whole arrays, its weight matrix and bias the last of the two stacked ones. -/
theorem hiddenB_eq (r : Fin NN → Fin 128 → EReal) (W' : SCC.Idx → EReal) (b' : (⟨2, ![1, 128]⟩ : Shape).Idx → EReal)
    (W : S2CC.Idx → EReal) (b : S2C.Idx → EReal)
    (hW : ∀ k n : Fin 128, W' (ix2 k n) = W (ix3 (1 : Fin 2) k n)) (hb : ∀ n : Fin 128, b' (ix2 (0 : Fin 1) n) = b (ix2 (1 : Fin 2) n)) :
    hiddenB r W' b' = Spec.hidden r W b := by
  funext j n
  unfold hiddenB Spec.hidden lin
  rw [hb]
  exact congrArg (fun s => max (s + b (ix2 (1 : Fin 2) n)) (Ideal.ofBits .f32 0x00000000#32))
    (Finset.sum_congr rfl fun k _ => by rw [hW])

/-- A read-out at the whole arrays. -/
theorem readoutB_eq (r : Fin NN → Fin 128 → EReal) (w : SC1.Idx → EReal) (b' : (⟨2, ![1, 1]⟩ : Shape).Idx → EReal)
    (b : SONE.Idx → EReal) (hb : b' (ix2 (0 : Fin 1) (0 : Fin 1)) = b (ix1 (0 : Fin 1))) (j : Fin NN) :
    readoutB r w b' j = readout r w b j := by
  unfold readoutB readout lin
  rw [hb]

end Cert.SpecBridge

end
-- ==== Proof.KerChain0.lean ====
/-
  The kernel program up to the second region's entry, index by index: the degree column and the bias rows the host
  computes first, the first region's two outputs (the scaled features of layer one), and the neighbours' sum the host
  computes from them.
-/
import proofs.«139885_j17411797418342_2_alg».proof.Proof.KerHost0
import proofs.«139885_j17411797418342_2_alg».proof.Proof.KerSeg
import proofs.«139885_j17411797418342_2_alg».proof.Proof.KerFinal0
import proofs.«139885_j17411797418342_2_alg».proof.Proof.SpecBridge

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! ## After the first host stretch -/

/-- The edge array's source row, as the host leaves it. -/
theorem W1_v1 : (W1 m ρ c (Proc.devRef .tc main_v1) : S1600000.Idx → BitVec 32)
    = Host.eiRow 0 slices_S2x1600000_S1x1600000_0_0 (m ((c : Thread nD τ).loc main_arg3)) := by
  dsimp only [W1, hostOps0]
  after_results
  rfl

/-- The edge array's target row, as the host leaves it. -/
theorem W1_v3 : (W1 m ρ c (Proc.devRef .tc main_v3) : S1600000.Idx → BitVec 32)
    = Host.eiRow 1 slices_S2x1600000_S1x1600000_1_0 (m ((c : Thread nD τ).loc main_arg3)) := by
  dsimp only [W1, hostOps0]
  after_results
  rfl

theorem W1_v1_apply (e : Fin 1600000) :
    (W1 m ρ c (Proc.devRef .tc main_v1) : S1600000.Idx → BitVec 32) (ix1 e) = m ((c : Thread nD τ).loc main_arg3) (ix2 (0 : Fin 2) e) := by
  rw [W1_v1]; exact Host.eiRow_apply 0 _ _ e

theorem W1_v3_apply (e : Fin 1600000) :
    (W1 m ρ c (Proc.devRef .tc main_v3) : S1600000.Idx → BitVec 32) (ix1 e) = m ((c : Thread nD τ).loc main_arg3) (ix2 (1 : Fin 2) e) := by
  rw [W1_v3]; exact Host.eiRow_apply 1 _ _ e

/-- The degree column: entry `j` is `dinv j`. -/
theorem W1_v11_apply (j : Fin 100000) :
    (W1 m ρ c (Proc.devRef .tc main_v11) : S100000x1.Idx → EReal) (ix2 j (0 : Fin 1)) = Cert.Spec.dinv (m ((c : Thread nD τ).loc main_arg3)) j := by
  have e : (W1 m ρ c (Proc.devRef .tc main_v11) : S100000x1.Idx → EReal)
      = shapeCast S100000x1 (Host.rsqrt (F := Ideal) (addf (Host.scatterAdd (F := Ideal) scatter_S100000_S1600000x1_S1600000_n_0_0_1
          (broadcastInDim S100000 ![] bcast_S_S100000 (constant (F := Ideal) S_ .f32 0x00000000#32))
          (Seg.dstCol (Host.eiRow 1 slices_S2x1600000_S1x1600000_1_0 (m ((c : Thread nD τ).loc main_arg3))))
          (broadcastInDim S1600000 ![] bcast_S_S1600000 (constant (F := Ideal) S_ .f32 0x3F800000#32)))
          (broadcastInDim S100000 ![] bcast_S_S100000 (constant (F := Ideal) S_ .f32 0x3F800000#32)))) shapeCasts_S100000_S100000x1 := by
    dsimp only [W1, hostOps0]
    after_results
    rfl
  rw [e]
  exact Seg.dinv_apply _ _ (fun e => Host.eiRow_apply 1 _ _ e) j

/-- The first layer's bias as a row. -/
theorem W1_v12_apply (k : Fin 128) :
    (W1 m ρ c (Proc.devRef .tc main_v12) : S1x128.Idx → EReal) (ix2 (0 : Fin 1) k) = m ((c : Thread nD τ).loc main_arg5) (ix1 k) := by
  have e : (W1 m ρ c (Proc.devRef .tc main_v12) : S1x128.Idx → EReal)
      = shapeCast S1x128 (m ((c : Thread nD τ).loc main_arg5)) shapeCasts_S128_S1x128 := by
    dsimp only [W1, hostOps0]
    after_results
    rfl
  rw [e]
  exact shapeCast_apply _ _ _ (ix1 k) (by
    rw [Shape.rowMajor_val_one, Shape.rowMajor_val_two]
    show k.val = 0 * 128 + k.val
    omega)

/-- The second layer's bias as a row. -/
theorem W1_v13_apply (k : Fin 128) :
    (W1 m ρ c (Proc.devRef .tc main_v13) : S1x128.Idx → EReal) (ix2 (0 : Fin 1) k) = m ((c : Thread nD τ).loc main_arg7) (ix1 k) := by
  have e : (W1 m ρ c (Proc.devRef .tc main_v13) : S1x128.Idx → EReal)
      = shapeCast S1x128 (m ((c : Thread nD τ).loc main_arg7)) shapeCasts_S128_S1x128 := by
    dsimp only [W1, hostOps0]
    after_results
    rfl
  rw [e]
  exact shapeCast_apply _ _ _ (ix1 k) (by
    rw [Shape.rowMajor_val_one, Shape.rowMajor_val_two]
    show k.val = 0 * 128 + k.val
    omega)

end Cert.KernelIdeal.Chain

end
-- ==== Proof.KerKeep.lean ====
/-
  Which buffers survive which segments of the kernel program's run.

  The run alternates stretches of host operations with three pipelined regions. A stretch of host operations changes
  only the buffers its operations write; a region changes only its output arrays (an input array is handed back as it
  entered, every other buffer is untouched). So an argument that nothing has written yet still holds its launch
  contents, a buffer a stretch computed is still what that stretch left while later segments only read it, and a
  region's output holds, until something writes it, the fold of the region's write-backs.
-/
import proofs.«139885_j17411797418342_2_alg».proof.Proof.KernelIdealFrameP

set_option maxRecDepth 16384

noncomputable section

namespace Cert.KernelIdeal.Keep

open Cert.KernelIdeal Cert.KernelIdeal.Gen Cert.KernelIdeal.GenP Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- No operation of the named stretch of host operations writes the named buffer, so the stretch leaves it alone. -/
local macro "host_keep " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The argument main_arg0 is as launched at this boundary: nothing before it writes it. -/
theorem W1_arg0 : W1 m ρ c (Proc.devRef .tc main_arg0) = m ((c : Thread nD τ).loc main_arg0) :=
  calc W1 m ρ c (Proc.devRef .tc main_arg0)
    _ = W0 m ρ c (Proc.devRef .tc main_arg0) := host_keep hostOps0 main_arg0
    _ = m ((c : Thread nD τ).loc main_arg0) := rfl

/-- The argument main_arg4 is as launched at this boundary: nothing before it writes it. -/
theorem W1_arg4 : W1 m ρ c (Proc.devRef .tc main_arg4) = m ((c : Thread nD τ).loc main_arg4) :=
  calc W1 m ρ c (Proc.devRef .tc main_arg4)
    _ = W0 m ρ c (Proc.devRef .tc main_arg4) := host_keep hostOps0 main_arg4
    _ = m ((c : Thread nD τ).loc main_arg4) := rfl

/-- The argument main_arg6 is as launched at this boundary: nothing before it writes it. -/
theorem W3_arg6 : W3 m ρ c (Proc.devRef .tc main_arg6) = m ((c : Thread nD τ).loc main_arg6) :=
  calc W3 m ρ c (Proc.devRef .tc main_arg6)
    _ = W2 m ρ c (Proc.devRef .tc main_arg6) := host_keep hostOps1 main_arg6
    _ = W1 m ρ c (Proc.devRef .tc main_arg6) := W2_of_ne m ρ c main_arg6 (by decide)
    _ = W0 m ρ c (Proc.devRef .tc main_arg6) := host_keep hostOps0 main_arg6
    _ = m ((c : Thread nD τ).loc main_arg6) := rfl

/-- The argument main_arg1 is as launched at this boundary: nothing before it writes it. -/
theorem W4_arg1 : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := host_keep hostOps1 main_arg1
    _ = W1 m ρ c (Proc.devRef .tc main_arg1) := W2_of_ne m ρ c main_arg1 (by decide)
    _ = W0 m ρ c (Proc.devRef .tc main_arg1) := host_keep hostOps0 main_arg1
    _ = m ((c : Thread nD τ).loc main_arg1) := rfl

/-- The argument main_arg8 is as launched at this boundary: nothing before it writes it. -/
theorem W4_arg8 : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := host_keep hostOps1 main_arg8
    _ = W1 m ρ c (Proc.devRef .tc main_arg8) := W2_of_ne m ρ c main_arg8 (by decide)
    _ = W0 m ρ c (Proc.devRef .tc main_arg8) := host_keep hostOps0 main_arg8
    _ = m ((c : Thread nD τ).loc main_arg8) := rfl

/-- The argument main_arg9 is as launched at this boundary: nothing before it writes it. -/
theorem W4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := host_keep hostOps1 main_arg9
    _ = W1 m ρ c (Proc.devRef .tc main_arg9) := W2_of_ne m ρ c main_arg9 (by decide)
    _ = W0 m ρ c (Proc.devRef .tc main_arg9) := host_keep hostOps0 main_arg9
    _ = m ((c : Thread nD τ).loc main_arg9) := rfl

/-- The argument main_arg10 is as launched at this boundary: nothing before it writes it. -/
theorem W4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := host_keep hostOps1 main_arg10
    _ = W1 m ρ c (Proc.devRef .tc main_arg10) := W2_of_ne m ρ c main_arg10 (by decide)
    _ = W0 m ρ c (Proc.devRef .tc main_arg10) := host_keep hostOps0 main_arg10
    _ = m ((c : Thread nD τ).loc main_arg10) := rfl

/-- The argument main_arg11 is as launched at this boundary: nothing before it writes it. -/
theorem W4_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := host_keep hostOps1 main_arg11
    _ = W1 m ρ c (Proc.devRef .tc main_arg11) := W2_of_ne m ρ c main_arg11 (by decide)
    _ = W0 m ρ c (Proc.devRef .tc main_arg11) := host_keep hostOps0 main_arg11
    _ = m ((c : Thread nD τ).loc main_arg11) := rfl

/-- The argument main_arg13 is as launched at this boundary: nothing before it writes it. -/
theorem W4_arg13 : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := host_keep hostOps1 main_arg13
    _ = W1 m ρ c (Proc.devRef .tc main_arg13) := W2_of_ne m ρ c main_arg13 (by decide)
    _ = W0 m ρ c (Proc.devRef .tc main_arg13) := host_keep hostOps0 main_arg13
    _ = m ((c : Thread nD τ).loc main_arg13) := rfl

/-- The argument main_arg15 is as launched at this boundary: nothing before it writes it. -/
theorem W4_arg15 : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := host_keep hostOps1 main_arg15
    _ = W1 m ρ c (Proc.devRef .tc main_arg15) := W2_of_ne m ρ c main_arg15 (by decide)
    _ = W0 m ρ c (Proc.devRef .tc main_arg15) := host_keep hostOps0 main_arg15
    _ = m ((c : Thread nD τ).loc main_arg15) := rfl

/-- The argument main_arg17 is as launched at this boundary: nothing before it writes it. -/
theorem W4_arg17 : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := host_keep hostOps1 main_arg17
    _ = W1 m ρ c (Proc.devRef .tc main_arg17) := W2_of_ne m ρ c main_arg17 (by decide)
    _ = W0 m ρ c (Proc.devRef .tc main_arg17) := host_keep hostOps0 main_arg17
    _ = m ((c : Thread nD τ).loc main_arg17) := rfl

/-- The argument main_arg12 is as launched at this boundary: nothing before it writes it. -/
theorem W5_arg12 : W5 m ρ c (Proc.devRef .tc main_arg12) = m ((c : Thread nD τ).loc main_arg12) :=
  calc W5 m ρ c (Proc.devRef .tc main_arg12)
    _ = W4 m ρ c (Proc.devRef .tc main_arg12) := host_keep hostOps2 main_arg12
    _ = W3 m ρ c (Proc.devRef .tc main_arg12) := W4_of_ne m ρ c main_arg12 (by decide)
    _ = W2 m ρ c (Proc.devRef .tc main_arg12) := host_keep hostOps1 main_arg12
    _ = W1 m ρ c (Proc.devRef .tc main_arg12) := W2_of_ne m ρ c main_arg12 (by decide)
    _ = W0 m ρ c (Proc.devRef .tc main_arg12) := host_keep hostOps0 main_arg12
    _ = m ((c : Thread nD τ).loc main_arg12) := rfl

/-- The argument main_arg14 is as launched at this boundary: nothing before it writes it. -/
theorem W5_arg14 : W5 m ρ c (Proc.devRef .tc main_arg14) = m ((c : Thread nD τ).loc main_arg14) :=
  calc W5 m ρ c (Proc.devRef .tc main_arg14)
    _ = W4 m ρ c (Proc.devRef .tc main_arg14) := host_keep hostOps2 main_arg14
    _ = W3 m ρ c (Proc.devRef .tc main_arg14) := W4_of_ne m ρ c main_arg14 (by decide)
    _ = W2 m ρ c (Proc.devRef .tc main_arg14) := host_keep hostOps1 main_arg14
    _ = W1 m ρ c (Proc.devRef .tc main_arg14) := W2_of_ne m ρ c main_arg14 (by decide)
    _ = W0 m ρ c (Proc.devRef .tc main_arg14) := host_keep hostOps0 main_arg14
    _ = m ((c : Thread nD τ).loc main_arg14) := rfl

/-- The argument main_arg16 is as launched at this boundary: nothing before it writes it. -/
theorem W5_arg16 : W5 m ρ c (Proc.devRef .tc main_arg16) = m ((c : Thread nD τ).loc main_arg16) :=
  calc W5 m ρ c (Proc.devRef .tc main_arg16)
    _ = W4 m ρ c (Proc.devRef .tc main_arg16) := host_keep hostOps2 main_arg16
    _ = W3 m ρ c (Proc.devRef .tc main_arg16) := W4_of_ne m ρ c main_arg16 (by decide)
    _ = W2 m ρ c (Proc.devRef .tc main_arg16) := host_keep hostOps1 main_arg16
    _ = W1 m ρ c (Proc.devRef .tc main_arg16) := W2_of_ne m ρ c main_arg16 (by decide)
    _ = W0 m ρ c (Proc.devRef .tc main_arg16) := host_keep hostOps0 main_arg16
    _ = m ((c : Thread nD τ).loc main_arg16) := rfl

/-- The node factors, an input array of the first region (window 2), reach the second region as the first stretch of host operations left them. -/
theorem W3_v11 : W3 m ρ c (Proc.devRef .tc main_v11) = W1 m ρ c (Proc.devRef .tc main_v11) :=
  calc W3 m ρ c (Proc.devRef .tc main_v11)
    _ = W2 m ρ c (Proc.devRef .tc main_v11) := host_keep hostOps1 main_v11
    _ = W1 m ρ c (Proc.devRef .tc main_v11) := (W2_arr m ρ c 2).trans (((dat0 (V1 m ρ) c).arrAt_in 2 rfl _).trans (A_eq0 (V1 m ρ) c 2))

/-- The first layer's bias row reaches the second region as the first stretch of host operations left it. -/
theorem W3_v12 : W3 m ρ c (Proc.devRef .tc main_v12) = W1 m ρ c (Proc.devRef .tc main_v12) :=
  calc W3 m ρ c (Proc.devRef .tc main_v12)
    _ = W2 m ρ c (Proc.devRef .tc main_v12) := host_keep hostOps1 main_v12
    _ = W1 m ρ c (Proc.devRef .tc main_v12) := W2_of_ne m ρ c main_v12 (by decide)

/-- The node factors, an input array of the first two regions (window 2 of each), reach the third region as the first stretch of host operations left them. -/
theorem W5_v11 : W5 m ρ c (Proc.devRef .tc main_v11) = W1 m ρ c (Proc.devRef .tc main_v11) :=
  calc W5 m ρ c (Proc.devRef .tc main_v11)
    _ = W4 m ρ c (Proc.devRef .tc main_v11) := host_keep hostOps2 main_v11
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := host_keep hostOps1 main_v11
    _ = W1 m ρ c (Proc.devRef .tc main_v11) := (W2_arr m ρ c 2).trans (((dat0 (V1 m ρ) c).arrAt_in 2 rfl _).trans (A_eq0 (V1 m ρ) c 2))

/-- The second layer's bias row reaches the third region as the first stretch of host operations left it. -/
theorem W5_v13 : W5 m ρ c (Proc.devRef .tc main_v13) = W1 m ρ c (Proc.devRef .tc main_v13) :=
  calc W5 m ρ c (Proc.devRef .tc main_v13)
    _ = W4 m ρ c (Proc.devRef .tc main_v13) := host_keep hostOps2 main_v13
    _ = W3 m ρ c (Proc.devRef .tc main_v13) := W4_of_ne m ρ c main_v13 (by decide)
    _ = W2 m ρ c (Proc.devRef .tc main_v13) := host_keep hostOps1 main_v13
    _ = W1 m ρ c (Proc.devRef .tc main_v13) := W2_of_ne m ρ c main_v13 (by decide)

/-- The source row of the edge array is untouched by the first region. -/
theorem W2_v1 : W2 m ρ c (Proc.devRef .tc main_v1) = W1 m ρ c (Proc.devRef .tc main_v1) :=
  W2_of_ne m ρ c main_v1 (by decide)

/-- The target row of the edge array is untouched by the first region. -/
theorem W2_v3 : W2 m ρ c (Proc.devRef .tc main_v3) = W1 m ρ c (Proc.devRef .tc main_v3) :=
  W2_of_ne m ρ c main_v3 (by decide)

/-- The source row of the edge array is untouched up to the second region's exit. -/
theorem W4_v1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := host_keep hostOps1 main_v1
    _ = W1 m ρ c (Proc.devRef .tc main_v1) := W2_of_ne m ρ c main_v1 (by decide)

/-- The target row of the edge array is untouched up to the second region's exit. -/
theorem W4_v3 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := host_keep hostOps1 main_v3
    _ = W1 m ρ c (Proc.devRef .tc main_v3) := W2_of_ne m ρ c main_v3 (by decide)

/-- The first region's second output at its exit: what the pipeline leaves in window 4. -/
theorem W2_v14_1 : W2 m ρ c (Proc.devRef .tc main_v14_1) = (dat0 (V1 m ρ) c).arrAt 4 cfg0.N :=
  W2_arr m ρ c 4

/-- The first region's first output when the second region starts: what the pipeline left in window 3. -/
theorem W3_v14_0 : W3 m ρ c (Proc.devRef .tc main_v14_0) = (dat0 (V1 m ρ) c).arrAt 3 cfg0.N :=
  (host_keep hostOps1 main_v14_0).trans (W2_arr m ρ c 3)

/-- The second region's second output at its exit: what the pipeline leaves in window 6. -/
theorem W4_v26_1 : W4 m ρ c (Proc.devRef .tc main_v26_1) = (dat1 (V3 m ρ) c).arrAt 6 cfg1.N :=
  W4_arr m ρ c 6

/-- The second region's first output when the third region starts: what the pipeline left in window 5. -/
theorem W5_v26_0 : W5 m ρ c (Proc.devRef .tc main_v26_0) = (dat1 (V3 m ρ) c).arrAt 5 cfg1.N :=
  (host_keep hostOps2 main_v26_0).trans (W4_arr m ρ c 5)

end Cert.KernelIdeal.Keep

end
-- ==== Proof.KerBody1.lean ====
/-
  The second kernel's body on one block of 5000 rows, read at an index: the combine step of the previous layer
  (`max (dinv * (agg + hprev) + b) 0`) multiplied by the next weight matrix, each row scaled by its entry of the column
  `dinv`. As in the first body the value is stored twice (f32 and bf16: alike at the ideal values), each output buffer
  by ONE store of the whole block, and each input is loaded whole.
-/
import proofs.«139885_j17411797418342_2_alg».proof.Proof.KernelIdealFrameP
import proofs.«139885_j17411797418342_2_alg».proof.Proof.BlockSpec
import proofs.«139885_j17411797418342_2_alg».proof.Proof.KerBodyLib

noncomputable section

namespace Cert.KerBody

open Idealize.ShloMosaic Idealize.ShloMosaic.ValueIdx Cert.KernelIdeal Cert.KernelIdeal.Gen
open scoped BigOperators

/-- The stored value of the second body at row `p`, channel `n`: the combine step of the block's rows, multiplied by
    the weight matrix into the zero splat, each row then scaled by its entry of the column `dinv`. -/
theorem k1_pay1_apply (v0 : Vec Ideal S5000x1 .f32) (v2 v4 : Vec Ideal S5000x128 .f32) (v9 : Vec Ideal S1x128 .f32)
    (v16 : Vec Ideal S128x128 .f32) (p : Fin 5000) (n : Fin 128) :
    Gen.k1_pay1 (F := Ideal) v0 v2 v4 v9 v16 (ix2 p n) = Cert.BlockSpec.combineLinear v2 v4 v0 v9 v16 p n := by
  unfold Gen.k1_pay1 Cert.BlockSpec.combineLinear Cert.BlockSpec.lin
  refine (mulf_apply _ _ _).trans ?_
  refine congrArg₂ (· * ·) ?_ ?_
  · refine (matmul_plain_zero_apply (m := 5000) (k := 128) (n := 128) none _ _ p n).trans ?_
    refine Finset.sum_congr rfl fun k _ => congrArg₂ (· * ·) ?_ rfl
    exact combine_apply v0 v2 v4 v9 _ _ _ _ _ _ p k
  · rw [shapeCast_self]
    exact broadcastTo_a1_ab_apply v0 _ p n

/-- The same value narrowed to bf16 for the second store: the identity here. -/
theorem k1_pay2_apply (v0 : Vec Ideal S5000x1 .f32) (v2 v4 : Vec Ideal S5000x128 .f32) (v9 : Vec Ideal S1x128 .f32)
    (v16 : Vec Ideal S128x128 .f32) (p : Fin 5000) (n : Fin 128) :
    Gen.k1_pay2 (F := Ideal) v0 v2 v4 v9 v16 (ix2 p n) = Cert.BlockSpec.combineLinear v2 v4 v0 v9 v16 p n := by
  unfold Gen.k1_pay2
  exact (truncf_apply (ψ := .bf16) (Gen.k1_pay1 (F := Ideal) v0 v2 v4 v9 v16) bitsLt_bf16_f32 (ix2 p n)).trans (k1_pay1_apply v0 v2 v4 v9 v16 p n)

/-- The first output's buffer after the body, at row `p`, channel `n`. (The body loads `dinv` first: its windows are,
    in order, the aggregate, the previous features, `dinv`, the bias row and the weight matrix.) -/
theorem out1_5_apply (x0 x1 : Vec Ideal S5000x128 .f32) (x2 : Vec Ideal S5000x1 .f32) (x3 : Vec Ideal S1x128 .f32)
    (x4 : Vec Ideal S128x128 .f32) (p : Fin 5000) (n : Fin 128) :
    GenP.out1_5 (F := Ideal) x0 x1 x2 x3 x4 (ix2 p n) = Cert.BlockSpec.combineLinear x0 x1 x2 x3 x4 p n := by
  unfold GenP.out1_5
  rw [View.canon_unit_zero zeros2]
  simp only [View.ld_unit_zero (S := S5000x128) zeros2, View.ld_unit_zero (S := S128x128) zeros2,
    View.ld_unit_zero (S := S5000x1) zeros2, View.ld_unit_zero (S := S1x128) zeros2]
  exact k1_pay1_apply x2 x0 x1 x3 x4 p n

/-- The second output's buffer (bf16) after the body, at row `p`, channel `n`: the same value. -/
theorem out1_6_apply (x0 x1 : Vec Ideal S5000x128 .f32) (x2 : Vec Ideal S5000x1 .f32) (x3 : Vec Ideal S1x128 .f32)
    (x4 : Vec Ideal S128x128 .f32) (p : Fin 5000) (n : Fin 128) :
    GenP.out1_6 (F := Ideal) x0 x1 x2 x3 x4 (ix2 p n) = Cert.BlockSpec.combineLinear x0 x1 x2 x3 x4 p n := by
  unfold GenP.out1_6
  rw [View.canon_unit_zero zeros2]
  simp only [View.ld_unit_zero (S := S5000x128) zeros2, View.ld_unit_zero (S := S128x128) zeros2,
    View.ld_unit_zero (S := S5000x1) zeros2, View.ld_unit_zero (S := S1x128) zeros2]
  exact k1_pay2_apply x2 x0 x1 x3 x4 p n

end Cert.KerBody

end
-- ==== Proof.KerFinal1.lean ====
/-
  The second kernel region, from blocks to arrays.  Point `t` of its 20 points reads rows `5000 t … 5000 t + 4999` of the
  aggregated neighbours, of the previous scaled features and of the degree column, and the whole bias row and weight
  matrix, and writes the same rows of its two outputs.  Each output array ends as ONE function of the region's input
  arrays: `(max (dinv * (agg + hprev) + b) 0 @ W) * dinv`, row by row.
-/
import proofs.«139885_j17411797418342_2_alg».proof.Proof.KerBody1
import Idealize.ShloMosaic.Lib.Pipeline.Value

set_option maxRecDepth 16384

noncomputable section

namespace Cert.KernelIdeal.Final1

open Cert.KernelIdeal Cert.KernelIdeal.Gen Cert.KernelIdeal.GenP
open Idealize.ShloMosaic Idealize.ShloMosaic.TcCoe Idealize.ShloMosaic.ValueIdx Cert.BlockSpec
open Idealize.ShloMosaic.Pipeline (Dat Cfg Window)

variable (V : (c : Dev nD) → (b : Ref sig .tc) → Buf (Elt Ideal) ((c : Thread nD τ).loc b))

/-- The index maps over the grid: a row-blocked window's block index is the point's number on the row axis, a resident
    window's is zero; the column index is always zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem lt_pts (t : Fin cfg1.N) : t.val < 20 := lt_of_lt_of_eq t.isLt N_1

/-- Row `p` of the block at point `t` is row `5000 t + p` of the array. -/
def rowAt (t : Fin cfg1.N) (p : Fin 5000) : Fin 100000 :=
  ⟨t.val * 5000 + p.val, by have := lt_pts t; have := p.isLt; omega⟩

/-- The aggregated neighbours' block at a point is the array at the block's rows. -/
theorem blk_0 (c : Dev nD) (t : Fin cfg1.N) (p : Fin 5000) (k : Fin 128) :
    iblk1 V c 0 t (ix2 p k) = V c main_v25 (ix2 (rowAt t p) k) := by
  obtain ⟨e0a, e0b, -⟩ := idx_facts t
  show V c main_v25 (((cfg1.win 0).blk t).view.emb (ix2 p k)) = _
  refine congrArg (V c main_v25) (funext fun a => Fin.ext ?_)
  match a with
  | ⟨0, _⟩ =>
    show win1_0.index t (0 : Fin 2) * 5000 + 1 * p.val = t.val * 5000 + p.val
    rw [e0a]; omega
  | ⟨1, _⟩ =>
    show win1_0.index t (1 : Fin 2) * 128 + 1 * k.val = k.val
    rw [e0b]; omega

/-- The previous scaled features' block at a point is the array at the block's rows. -/
theorem blk_1 (c : Dev nD) (t : Fin cfg1.N) (p : Fin 5000) (k : Fin 128) :
    iblk1 V c 1 t (ix2 p k) = V c main_v14_0 (ix2 (rowAt t p) k) := by
  obtain ⟨-, -, e1a, e1b, -⟩ := idx_facts t
  show V c main_v14_0 (((cfg1.win 1).blk t).view.emb (ix2 p k)) = _
  refine congrArg (V c main_v14_0) (funext fun a => Fin.ext ?_)
  match a with
  | ⟨0, _⟩ =>
    show win1_1.index t (0 : Fin 2) * 5000 + 1 * p.val = t.val * 5000 + p.val
    rw [e1a]; omega
  | ⟨1, _⟩ =>
    show win1_1.index t (1 : Fin 2) * 128 + 1 * k.val = k.val
    rw [e1b]; omega

/-- The degree column's block at a point is the column at the block's rows. -/
theorem blk_2 (c : Dev nD) (t : Fin cfg1.N) (p : Fin 5000) (k : Fin 1) :
    iblk1 V c 2 t (ix2 p k) = V c main_v11 (ix2 (rowAt t p) k) := by
  obtain ⟨-, -, -, -, e2a, e2b, -⟩ := idx_facts t
  show V c main_v11 (((cfg1.win 2).blk t).view.emb (ix2 p k)) = _
  refine congrArg (V c main_v11) (funext fun a => Fin.ext ?_)
  match a with
  | ⟨0, _⟩ =>
    show win1_2.index t (0 : Fin 2) * 5000 + 1 * p.val = t.val * 5000 + p.val
    rw [e2a]; omega
  | ⟨1, _⟩ =>
    show win1_2.index t (1 : Fin 2) * 1 + 1 * k.val = k.val
    rw [e2b]; omega

/-- The bias row's block is the whole row. -/
theorem blk_3 (c : Dev nD) (t : Fin cfg1.N) (p : Fin 1) (k : Fin 128) :
    iblk1 V c 3 t (ix2 p k) = V c main_v12 (ix2 p k) := by
  obtain ⟨-, -, -, -, -, -, e3a, e3b, -⟩ := idx_facts t
  show V c main_v12 (((cfg1.win 3).blk t).view.emb (ix2 p k)) = _
  refine congrArg (V c main_v12) (funext fun a => Fin.ext ?_)
  match a with
  | ⟨0, _⟩ =>
    show win1_3.index t (0 : Fin 2) * 1 + 1 * p.val = p.val
    rw [e3a]; omega
  | ⟨1, _⟩ =>
    show win1_3.index t (1 : Fin 2) * 128 + 1 * k.val = k.val
    rw [e3b]; omega

/-- The weight matrix's block is the whole matrix. -/
theorem blk_4 (c : Dev nD) (t : Fin cfg1.N) (p : Fin 128) (k : Fin 128) :
    iblk1 V c 4 t (ix2 p k) = V c main_arg6 (ix2 p k) := by
  obtain ⟨-, -, -, -, -, -, -, -, e4a, e4b, -⟩ := idx_facts t
  show V c main_arg6 (((cfg1.win 4).blk t).view.emb (ix2 p k)) = _
  refine congrArg (V c main_arg6) (funext fun a => Fin.ext ?_)
  match a with
  | ⟨0, _⟩ =>
    show win1_4.index t (0 : Fin 2) * 128 + 1 * p.val = p.val
    rw [e4a]; omega
  | ⟨1, _⟩ =>
    show win1_4.index t (1 : Fin 2) * 128 + 1 * k.val = k.val
    rw [e4b]; omega

/-- The block-level function of the blocks at a point is the same function of the whole arrays at the block's row. -/
theorem block_eq (c : Dev nD) (t : Fin cfg1.N) (p : Fin 5000) (q : Fin 128) :
    combineLinear (iblk1 V c 0 t) (iblk1 V c 1 t) (iblk1 V c 2 t) (iblk1 V c 3 t) (iblk1 V c 4 t) p q
      = combineLinear (P := 100000) (V c main_v25) (V c main_v14_0) (V c main_v11) (V c main_v12) (V c main_arg6) (rowAt t p) q := by
  unfold combineLinear lin combine
  simp only [blk_0 V c t, blk_1 V c t, blk_2 V c t, blk_3 V c t, blk_4 V c t]

/-- The whole array the region's output blocks are blocks of. -/
def arr (A H : S100000x128.Idx → EReal) (Dv : S100000x1.Idx → EReal) (b : S1x128.Idx → EReal) (W : S128x128.Idx → EReal) : S100000x128.Idx → EReal :=
  fun i => combineLinear (P := 100000) A H Dv b W ⟨(i 0).val, (i 0).isLt⟩ ⟨(i 1).val, (i 1).isLt⟩

theorem arr_apply (A H : S100000x128.Idx → EReal) (Dv : S100000x1.Idx → EReal) (b : S1x128.Idx → EReal) (W : S128x128.Idx → EReal) (j : Fin 100000) (n : Fin 128) :
    arr A H Dv b W (ix2 j n) = combineLinear (P := 100000) A H Dv b W j n := rfl

/-- Where an element of output window 5's block sits in the array. -/
theorem emb_5 (t : Fin cfg1.N) (p : Fin 5000) (q : Fin 128) :
    ((cfg1.win 5).blk t).view.emb (ix2 p q) = ix2 (rowAt t p) q := by
  obtain ⟨-, -, -, -, -, -, -, -, -, -, e5a, e5b, -⟩ := idx_facts t
  refine funext fun a => Fin.ext ?_
  match a with
  | ⟨0, _⟩ =>
    show win1_5.index t (0 : Fin 2) * 5000 + 1 * p.val = t.val * 5000 + p.val
    rw [e5a]; omega
  | ⟨1, _⟩ =>
    show win1_5.index t (1 : Fin 2) * 128 + 1 * q.val = q.val
    rw [e5b]; omega

/-- An index of the array is in point `t`'s block of output window 5 iff each coordinate is in the block's range. -/
theorem mem_blk_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26_0).slice (win1_5.rect t)).set ↔ _
  rw [View.set_slice_whole, Rect.mem_set_unit]
  exact Iff.rfl

/-- Every row lies in the block of the point numbered by the row's quotient by the block height. -/
theorem cover_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 5000 < cfg1.N := by rw [show cfg1.N = 20 from N_1]; omega
  obtain ⟨-, -, -, -, -, -, -, -, -, -, e5a, e5b, -⟩ := idx_facts ⟨(i 0).val / 5000, hlt⟩
  refine ⟨⟨(i 0).val / 5000, hlt⟩, flush1_5 _, ?_⟩
  rw [mem_blk_5]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e5a]
    show (i 0).val / 5000 * 5000 ≤ (i 0).val ∧ (i 0).val < (i 0).val / 5000 * 5000 + 5000
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    rw [e5b]
    omega

/-- What point `t` leaves in output window 5's buffer is block `t` of the array function, index by index. -/
theorem pt_5 (c : Dev nD) (t : Fin cfg1.N) (y : S5000x128.Idx) :
    out1_5 (iblk1 V c 0 t) (iblk1 V c 1 t) (iblk1 V c 2 t) (iblk1 V c 3 t) (iblk1 V c 4 t) y
      = arr (V c main_v25) (V c main_v14_0) (V c main_v11) (V c main_v12) (V c main_arg6) (((cfg1.win 5).blk t).view.emb y) := by
  obtain ⟨p, q, rfl⟩ : ∃ (p : Fin 5000) (q : Fin 128), y = ix2 p q := ⟨y 0, y 1, eq_ix2 y⟩
  rw [emb_5, arr_apply]
  exact (Cert.KerBody.out1_5_apply (iblk1 V c 0 t) (iblk1 V c 1 t) (iblk1 V c 2 t) (iblk1 V c 3 t) (iblk1 V c 4 t) p q).trans (block_eq V c t p q)

/-- WHAT POINT `t` WRITES BACK through output window 5 is block `t` of the array function. -/
theorem flushed_5 (c : Dev nD) (t : Fin cfg1.N) :
    (dat1 V c).flushed 5 t = ((cfg1.win 5).blk t).view.read (Elt Ideal) (arr (V c main_v25) (V c main_v14_0) (V c main_v11) (V c main_v12) (V c main_arg6)) := by
  show (cfg1.win 5).cut (grid1.coords t) ((dat1 V c).after 5 t) = _
  rw [after1_5]
  funext y
  exact pt_5 V c t y

/-- THE ARRAY after the region: every row is covered, so the output array is the array function. -/
theorem final_5 (c : Dev nD) : (dat1 V c).arrAt 5 cfg1.N = arr (V c main_v25) (V c main_v14_0) (V c main_v11) (V c main_v12) (V c main_arg6) :=
  (dat1 V c).arrAt_eq_of_cover 5 (arr (V c main_v25) (V c main_v14_0) (V c main_v11) (V c main_v12) (V c main_arg6)) (fun t _ => flushed_5 V c t) cover_5

/-- Where an element of output window 6's block sits in the array. -/
theorem emb_6 (t : Fin cfg1.N) (p : Fin 5000) (q : Fin 128) :
    ((cfg1.win 6).blk t).view.emb (ix2 p q) = ix2 (rowAt t p) q := by
  obtain ⟨-, -, -, -, -, -, -, -, -, -, -, -, e6a, e6b⟩ := idx_facts t
  refine funext fun a => Fin.ext ?_
  match a with
  | ⟨0, _⟩ =>
    show win1_6.index t (0 : Fin 2) * 5000 + 1 * p.val = t.val * 5000 + p.val
    rw [e6a]; omega
  | ⟨1, _⟩ =>
    show win1_6.index t (1 : Fin 2) * 128 + 1 * q.val = q.val
    rw [e6b]; omega

/-- An index of the array is in point `t`'s block of output window 6 iff each coordinate is in the block's range. -/
theorem mem_blk_6 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v26_1).slice (win1_6.rect t)).set ↔ _
  rw [View.set_slice_whole, Rect.mem_set_unit]
  exact Iff.rfl

/-- Every row lies in the block of the point numbered by the row's quotient by the block height. -/
theorem cover_6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 5000 < cfg1.N := by rw [show cfg1.N = 20 from N_1]; omega
  obtain ⟨-, -, -, -, -, -, -, -, -, -, -, -, e6a, e6b⟩ := idx_facts ⟨(i 0).val / 5000, hlt⟩
  refine ⟨⟨(i 0).val / 5000, hlt⟩, flush1_6 _, ?_⟩
  rw [mem_blk_6]
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e6a]
    show (i 0).val / 5000 * 5000 ≤ (i 0).val ∧ (i 0).val < (i 0).val / 5000 * 5000 + 5000
    omega
  | ⟨1, _⟩ =>
    show win1_6.index ⟨(i 0).val / 5000, hlt⟩ (1 : Fin 2) * 128 ≤ (i 1).val ∧ (i 1).val < win1_6.index ⟨(i 0).val / 5000, hlt⟩ (1 : Fin 2) * 128 + 128
    rw [e6b]
    omega

/-- What point `t` leaves in output window 6's buffer is block `t` of the array function, index by index. -/
theorem pt_6 (c : Dev nD) (t : Fin cfg1.N) (y : S5000x128.Idx) :
    out1_6 (iblk1 V c 0 t) (iblk1 V c 1 t) (iblk1 V c 2 t) (iblk1 V c 3 t) (iblk1 V c 4 t) y
      = arr (V c main_v25) (V c main_v14_0) (V c main_v11) (V c main_v12) (V c main_arg6) (((cfg1.win 6).blk t).view.emb y) := by
  obtain ⟨p, q, rfl⟩ : ∃ (p : Fin 5000) (q : Fin 128), y = ix2 p q := ⟨y 0, y 1, eq_ix2 y⟩
  rw [emb_6, arr_apply]
  exact (Cert.KerBody.out1_6_apply (iblk1 V c 0 t) (iblk1 V c 1 t) (iblk1 V c 2 t) (iblk1 V c 3 t) (iblk1 V c 4 t) p q).trans (block_eq V c t p q)

/-- WHAT POINT `t` WRITES BACK through output window 6 is block `t` of the array function. -/
theorem flushed_6 (c : Dev nD) (t : Fin cfg1.N) :
    (dat1 V c).flushed 6 t = ((cfg1.win 6).blk t).view.read (Elt Ideal) (arr (V c main_v25) (V c main_v14_0) (V c main_v11) (V c main_v12) (V c main_arg6)) := by
  show (cfg1.win 6).cut (grid1.coords t) ((dat1 V c).after 6 t) = _
  rw [after1_6]
  funext y
  exact pt_6 V c t y

/-- THE ARRAY after the region: every row is covered, so the output array is the array function. -/
theorem final_6 (c : Dev nD) : (dat1 V c).arrAt 6 cfg1.N = arr (V c main_v25) (V c main_v14_0) (V c main_v11) (V c main_v12) (V c main_arg6) :=
  (dat1 V c).arrAt_eq_of_cover 6 (arr (V c main_v25) (V c main_v14_0) (V c main_v11) (V c main_v12) (V c main_arg6)) (fun t _ => flushed_6 V c t) cover_6

end Cert.KernelIdeal.Final1

end
-- ==== Proof.KerBody2.lean ====
/-
  The third kernel's body on one block of 2000 rows, read at an index. The body forms the combine step of the last
  layer once, then: (first output) the logistic function of a scalar read-out of it; (second output) two hidden
  branches `max (combine @ W + b) 0`, a scalar read-out of each, and per row the read-out its integer flag chooses (the
  branch with weights w10, b10, w11, b11 where the flag is positive, else the one with w00, b00, w01, b01). Each output
  buffer is left by ONE store of the whole block and each input is loaded whole.
-/
import proofs.«139885_j17411797418342_2_alg».proof.Proof.KernelIdealFrameP
import proofs.«139885_j17411797418342_2_alg».proof.Proof.BlockSpec
import proofs.«139885_j17411797418342_2_alg».proof.Proof.KerBodyLib

noncomputable section

namespace Cert.KerBody

open Idealize.ShloMosaic Idealize.ShloMosaic.ValueIdx Cert.KernelIdeal Cert.KernelIdeal.Gen
open scoped BigOperators

/-- `Scalar.select` respects equality of its three operands. -/
theorem select_congr {α : Type} {c c' : BitVec 1} {a a' b b' : α} (hc : c = c') (ha : a = a') (hb : b = b') :
    Scalar.select c a b = Scalar.select c' a' b' := by
  subst hc ha hb; rfl

/-- The combine step of the third body's block of 2000 rows, read at row `p`, channel `k`. -/
theorem k2_pay3_apply (v0 : Vec Ideal S2000x1 .f32) (v2 v4 : Vec Ideal S2000x128 .f32) (v9 : Vec Ideal S1x128 .f32)
    (p : Fin 2000) (k : Fin 128) :
    Gen.k2_pay3 (F := Ideal) v0 v2 v4 v9 (ix2 p k) = Cert.BlockSpec.combine v2 v4 v0 v9 p k := by
  unfold Gen.k2_pay3
  exact combine_apply v0 v2 v4 v9 _ _ _ _ _ _ p k

/-- A hidden branch of the head over the combine step as its rows, `max (combine @ W + b) 0`, at row `p`, channel `n`
    (the weight matrix is narrowed to bf16, the bias row broadcast down the rows) … -/
theorem k2_pay4_apply (v0 : Vec Ideal S2000x1 .f32) (v2 v4 : Vec Ideal S2000x128 .f32) (v9 : Vec Ideal S1x128 .f32)
    (v26 : Vec Ideal S128x128 .f32) (v30 : Vec Ideal S1x128 .f32) (p : Fin 2000) (n : Fin 128) :
    Gen.k2_pay4 (F := Ideal) v0 v2 v4 v9 v26 v30 (ix2 p n)
      = Cert.BlockSpec.hiddenB (Cert.BlockSpec.combine v2 v4 v0 v9) v26 v30 p n := by
  unfold Gen.k2_pay4 Cert.BlockSpec.hiddenB Cert.BlockSpec.lin
  refine (maximumf_apply _ _ _).trans ?_
  refine congrArg₂ max ?_ rfl
  refine (addf_apply _ _ _).trans ?_
  refine congrArg₂ (· + ·) ?_ ?_
  · refine (matmul_plain_zero_apply (m := 2000) (k := 128) (n := 128) none _ _ p n).trans ?_
    refine Finset.sum_congr rfl fun k _ => congrArg₂ (· * ·) (k2_pay3_apply v0 v2 v4 v9 p k) ?_
    rw [shapeCast_self]
    rfl
  · rw [shapeCast_self]
    exact broadcastTo_1b_ab_apply v30 _ p n

/-- … and the other branch, whose result is narrowed to bf16 as well (the identity here). -/
theorem k2_pay5_apply (v0 : Vec Ideal S2000x1 .f32) (v2 v4 : Vec Ideal S2000x128 .f32) (v9 : Vec Ideal S1x128 .f32)
    (v16 : Vec Ideal S128x128 .f32) (v20 : Vec Ideal S1x128 .f32) (p : Fin 2000) (n : Fin 128) :
    Gen.k2_pay5 (F := Ideal) v0 v2 v4 v9 v16 v20 (ix2 p n)
      = Cert.BlockSpec.hiddenB (Cert.BlockSpec.combine v2 v4 v0 v9) v16 v20 p n := by
  unfold Gen.k2_pay5 Cert.BlockSpec.hiddenB Cert.BlockSpec.lin
  refine (truncf_apply (ψ := .bf16) (φ := .f32) _ bitsLt_bf16_f32 (ix2 p n)).trans ?_
  refine (maximumf_apply _ _ _).trans ?_
  refine congrArg₂ max ?_ rfl
  refine (addf_apply _ _ _).trans ?_
  refine congrArg₂ (· + ·) ?_ ?_
  · refine (matmul_plain_zero_apply (m := 2000) (k := 128) (n := 128) none _ _ p n).trans ?_
    refine Finset.sum_congr rfl fun k _ => congrArg₂ (· * ·) (k2_pay3_apply v0 v2 v4 v9 p k) ?_
    rw [shapeCast_self]
    rfl
  · rw [shapeCast_self]
    exact broadcastTo_1b_ab_apply v20 _ p n

/-- A scalar read-out of a block whose rows are `r`: the product with a one-column weight into the zero splat, plus the
    one-element bias broadcast down the column, read at row `p`. -/
theorem readout_apply (A : FVec Ideal S2000x128 .bf16) (w : Vec Ideal S128x1 .f32) (b : Vec Ideal S1x1 .f32)
    (r : Fin 2000 → Fin 128 → EReal) (hr : ∀ p k, A (ix2 p k) = r p k) (p : Fin 2000) :
    (addf (matmul dot_S2000x128_S128x1_S2000x1_1_0_0_1_n_n none A (truncf .bf16 w bitsLt_bf16_f32)
          (constant S2000x1 .f32 0x00000000#32))
        (broadcastTo S2000x1 (shapeCast S1x1 b shapeCasts_S1x1_S1x1) broadcasts_S1x1_S2000x1) : FVec Ideal S2000x1 .f32)
      (ix2 p (0 : Fin 1)) = Cert.BlockSpec.readoutB r w b p := by
  unfold Cert.BlockSpec.readoutB Cert.BlockSpec.lin
  refine (addf_apply _ _ _).trans ?_
  refine congrArg₂ (· + ·) ?_ ?_
  · refine (matmul_plain_zero_apply (m := 2000) (k := 128) (n := 1) none _ _ p (0 : Fin 1)).trans ?_
    exact Finset.sum_congr rfl fun k _ => congrArg₂ (· * ·) (hr p k) rfl
  · rw [shapeCast_self]
    exact broadcastTo_1b_ab_apply b _ p (0 : Fin 1)

/-- The third body's first output at row `p`: the logistic function of a read-out of the rows `r`. -/
theorem k2_pay2_apply (v15 : FVec Ideal S2000x128 .bf16) (v58 : Vec Ideal S128x1 .f32) (v61 : Vec Ideal S1x1 .f32)
    (r : Fin 2000 → Fin 128 → EReal) (hr : ∀ p k, v15 (ix2 p k) = r p k) (p : Fin 2000) :
    Gen.k2_pay2 (F := Ideal) v15 v58 v61 (ix2 p (0 : Fin 1)) = Ideal.logistic (Cert.BlockSpec.readoutB r v58 v61 p) := by
  unfold Gen.k2_pay2
  exact congrArg Ideal.logistic (readout_apply v15 v58 v61 r hr p)

/-- The third body's second output at row `p`: where the row's flag is positive the read-out of the rows `r1`, else
    that of the rows `r0`. -/
theorem k2_pay1_apply (v35 : FVec Ideal S2000x128 .f32) (v36 : FVec Ideal S2000x128 .bf16) (v37 : Vec Ideal S128x1 .f32)
    (v40 : Vec Ideal S1x1 .f32) (v45 : Vec Ideal S128x1 .f32) (v48 : Vec Ideal S1x1 .f32) (v52 : Vec Ideal S2000x1 .i32)
    (r1 r0 : Fin 2000 → Fin 128 → EReal) (h1 : ∀ p k, v35 (ix2 p k) = r1 p k) (h0 : ∀ p k, v36 (ix2 p k) = r0 p k)
    (p : Fin 2000) :
    Gen.k2_pay1 (F := Ideal) v35 v36 v37 v40 v45 v48 v52 (ix2 p (0 : Fin 1))
      = Scalar.select (IntOp.cmpi .sgt (v52 (ix2 p (0 : Fin 1))) 0#32)
          (Cert.BlockSpec.readoutB r1 v45 v48 p) (Cert.BlockSpec.readoutB r0 v37 v40 p) := by
  unfold Gen.k2_pay1
  refine (select_apply _ _ _ _).trans (select_congr ?_ ?_ ?_)
  · rw [shapeCast_self]
    rfl
  · exact readout_apply (truncf .bf16 v35 bitsLt_bf16_f32) v45 v48 r1 h1 p
  · exact readout_apply v36 v37 v40 r0 h0 p

/-- The first output's buffer after the body, at row `p` (its one column). Windows, in order: the aggregate, the
    previous features, `dinv`, the bias row, the flags, then w00, b00, w10, b10, w01, b01, w11, b11, and the read-out's
    weight column and bias. -/
theorem out2_15_apply (x0 x1 : Vec Ideal S2000x128 .f32) (x2 : Vec Ideal S2000x1 .f32) (x3 : Vec Ideal S1x128 .f32)
    (x4 : Vec Ideal S2000x1 .i32) (x5 : Vec Ideal S128x128 .f32) (x6 : Vec Ideal S1x128 .f32) (x7 : Vec Ideal S128x128 .f32)
    (x8 : Vec Ideal S1x128 .f32) (x9 : Vec Ideal S128x1 .f32) (x10 : Vec Ideal S1x1 .f32) (x11 : Vec Ideal S128x1 .f32)
    (x12 : Vec Ideal S1x1 .f32) (x13 : Vec Ideal S128x1 .f32) (x14 : Vec Ideal S1x1 .f32) (p : Fin 2000) :
    GenP.out2_15 (F := Ideal) x0 x1 x2 x3 x4 x5 x6 x7 x8 x9 x10 x11 x12 x13 x14 (ix2 p (0 : Fin 1))
      = Cert.BlockSpec.headP x0 x1 x2 x3 x13 x14 p := by
  unfold GenP.out2_15 Cert.BlockSpec.headP
  rw [View.canon_unit_zero zeros2]
  simp only [View.ld_unit_zero (S := S2000x128) zeros2, View.ld_unit_zero (S := S2000x1) zeros2,
    View.ld_unit_zero (S := S1x128) zeros2, View.ld_unit_zero (S := S128x1) zeros2, View.ld_unit_zero (S := S1x1) zeros2]
  exact k2_pay2_apply _ x13 x14 (Cert.BlockSpec.combine x0 x1 x2 x3) (fun q k => k2_pay3_apply x2 x0 x1 x3 q k) p

/-- The second output's buffer after the body, at row `p` (its one column). -/
theorem out2_16_apply (x0 x1 : Vec Ideal S2000x128 .f32) (x2 : Vec Ideal S2000x1 .f32) (x3 : Vec Ideal S1x128 .f32)
    (x4 : Vec Ideal S2000x1 .i32) (x5 : Vec Ideal S128x128 .f32) (x6 : Vec Ideal S1x128 .f32) (x7 : Vec Ideal S128x128 .f32)
    (x8 : Vec Ideal S1x128 .f32) (x9 : Vec Ideal S128x1 .f32) (x10 : Vec Ideal S1x1 .f32) (x11 : Vec Ideal S128x1 .f32)
    (x12 : Vec Ideal S1x1 .f32) (x13 : Vec Ideal S128x1 .f32) (x14 : Vec Ideal S1x1 .f32) (p : Fin 2000) :
    GenP.out2_16 (F := Ideal) x0 x1 x2 x3 x4 x5 x6 x7 x8 x9 x10 x11 x12 x13 x14 (ix2 p (0 : Fin 1))
      = Cert.BlockSpec.headY x0 x1 x2 x3 x4 x5 x6 x7 x8 x9 x10 x11 x12 p := by
  unfold GenP.out2_16 Cert.BlockSpec.headY
  rw [View.canon_unit_zero zeros2]
  simp only [View.ld_unit_zero (S := S2000x128) zeros2, View.ld_unit_zero (S := S2000x1) zeros2,
    View.ld_unit_zero (S := S1x128) zeros2, View.ld_unit_zero (S := S128x128) zeros2,
    View.ld_unit_zero (S := S128x1) zeros2, View.ld_unit_zero (S := S1x1) zeros2]
  exact k2_pay1_apply _ _ x9 x10 x11 x12 x4
    (Cert.BlockSpec.hiddenB (Cert.BlockSpec.combine x0 x1 x2 x3) x7 x8)
    (Cert.BlockSpec.hiddenB (Cert.BlockSpec.combine x0 x1 x2 x3) x5 x6)
    (fun q k => k2_pay4_apply x2 x0 x1 x3 x7 x8 q k) (fun q k => k2_pay5_apply x2 x0 x1 x3 x5 x6 q k) p

end Cert.KerBody

end
-- ==== Proof.KerFinal2.lean ====
/-
  The third kernel region, from blocks to arrays.  Point `t` of its 50 points reads rows `2000 t … 2000 t + 1999` of the
  aggregated neighbours, of the previous scaled features, of the degree column and of the flag column, and the whole of
  every weight and bias, and writes the same rows of its two one-column outputs.  Each output array ends as ONE function
  of the region's input arrays, row by row: the logistic read-out, and the read-out of the branch the flag chooses.
-/
import proofs.«139885_j17411797418342_2_alg».proof.Proof.KerBody2
import Idealize.ShloMosaic.Lib.Pipeline.Value

set_option maxRecDepth 16384

noncomputable section

namespace Cert.KernelIdeal.Final2

open Cert.KernelIdeal Cert.KernelIdeal.Gen Cert.KernelIdeal.GenP
open Idealize.ShloMosaic Idealize.ShloMosaic.TcCoe Idealize.ShloMosaic.ValueIdx Cert.BlockSpec
open Idealize.ShloMosaic.Pipeline (Dat Cfg Window)

variable (V : (c : Dev nD) → (b : Ref sig .tc) → Buf (Elt Ideal) ((c : Thread nD τ).loc b))

/-- The index maps over the grid: a row-blocked window's block index is the point's number on the row axis, a resident
    window's is zero; the column index is always zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0
    ∧ win2_14.index t (0 : Fin 2) = 0 ∧ win2_14.index t (1 : Fin 2) = 0
    ∧ win2_15.index t (0 : Fin 2) = t.val ∧ win2_15.index t (1 : Fin 2) = 0
    ∧ win2_16.index t (0 : Fin 2) = t.val ∧ win2_16.index t (1 : Fin 2) = 0 :=
  (by decide +kernel : ∀ t : Fin grid2.N, _)

theorem lt_pts (t : Fin cfg2.N) : t.val < 50 := lt_of_lt_of_eq t.isLt N_2

/-- Row `p` of the block at point `t` is row `2000 t + p` of the array. -/
def rowAt (t : Fin cfg2.N) (p : Fin 2000) : Fin 100000 :=
  ⟨t.val * 2000 + p.val, by have := lt_pts t; have := p.isLt; omega⟩

/-- The aggregated neighbours' block at a point is the array at the block's rows. -/
theorem blk_0 (c : Dev nD) (t : Fin cfg2.N) (p : Fin 2000) (k : Fin 128) :
    iblk2 V c 0 t (ix2 p k) = V c main_v37 (ix2 (rowAt t p) k) := by
  obtain ⟨e0a, e0b, -⟩ := idx_facts t
  show V c main_v37 (((cfg2.win 0).blk t).view.emb (ix2 p k)) = _
  refine congrArg (V c main_v37) (funext fun a => Fin.ext ?_)
  match a with
  | ⟨0, _⟩ =>
    show win2_0.index t (0 : Fin 2) * 2000 + 1 * p.val = t.val * 2000 + p.val
    rw [e0a]; omega
  | ⟨1, _⟩ =>
    show win2_0.index t (1 : Fin 2) * 128 + 1 * k.val = k.val
    rw [e0b]; omega

/-- The previous scaled features' block at a point is the array at the block's rows. -/
theorem blk_1 (c : Dev nD) (t : Fin cfg2.N) (p : Fin 2000) (k : Fin 128) :
    iblk2 V c 1 t (ix2 p k) = V c main_v26_0 (ix2 (rowAt t p) k) := by
  obtain ⟨-, -, e1a, e1b, -⟩ := idx_facts t
  show V c main_v26_0 (((cfg2.win 1).blk t).view.emb (ix2 p k)) = _
  refine congrArg (V c main_v26_0) (funext fun a => Fin.ext ?_)
  match a with
  | ⟨0, _⟩ =>
    show win2_1.index t (0 : Fin 2) * 2000 + 1 * p.val = t.val * 2000 + p.val
    rw [e1a]; omega
  | ⟨1, _⟩ =>
    show win2_1.index t (1 : Fin 2) * 128 + 1 * k.val = k.val
    rw [e1b]; omega

/-- The degree column's block at a point is the column at the block's rows. -/
theorem blk_2 (c : Dev nD) (t : Fin cfg2.N) (p : Fin 2000) (k : Fin 1) :
    iblk2 V c 2 t (ix2 p k) = V c main_v11 (ix2 (rowAt t p) k) := by
  obtain ⟨-, -, -, -, e2a, e2b, -⟩ := idx_facts t
  show V c main_v11 (((cfg2.win 2).blk t).view.emb (ix2 p k)) = _
  refine congrArg (V c main_v11) (funext fun a => Fin.ext ?_)
  match a with
  | ⟨0, _⟩ =>
    show win2_2.index t (0 : Fin 2) * 2000 + 1 * p.val = t.val * 2000 + p.val
    rw [e2a]; omega
  | ⟨1, _⟩ =>
    show win2_2.index t (1 : Fin 2) * 1 + 1 * k.val = k.val
    rw [e2b]; omega

/-- The convolution's bias row's block is the whole row. -/
theorem blk_3 (c : Dev nD) (t : Fin cfg2.N) (p : Fin 1) (k : Fin 128) :
    iblk2 V c 3 t (ix2 p k) = V c main_v13 (ix2 p k) := by
  obtain ⟨-, -, -, -, -, -, e3a, e3b, -⟩ := idx_facts t
  show V c main_v13 (((cfg2.win 3).blk t).view.emb (ix2 p k)) = _
  refine congrArg (V c main_v13) (funext fun a => Fin.ext ?_)
  match a with
  | ⟨0, _⟩ =>
    show win2_3.index t (0 : Fin 2) * 1 + 1 * p.val = p.val
    rw [e3a]; omega
  | ⟨1, _⟩ =>
    show win2_3.index t (1 : Fin 2) * 128 + 1 * k.val = k.val
    rw [e3b]; omega

/-- The flag column's block at a point is the column at the block's rows. -/
theorem blk_4 (c : Dev nD) (t : Fin cfg2.N) (p : Fin 2000) (k : Fin 1) :
    iblk2 V c 4 t (ix2 p k) = V c main_v38 (ix2 (rowAt t p) k) := by
  obtain ⟨-, -, -, -, -, -, -, -, e4a, e4b, -⟩ := idx_facts t
  show V c main_v38 (((cfg2.win 4).blk t).view.emb (ix2 p k)) = _
  refine congrArg (V c main_v38) (funext fun a => Fin.ext ?_)
  match a with
  | ⟨0, _⟩ =>
    show win2_4.index t (0 : Fin 2) * 2000 + 1 * p.val = t.val * 2000 + p.val
    rw [e4a]; omega
  | ⟨1, _⟩ =>
    show win2_4.index t (1 : Fin 2) * 1 + 1 * k.val = k.val
    rw [e4b]; omega

/-- The first hidden branch's weight matrix's block is the whole matrix. -/
theorem blk_5 (c : Dev nD) (t : Fin cfg2.N) (p : Fin 128) (k : Fin 128) :
    iblk2 V c 5 t (ix2 p k) = V c main_v40 (ix2 p k) := by
  obtain ⟨-, -, -, -, -, -, -, -, -, -, e5a, e5b, -⟩ := idx_facts t
  show V c main_v40 (((cfg2.win 5).blk t).view.emb (ix2 p k)) = _
  refine congrArg (V c main_v40) (funext fun a => Fin.ext ?_)
  match a with
  | ⟨0, _⟩ =>
    show win2_5.index t (0 : Fin 2) * 128 + 1 * p.val = p.val
    rw [e5a]; omega
  | ⟨1, _⟩ =>
    show win2_5.index t (1 : Fin 2) * 128 + 1 * k.val = k.val
    rw [e5b]; omega

/-- The first hidden branch's bias row's block is the whole row. -/
theorem blk_6 (c : Dev nD) (t : Fin cfg2.N) (p : Fin 1) (k : Fin 128) :
    iblk2 V c 6 t (ix2 p k) = V c main_v43 (ix2 p k) := by
  obtain ⟨-, -, -, -, -, -, -, -, -, -, -, -, e6a, e6b, -⟩ := idx_facts t
  show V c main_v43 (((cfg2.win 6).blk t).view.emb (ix2 p k)) = _
  refine congrArg (V c main_v43) (funext fun a => Fin.ext ?_)
  match a with
  | ⟨0, _⟩ =>
    show win2_6.index t (0 : Fin 2) * 1 + 1 * p.val = p.val
    rw [e6a]; omega
  | ⟨1, _⟩ =>
    show win2_6.index t (1 : Fin 2) * 128 + 1 * k.val = k.val
    rw [e6b]; omega

/-- The second hidden branch's weight matrix's block is the whole matrix. -/
theorem blk_7 (c : Dev nD) (t : Fin cfg2.N) (p : Fin 128) (k : Fin 128) :
    iblk2 V c 7 t (ix2 p k) = V c main_v45 (ix2 p k) := by
  obtain ⟨-, -, -, -, -, -, -, -, -, -, -, -, -, -, e7a, e7b, -⟩ := idx_facts t
  show V c main_v45 (((cfg2.win 7).blk t).view.emb (ix2 p k)) = _
  refine congrArg (V c main_v45) (funext fun a => Fin.ext ?_)
  match a with
  | ⟨0, _⟩ =>
    show win2_7.index t (0 : Fin 2) * 128 + 1 * p.val = p.val
    rw [e7a]; omega
  | ⟨1, _⟩ =>
    show win2_7.index t (1 : Fin 2) * 128 + 1 * k.val = k.val
    rw [e7b]; omega

/-- The second hidden branch's bias row's block is the whole row. -/
theorem blk_8 (c : Dev nD) (t : Fin cfg2.N) (p : Fin 1) (k : Fin 128) :
    iblk2 V c 8 t (ix2 p k) = V c main_v48 (ix2 p k) := by
  obtain ⟨-, -, -, -, -, -, -, -, -, -, -, -, -, -, -, -, e8a, e8b, -⟩ := idx_facts t
  show V c main_v48 (((cfg2.win 8).blk t).view.emb (ix2 p k)) = _
  refine congrArg (V c main_v48) (funext fun a => Fin.ext ?_)
  match a with
  | ⟨0, _⟩ =>
    show win2_8.index t (0 : Fin 2) * 1 + 1 * p.val = p.val
    rw [e8a]; omega
  | ⟨1, _⟩ =>
    show win2_8.index t (1 : Fin 2) * 128 + 1 * k.val = k.val
    rw [e8b]; omega

/-- The first read-out column's block is the whole column. -/
theorem blk_9 (c : Dev nD) (t : Fin cfg2.N) (p : Fin 128) (k : Fin 1) :
    iblk2 V c 9 t (ix2 p k) = V c main_arg12 (ix2 p k) := by
  obtain ⟨-, -, -, -, -, -, -, -, -, -, -, -, -, -, -, -, -, -, e9a, e9b, -⟩ := idx_facts t
  show V c main_arg12 (((cfg2.win 9).blk t).view.emb (ix2 p k)) = _
  refine congrArg (V c main_arg12) (funext fun a => Fin.ext ?_)
  match a with
  | ⟨0, _⟩ =>
    show win2_9.index t (0 : Fin 2) * 128 + 1 * p.val = p.val
    rw [e9a]; omega
  | ⟨1, _⟩ =>
    show win2_9.index t (1 : Fin 2) * 1 + 1 * k.val = k.val
    rw [e9b]; omega

/-- The first read-out bias's block is the whole one-element array. -/
theorem blk_10 (c : Dev nD) (t : Fin cfg2.N) (p : Fin 1) (k : Fin 1) :
    iblk2 V c 10 t (ix2 p k) = V c main_v49 (ix2 p k) := by
  obtain ⟨-, -, -, -, -, -, -, -, -, -, -, -, -, -, -, -, -, -, -, -, e10a, e10b, -⟩ := idx_facts t
  show V c main_v49 (((cfg2.win 10).blk t).view.emb (ix2 p k)) = _
  refine congrArg (V c main_v49) (funext fun a => Fin.ext ?_)
  match a with
  | ⟨0, _⟩ =>
    show win2_10.index t (0 : Fin 2) * 1 + 1 * p.val = p.val
    rw [e10a]; omega
  | ⟨1, _⟩ =>
    show win2_10.index t (1 : Fin 2) * 1 + 1 * k.val = k.val
    rw [e10b]; omega

/-- The second read-out column's block is the whole column. -/
theorem blk_11 (c : Dev nD) (t : Fin cfg2.N) (p : Fin 128) (k : Fin 1) :
    iblk2 V c 11 t (ix2 p k) = V c main_arg14 (ix2 p k) := by
  obtain ⟨-, -, -, -, -, -, -, -, -, -, -, -, -, -, -, -, -, -, -, -, -, -, e11a, e11b, -⟩ := idx_facts t
  show V c main_arg14 (((cfg2.win 11).blk t).view.emb (ix2 p k)) = _
  refine congrArg (V c main_arg14) (funext fun a => Fin.ext ?_)
  match a with
  | ⟨0, _⟩ =>
    show win2_11.index t (0 : Fin 2) * 128 + 1 * p.val = p.val
    rw [e11a]; omega
  | ⟨1, _⟩ =>
    show win2_11.index t (1 : Fin 2) * 1 + 1 * k.val = k.val
    rw [e11b]; omega

/-- The second read-out bias's block is the whole one-element array. -/
theorem blk_12 (c : Dev nD) (t : Fin cfg2.N) (p : Fin 1) (k : Fin 1) :
    iblk2 V c 12 t (ix2 p k) = V c main_v50 (ix2 p k) := by
  obtain ⟨-, -, -, -, -, -, -, -, -, -, -, -, -, -, -, -, -, -, -, -, -, -, -, -, e12a, e12b, -⟩ := idx_facts t
  show V c main_v50 (((cfg2.win 12).blk t).view.emb (ix2 p k)) = _
  refine congrArg (V c main_v50) (funext fun a => Fin.ext ?_)
  match a with
  | ⟨0, _⟩ =>
    show win2_12.index t (0 : Fin 2) * 1 + 1 * p.val = p.val
    rw [e12a]; omega
  | ⟨1, _⟩ =>
    show win2_12.index t (1 : Fin 2) * 1 + 1 * k.val = k.val
    rw [e12b]; omega

/-- The propensity read-out column's block is the whole column. -/
theorem blk_13 (c : Dev nD) (t : Fin cfg2.N) (p : Fin 128) (k : Fin 1) :
    iblk2 V c 13 t (ix2 p k) = V c main_arg16 (ix2 p k) := by
  obtain ⟨-, -, -, -, -, -, -, -, -, -, -, -, -, -, -, -, -, -, -, -, -, -, -, -, -, -, e13a, e13b, -⟩ := idx_facts t
  show V c main_arg16 (((cfg2.win 13).blk t).view.emb (ix2 p k)) = _
  refine congrArg (V c main_arg16) (funext fun a => Fin.ext ?_)
  match a with
  | ⟨0, _⟩ =>
    show win2_13.index t (0 : Fin 2) * 128 + 1 * p.val = p.val
    rw [e13a]; omega
  | ⟨1, _⟩ =>
    show win2_13.index t (1 : Fin 2) * 1 + 1 * k.val = k.val
    rw [e13b]; omega

/-- The propensity read-out bias's block is the whole one-element array. -/
theorem blk_14 (c : Dev nD) (t : Fin cfg2.N) (p : Fin 1) (k : Fin 1) :
    iblk2 V c 14 t (ix2 p k) = V c main_v51 (ix2 p k) := by
  obtain ⟨-, -, -, -, -, -, -, -, -, -, -, -, -, -, -, -, -, -, -, -, -, -, -, -, -, -, -, -, e14a, e14b, -⟩ := idx_facts t
  show V c main_v51 (((cfg2.win 14).blk t).view.emb (ix2 p k)) = _
  refine congrArg (V c main_v51) (funext fun a => Fin.ext ?_)
  match a with
  | ⟨0, _⟩ =>
    show win2_14.index t (0 : Fin 2) * 1 + 1 * p.val = p.val
    rw [e14a]; omega
  | ⟨1, _⟩ =>
    show win2_14.index t (1 : Fin 2) * 1 + 1 * k.val = k.val
    rw [e14b]; omega

/-- The block-level functions of the blocks at a point are the same functions of the whole arrays at the block's row. -/
theorem block_eq_p (c : Dev nD) (t : Fin cfg2.N) (p : Fin 2000) :
    headP (iblk2 V c 0 t) (iblk2 V c 1 t) (iblk2 V c 2 t) (iblk2 V c 3 t) (iblk2 V c 13 t) (iblk2 V c 14 t) p
      = headP (P := 100000) (V c main_v37) (V c main_v26_0) (V c main_v11) (V c main_v13) (V c main_arg16) (V c main_v51) (rowAt t p) := by
  unfold headP readoutB lin combine
  simp only [blk_0 V c t, blk_1 V c t, blk_2 V c t, blk_3 V c t, blk_4 V c t, blk_5 V c t, blk_6 V c t, blk_7 V c t, blk_8 V c t, blk_9 V c t, blk_10 V c t, blk_11 V c t, blk_12 V c t, blk_13 V c t, blk_14 V c t]

theorem block_eq_y (c : Dev nD) (t : Fin cfg2.N) (p : Fin 2000) :
    headY (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) p
      = headY (P := 100000) (V c main_v37) (V c main_v26_0) (V c main_v11) (V c main_v13) (V c main_v38) (V c main_v40) (V c main_v43) (V c main_v45) (V c main_v48) (V c main_arg12) (V c main_v49) (V c main_arg14) (V c main_v50) (rowAt t p) := by
  unfold headY readoutB hiddenB lin combine
  simp only [blk_0 V c t, blk_1 V c t, blk_2 V c t, blk_3 V c t, blk_4 V c t, blk_5 V c t, blk_6 V c t, blk_7 V c t, blk_8 V c t, blk_9 V c t, blk_10 V c t, blk_11 V c t, blk_12 V c t, blk_13 V c t, blk_14 V c t]

/-- The whole arrays the region's output blocks are blocks of. -/
def arrP (A H : S100000x128.Idx → EReal) (Dv : S100000x1.Idx → EReal) (b : S1x128.Idx → EReal) (ppw : S128x1.Idx → EReal) (ppb : S1x1.Idx → EReal) : S100000x1.Idx → EReal :=
  fun i => headP (P := 100000) A H Dv b ppw ppb ⟨(i 0).val, (i 0).isLt⟩

def arrY (A H : S100000x128.Idx → EReal) (Dv : S100000x1.Idx → EReal) (b : S1x128.Idx → EReal) (tf : S100000x1.Idx → BitVec 32)
    (w00 : S128x128.Idx → EReal) (b00 : S1x128.Idx → EReal) (w10 : S128x128.Idx → EReal) (b10 : S1x128.Idx → EReal)
    (w01 : S128x1.Idx → EReal) (b01 : S1x1.Idx → EReal) (w11 : S128x1.Idx → EReal) (b11 : S1x1.Idx → EReal) : S100000x1.Idx → EReal :=
  fun i => headY (P := 100000) A H Dv b tf w00 b00 w10 b10 w01 b01 w11 b11 ⟨(i 0).val, (i 0).isLt⟩

/-- Where an element of output window 15's block sits in the array. -/
theorem emb_15 (t : Fin cfg2.N) (p : Fin 2000) (q : Fin 1) :
    ((cfg2.win 15).blk t).view.emb (ix2 p q) = ix2 (rowAt t p) q := by
  obtain ⟨-, -, -, -, -, -, -, -, -, -, -, -, -, -, -, -, -, -, -, -, -, -, -, -, -, -, -, -, -, -, e15a, e15b, -⟩ := idx_facts t
  refine funext fun a => Fin.ext ?_
  match a with
  | ⟨0, _⟩ =>
    show win2_15.index t (0 : Fin 2) * 2000 + 1 * p.val = t.val * 2000 + p.val
    rw [e15a]; omega
  | ⟨1, _⟩ =>
    show win2_15.index t (1 : Fin 2) * 1 + 1 * q.val = q.val
    rw [e15b]; omega

/-- An index of the array is in point `t`'s block of output window 15 iff each coordinate is in the block's range. -/
theorem mem_blk_15 (t : Fin cfg2.N) (i : S100000x1.Idx) :
    i ∈ ((cfg2.win 15).blk t).view.set ↔ ∀ a : Fin 2, win2_15.index t a * S2000x1.size a ≤ (i a).val ∧ (i a).val < win2_15.index t a * S2000x1.size a + S2000x1.size a := by
  show i ∈ ((View.whole main_v52_0).slice (win2_15.rect t)).set ↔ _
  rw [View.set_slice_whole, Rect.mem_set_unit]
  exact Iff.rfl

/-- Every row lies in the block of the point numbered by the row's quotient by the block height. -/
theorem cover_15 (i : S100000x1.Idx) :
    ∃ t : Fin cfg2.N, (cfg2.win 15).flush t = true ∧ i ∈ ((cfg2.win 15).blk t).view.set := by
  have hi0 : (i 0).val < 100000 := (i 0).isLt
  have hi1 : (i 1).val < 1 := (i 1).isLt
  have hlt : (i 0).val / 2000 < cfg2.N := by rw [show cfg2.N = 50 from N_2]; omega
  obtain ⟨-, -, -, -, -, -, -, -, -, -, -, -, -, -, -, -, -, -, -, -, -, -, -, -, -, -, -, -, -, -, e15a, e15b, -⟩ := idx_facts ⟨(i 0).val / 2000, hlt⟩
  refine ⟨⟨(i 0).val / 2000, hlt⟩, flush2_15 _, ?_⟩
  rw [mem_blk_15]
  intro a
  match a with
  | ⟨0, _⟩ =>
    show win2_15.index ⟨(i 0).val / 2000, hlt⟩ (0 : Fin 2) * 2000 ≤ (i 0).val ∧ (i 0).val < win2_15.index ⟨(i 0).val / 2000, hlt⟩ (0 : Fin 2) * 2000 + 2000
    rw [e15a]
    show (i 0).val / 2000 * 2000 ≤ (i 0).val ∧ (i 0).val < (i 0).val / 2000 * 2000 + 2000
    omega
  | ⟨1, _⟩ =>
    show win2_15.index ⟨(i 0).val / 2000, hlt⟩ (1 : Fin 2) * 1 ≤ (i 1).val ∧ (i 1).val < win2_15.index ⟨(i 0).val / 2000, hlt⟩ (1 : Fin 2) * 1 + 1
    rw [e15b]
    omega

/-- Where an element of output window 16's block sits in the array. -/
theorem emb_16 (t : Fin cfg2.N) (p : Fin 2000) (q : Fin 1) :
    ((cfg2.win 16).blk t).view.emb (ix2 p q) = ix2 (rowAt t p) q := by
  obtain ⟨-, -, -, -, -, -, -, -, -, -, -, -, -, -, -, -, -, -, -, -, -, -, -, -, -, -, -, -, -, -, -, -, e16a, e16b⟩ := idx_facts t
  refine funext fun a => Fin.ext ?_
  match a with
  | ⟨0, _⟩ =>
    show win2_16.index t (0 : Fin 2) * 2000 + 1 * p.val = t.val * 2000 + p.val
    rw [e16a]; omega
  | ⟨1, _⟩ =>
    show win2_16.index t (1 : Fin 2) * 1 + 1 * q.val = q.val
    rw [e16b]; omega

/-- An index of the array is in point `t`'s block of output window 16 iff each coordinate is in the block's range. -/
theorem mem_blk_16 (t : Fin cfg2.N) (i : S100000x1.Idx) :
    i ∈ ((cfg2.win 16).blk t).view.set ↔ ∀ a : Fin 2, win2_16.index t a * S2000x1.size a ≤ (i a).val ∧ (i a).val < win2_16.index t a * S2000x1.size a + S2000x1.size a := by
  show i ∈ ((View.whole main_v52_1).slice (win2_16.rect t)).set ↔ _
  rw [View.set_slice_whole, Rect.mem_set_unit]
  exact Iff.rfl

/-- Every row lies in the block of the point numbered by the row's quotient by the block height. -/
theorem cover_16 (i : S100000x1.Idx) :
    ∃ t : Fin cfg2.N, (cfg2.win 16).flush t = true ∧ i ∈ ((cfg2.win 16).blk t).view.set := by
  have hi0 : (i 0).val < 100000 := (i 0).isLt
  have hi1 : (i 1).val < 1 := (i 1).isLt
  have hlt : (i 0).val / 2000 < cfg2.N := by rw [show cfg2.N = 50 from N_2]; omega
  obtain ⟨-, -, -, -, -, -, -, -, -, -, -, -, -, -, -, -, -, -, -, -, -, -, -, -, -, -, -, -, -, -, -, -, e16a, e16b⟩ := idx_facts ⟨(i 0).val / 2000, hlt⟩
  refine ⟨⟨(i 0).val / 2000, hlt⟩, flush2_16 _, ?_⟩
  rw [mem_blk_16]
  intro a
  match a with
  | ⟨0, _⟩ =>
    show win2_16.index ⟨(i 0).val / 2000, hlt⟩ (0 : Fin 2) * 2000 ≤ (i 0).val ∧ (i 0).val < win2_16.index ⟨(i 0).val / 2000, hlt⟩ (0 : Fin 2) * 2000 + 2000
    rw [e16a]
    show (i 0).val / 2000 * 2000 ≤ (i 0).val ∧ (i 0).val < (i 0).val / 2000 * 2000 + 2000
    omega
  | ⟨1, _⟩ =>
    show win2_16.index ⟨(i 0).val / 2000, hlt⟩ (1 : Fin 2) * 1 ≤ (i 1).val ∧ (i 1).val < win2_16.index ⟨(i 0).val / 2000, hlt⟩ (1 : Fin 2) * 1 + 1
    rw [e16b]
    omega

/-- What point `t` leaves in output window 15's buffer is block `t` of the array function, index by index. -/
theorem pt_15 (c : Dev nD) (t : Fin cfg2.N) (y : S2000x1.Idx) :
    out2_15 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) y
      = arrP (V c main_v37) (V c main_v26_0) (V c main_v11) (V c main_v13) (V c main_arg16) (V c main_v51) (((cfg2.win 15).blk t).view.emb y) := by
  obtain ⟨p, q, rfl⟩ : ∃ (p : Fin 2000) (q : Fin 1), y = ix2 p q := ⟨y 0, y 1, eq_ix2 y⟩
  obtain rfl : q = 0 := Subsingleton.elim _ _
  rw [emb_15]
  exact (Cert.KerBody.out2_15_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) p).trans (block_eq_p V c t p)

theorem pt_16 (c : Dev nD) (t : Fin cfg2.N) (y : S2000x1.Idx) :
    out2_16 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) y
      = arrY (V c main_v37) (V c main_v26_0) (V c main_v11) (V c main_v13) (V c main_v38) (V c main_v40) (V c main_v43) (V c main_v45) (V c main_v48) (V c main_arg12) (V c main_v49) (V c main_arg14) (V c main_v50) (((cfg2.win 16).blk t).view.emb y) := by
  obtain ⟨p, q, rfl⟩ : ∃ (p : Fin 2000) (q : Fin 1), y = ix2 p q := ⟨y 0, y 1, eq_ix2 y⟩
  obtain rfl : q = 0 := Subsingleton.elim _ _
  rw [emb_16]
  exact (Cert.KerBody.out2_16_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) p).trans (block_eq_y V c t p)

/-- WHAT POINT `t` WRITES BACK through each output window is block `t` of the array function. -/
theorem flushed_15 (c : Dev nD) (t : Fin cfg2.N) :
    (dat2 V c).flushed 15 t = ((cfg2.win 15).blk t).view.read (Elt Ideal) (arrP (V c main_v37) (V c main_v26_0) (V c main_v11) (V c main_v13) (V c main_arg16) (V c main_v51)) := by
  show (cfg2.win 15).cut (grid2.coords t) ((dat2 V c).after 15 t) = _
  rw [after2_15]
  funext y
  exact pt_15 V c t y

theorem flushed_16 (c : Dev nD) (t : Fin cfg2.N) :
    (dat2 V c).flushed 16 t = ((cfg2.win 16).blk t).view.read (Elt Ideal) (arrY (V c main_v37) (V c main_v26_0) (V c main_v11) (V c main_v13) (V c main_v38) (V c main_v40) (V c main_v43) (V c main_v45) (V c main_v48) (V c main_arg12) (V c main_v49) (V c main_arg14) (V c main_v50)) := by
  show (cfg2.win 16).cut (grid2.coords t) ((dat2 V c).after 16 t) = _
  rw [after2_16]
  funext y
  exact pt_16 V c t y

/-- THE ARRAYS after the region: every row is covered, so each output array is the array function. -/
theorem final_15 (c : Dev nD) : (dat2 V c).arrAt 15 cfg2.N = arrP (V c main_v37) (V c main_v26_0) (V c main_v11) (V c main_v13) (V c main_arg16) (V c main_v51) :=
  (dat2 V c).arrAt_eq_of_cover 15 (arrP (V c main_v37) (V c main_v26_0) (V c main_v11) (V c main_v13) (V c main_arg16) (V c main_v51)) (fun t _ => flushed_15 V c t) cover_15

theorem final_16 (c : Dev nD) : (dat2 V c).arrAt 16 cfg2.N = arrY (V c main_v37) (V c main_v26_0) (V c main_v11) (V c main_v13) (V c main_v38) (V c main_v40) (V c main_v43) (V c main_v45) (V c main_v48) (V c main_arg12) (V c main_v49) (V c main_arg14) (V c main_v50) :=
  (dat2 V c).arrAt_eq_of_cover 16 (arrY (V c main_v37) (V c main_v26_0) (V c main_v11) (V c main_v13) (V c main_v38) (V c main_v40) (V c main_v43) (V c main_v45) (V c main_v48) (V c main_arg12) (V c main_v49) (V c main_arg14) (V c main_v50)) (fun t _ => flushed_16 V c t) cover_16

end Cert.KernelIdeal.Final2

end
-- ==== Proof.KerChain1.lean ====
/-
  The kernel program from the first region's outputs to its two results, index by index, against the specification:
  the scaled features of layer one, their sum over neighbours, the second region's scaled features of layer two, their
  sum over neighbours, and the third region's two read-outs.
-/
import proofs.«139885_j17411797418342_2_alg».proof.Proof.KerChain0
import proofs.«139885_j17411797418342_2_alg».proof.Proof.KerKeep
import proofs.«139885_j17411797418342_2_alg».proof.Proof.KerFinal1
import proofs.«139885_j17411797418342_2_alg».proof.Proof.KerFinal2

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx Cert.Spec

variable (m : (ℓ : Loc nD τ sig) → Buf (Elt Ideal) ℓ) (ρ : Dev nD → PrngReg) (c : Dev nD)

/-- Layer one's scaled features `(x @ W0) * dinv`. -/
def g0 : Fin NN → Fin 128 → EReal := scaled (m ((c : Thread nD τ).loc main_arg3)) (fun j k => (m ((c : Thread nD τ).loc main_arg0)) (ix2 j k)) (m ((c : Thread nD τ).loc main_arg4))

/-- Layer two's scaled features `(rep1 @ W1) * dinv`. -/
def g1 : Fin NN → Fin 128 → EReal := scaled (m ((c : Thread nD τ).loc main_arg3)) (rep1 (m ((c : Thread nD τ).loc main_arg3)) (m ((c : Thread nD τ).loc main_arg0)) (m ((c : Thread nD τ).loc main_arg4)) (m ((c : Thread nD τ).loc main_arg5))) (m ((c : Thread nD τ).loc main_arg6))

/-! ## Layout lemmas of the head's operands -/

/-- The last of two stacked matrices, sliced out and reshaped to a matrix. -/
theorem last_mat {α : Type} (x : S2x128x128.Idx → α) (k n : Fin 128) :
    shapeCast S128x128 (extractStridedSlice S1x128x128 ![1, 0, 0] x slices_S2x128x128_S1x128x128_1_0_0) shapeCasts_S1x128x128_S128x128 (ix2 k n)
      = x (ix3 (1 : Fin 2) k n) := by
  rw [shapeCast_apply _ shapeCasts_S1x128x128_S128x128 (ix2 k n) (ix3 (0 : Fin 1) k n) (by
    rw [Shape.rowMajor_val_three, Shape.rowMajor_val_two]
    show (0 * 128 + k.val) * 128 + n.val = k.val * 128 + n.val
    omega)]
  refine extractStridedSlice_apply _ x slices_S2x128x128_S1x128x128_1_0_0 (ix3 (0 : Fin 1) k n) (ix3 (1 : Fin 2) k n) fun a => ?_
  match a with
  | ⟨0, _⟩ => rfl
  | ⟨1, _⟩ => show k.val = 0 + k.val; omega
  | ⟨2, _⟩ => show n.val = 0 + n.val; omega

/-- The last of two stacked bias vectors, sliced out, flattened, and reshaped to a row. -/
theorem last_row {α : Type} (x : S2x128.Idx → α) (n : Fin 128) :
    shapeCast S1x128 (shapeCast S128 (extractStridedSlice S1x128 ![1, 0] x slices_S2x128_S1x128_1_0) shapeCasts_S1x128_S128) shapeCasts_S128_S1x128 (ix2 (0 : Fin 1) n)
      = x (ix2 (1 : Fin 2) n) := by
  rw [shapeCast_apply _ shapeCasts_S128_S1x128 (ix2 (0 : Fin 1) n) (ix1 n) (by
    rw [Shape.rowMajor_val_one, Shape.rowMajor_val_two]
    show n.val = 0 * 128 + n.val
    omega)]
  rw [shapeCast_apply _ shapeCasts_S1x128_S128 (ix1 n) (ix2 (0 : Fin 1) n) (by
    rw [Shape.rowMajor_val_two, Shape.rowMajor_val_one]
    show 0 * 128 + n.val = n.val
    omega)]
  refine extractStridedSlice_apply _ x slices_S2x128_S1x128_1_0 (ix2 (0 : Fin 1) n) (ix2 (1 : Fin 2) n) fun a => ?_
  match a with
  | ⟨0, _⟩ => rfl
  | ⟨1, _⟩ => show n.val = 0 + n.val; omega

/-- A one-element vector reshaped to a one-by-one array. -/
theorem one_one {α : Type} (x : S1.Idx → α) :
    shapeCast S1x1 x shapeCasts_S1_S1x1 (ix2 (0 : Fin 1) (0 : Fin 1)) = x (ix1 (0 : Fin 1)) :=
  shapeCast_apply _ _ _ (ix1 (0 : Fin 1)) (by
    rw [Shape.rowMajor_val_one, Shape.rowMajor_val_two]
    rfl)

/-! ## The first region's outputs -/

theorem H0_apply (j : Fin NN) (n : Fin 128) :
    ((dat0 (V1 m ρ) c).arrAt 3 cfg0.N : S100000x128.Idx → EReal) (ix2 j n) = g0 m c j n := by
  rw [Final0.final_3, Final0.arr_apply]
  refine (Cert.SpecBridge.linearDinv_eq (m ((c : Thread nD τ).loc main_arg3)) _ _ _ (fun j => W1_v11_apply m ρ c j) j n).trans ?_
  show scaled _ (fun j k => (W1 m ρ c (Proc.devRef .tc main_arg0) : S100000x128.Idx → EReal) (ix2 j k)) (W1 m ρ c (Proc.devRef .tc main_arg4) : S128x128.Idx → EReal) j n = _
  rw [Keep.W1_arg0, Keep.W1_arg4]
  rfl

theorem H0b_apply (j : Fin NN) (n : Fin 128) :
    ((dat0 (V1 m ρ) c).arrAt 4 cfg0.N : S100000x128.Idx → EReal) (ix2 j n) = g0 m c j n := by
  rw [Final0.final_4, Final0.arr_apply]
  refine (Cert.SpecBridge.linearDinv_eq (m ((c : Thread nD τ).loc main_arg3)) _ _ _ (fun j => W1_v11_apply m ρ c j) j n).trans ?_
  show scaled _ (fun j k => (W1 m ρ c (Proc.devRef .tc main_arg0) : S100000x128.Idx → EReal) (ix2 j k)) (W1 m ρ c (Proc.devRef .tc main_arg4) : S128x128.Idx → EReal) j n = _
  rw [Keep.W1_arg0, Keep.W1_arg4]
  rfl

/-! ## The second host stretch: the neighbours' sum of layer one -/

theorem AGG0_apply (j : Fin NN) (n : Fin 128) :
    (W3 m ρ c (Proc.devRef .tc main_v25) : S100000x128.Idx → EReal) (ix2 j n) = agg (m ((c : Thread nD τ).loc main_arg3)) (g0 m c) j n := by
  have e : (W3 m ρ c (Proc.devRef .tc main_v25) : S100000x128.Idx → EReal)
      = Host.scatterAdd (F := Ideal) scatter_S100000x128_S1600000x1_S1600000x128_1_0_0_1
          (broadcastInDim S100000x128 ![] bcast_S_S100000x128 (constant (F := Ideal) S_ .f32 0x00000000#32))
          (Seg.dstCol (W2 m ρ c (Proc.devRef .tc main_v3)))
          (extf .f32 (Host.gather gather_S100000x128_S1600000x1_S1600000x128_1_0_n_n_0_1_1128 (W2 m ρ c (Proc.devRef .tc main_v14_1)) (Seg.srcCol (W2 m ρ c (Proc.devRef .tc main_v1)))) bitsLt_bf16_f32) := by
    dsimp only [W3, hostOps1]
    after_results
    rfl
  rw [e, Seg.seg_apply (m ((c : Thread nD τ).loc main_arg3)) _ _ _ (fun e => by rw [Keep.W2_v1]; exact W1_v1_apply m ρ c e) (fun e => by rw [Keep.W2_v3]; exact W1_v3_apply m ρ c e) j n]
  refine congrArg (fun g => agg (m ((c : Thread nD τ).loc main_arg3)) g j n) (funext fun j => funext fun n => ?_)
  rw [Keep.W2_v14_1]
  exact H0b_apply m ρ c j n

/-! ## The second region's outputs -/

theorem H1_gen (j : Fin NN) (n : Fin 128) :
    Final1.arr (V3 m ρ c main_v25) (V3 m ρ c main_v14_0) (V3 m ρ c main_v11) (V3 m ρ c main_v12) (V3 m ρ c main_arg6) (ix2 j n) = g1 m c j n := by
  rw [Final1.arr_apply]
  refine (Cert.SpecBridge.combineLinear_eq (m ((c : Thread nD τ).loc main_arg3)) _ _ _ _ _ (g0 m c) (m ((c : Thread nD τ).loc main_arg5))
    (fun j k => AGG0_apply m ρ c j k)
    (fun j k => by
      show (W3 m ρ c (Proc.devRef .tc main_v14_0) : S100000x128.Idx → EReal) (ix2 j k) = _
      rw [Keep.W3_v14_0]; exact H0_apply m ρ c j k)
    (fun j => by
      show (W3 m ρ c (Proc.devRef .tc main_v11) : S100000x1.Idx → EReal) (ix2 j (0 : Fin 1)) = _
      rw [Keep.W3_v11]; exact W1_v11_apply m ρ c j)
    (fun k => by
      show (W3 m ρ c (Proc.devRef .tc main_v12) : S1x128.Idx → EReal) (ix2 (0 : Fin 1) k) = _
      rw [Keep.W3_v12]; exact W1_v12_apply m ρ c k) j n).trans ?_
  show scaled _ _ (W3 m ρ c (Proc.devRef .tc main_arg6) : S128x128.Idx → EReal) j n = _
  rw [Keep.W3_arg6]
  rfl

theorem H1_apply (j : Fin NN) (n : Fin 128) :
    ((dat1 (V3 m ρ) c).arrAt 5 cfg1.N : S100000x128.Idx → EReal) (ix2 j n) = g1 m c j n := by
  rw [Final1.final_5]
  exact H1_gen m ρ c j n

theorem H1b_apply (j : Fin NN) (n : Fin 128) :
    ((dat1 (V3 m ρ) c).arrAt 6 cfg1.N : S100000x128.Idx → EReal) (ix2 j n) = g1 m c j n := by
  rw [Final1.final_6]
  exact H1_gen m ρ c j n

/-! ## The third host stretch: the neighbours' sum of layer two, and the head's operands -/

set_option maxHeartbeats 4000000 in
theorem AGG1_apply (j : Fin NN) (n : Fin 128) :
    (W5 m ρ c (Proc.devRef .tc main_v37) : S100000x128.Idx → EReal) (ix2 j n) = agg (m ((c : Thread nD τ).loc main_arg3)) (g1 m c) j n := by
  have e : (W5 m ρ c (Proc.devRef .tc main_v37) : S100000x128.Idx → EReal)
      = Host.scatterAdd (F := Ideal) scatter_S100000x128_S1600000x1_S1600000x128_1_0_0_1
          (broadcastInDim S100000x128 ![] bcast_S_S100000x128 (constant (F := Ideal) S_ .f32 0x00000000#32))
          (Seg.dstCol (W4 m ρ c (Proc.devRef .tc main_v3)))
          (extf .f32 (Host.gather gather_S100000x128_S1600000x1_S1600000x128_1_0_n_n_0_1_1128 (W4 m ρ c (Proc.devRef .tc main_v26_1)) (Seg.srcCol (W4 m ρ c (Proc.devRef .tc main_v1)))) bitsLt_bf16_f32) := by
    dsimp only [W5, hostOps2]
    after_results
    rfl
  rw [e, Seg.seg_apply (m ((c : Thread nD τ).loc main_arg3)) _ _ _ (fun e => by rw [Keep.W4_v1]; exact W1_v1_apply m ρ c e) (fun e => by rw [Keep.W4_v3]; exact W1_v3_apply m ρ c e) j n]
  refine congrArg (fun g => agg (m ((c : Thread nD τ).loc main_arg3)) g j n) (funext fun j => funext fun n => ?_)
  rw [Keep.W4_v26_1]
  exact H1b_apply m ρ c j n

theorem W5_v38_apply (j : Fin NN) :
    (W5 m ρ c (Proc.devRef .tc main_v38) : S100000x1.Idx → BitVec 32) (ix2 j (0 : Fin 1)) = (m ((c : Thread nD τ).loc main_arg1)) (ix1 j) := by
  have e : (W5 m ρ c (Proc.devRef .tc main_v38) : S100000x1.Idx → BitVec 32)
      = shapeCast S100000x1 (W4 m ρ c (Proc.devRef .tc main_arg1) : S100000.Idx → BitVec 32) shapeCasts_S100000_S100000x1 := by
    dsimp only [W5, hostOps2]
    after_results
    rfl
  rw [e, Keep.W4_arg1]
  exact shapeCast_a_a1_apply _ _ j 0

theorem W5_v40_apply (k n : Fin 128) :
    (W5 m ρ c (Proc.devRef .tc main_v40) : S128x128.Idx → EReal) (ix2 k n) = (m ((c : Thread nD τ).loc main_arg8)) (ix3 (1 : Fin 2) k n) := by
  have e : (W5 m ρ c (Proc.devRef .tc main_v40) : S128x128.Idx → EReal)
      = shapeCast S128x128 (extractStridedSlice S1x128x128 ![1, 0, 0] (W4 m ρ c (Proc.devRef .tc main_arg8) : S2x128x128.Idx → EReal) slices_S2x128x128_S1x128x128_1_0_0) shapeCasts_S1x128x128_S128x128 := by
    dsimp only [W5, hostOps2]
    after_results
    rfl
  rw [e, Keep.W4_arg8]
  exact last_mat _ k n

theorem W5_v45_apply (k n : Fin 128) :
    (W5 m ρ c (Proc.devRef .tc main_v45) : S128x128.Idx → EReal) (ix2 k n) = (m ((c : Thread nD τ).loc main_arg10)) (ix3 (1 : Fin 2) k n) := by
  have e : (W5 m ρ c (Proc.devRef .tc main_v45) : S128x128.Idx → EReal)
      = shapeCast S128x128 (extractStridedSlice S1x128x128 ![1, 0, 0] (W4 m ρ c (Proc.devRef .tc main_arg10) : S2x128x128.Idx → EReal) slices_S2x128x128_S1x128x128_1_0_0) shapeCasts_S1x128x128_S128x128 := by
    dsimp only [W5, hostOps2]
    after_results
    rfl
  rw [e, Keep.W4_arg10]
  exact last_mat _ k n

theorem W5_v43_apply (n : Fin 128) :
    (W5 m ρ c (Proc.devRef .tc main_v43) : S1x128.Idx → EReal) (ix2 (0 : Fin 1) n) = (m ((c : Thread nD τ).loc main_arg9)) (ix2 (1 : Fin 2) n) := by
  have e : (W5 m ρ c (Proc.devRef .tc main_v43) : S1x128.Idx → EReal)
      = shapeCast S1x128 (shapeCast S128 (extractStridedSlice S1x128 ![1, 0] (W4 m ρ c (Proc.devRef .tc main_arg9) : S2x128.Idx → EReal) slices_S2x128_S1x128_1_0) shapeCasts_S1x128_S128) shapeCasts_S128_S1x128 := by
    dsimp only [W5, hostOps2]
    after_results
    rfl
  rw [e, Keep.W4_arg9]
  exact last_row _ n

theorem W5_v48_apply (n : Fin 128) :
    (W5 m ρ c (Proc.devRef .tc main_v48) : S1x128.Idx → EReal) (ix2 (0 : Fin 1) n) = (m ((c : Thread nD τ).loc main_arg11)) (ix2 (1 : Fin 2) n) := by
  have e : (W5 m ρ c (Proc.devRef .tc main_v48) : S1x128.Idx → EReal)
      = shapeCast S1x128 (shapeCast S128 (extractStridedSlice S1x128 ![1, 0] (W4 m ρ c (Proc.devRef .tc main_arg11) : S2x128.Idx → EReal) slices_S2x128_S1x128_1_0) shapeCasts_S1x128_S128) shapeCasts_S128_S1x128 := by
    dsimp only [W5, hostOps2]
    after_results
    rfl
  rw [e, Keep.W4_arg11]
  exact last_row _ n

theorem W5_v49_apply :
    (W5 m ρ c (Proc.devRef .tc main_v49) : S1x1.Idx → EReal) (ix2 (0 : Fin 1) (0 : Fin 1)) = (m ((c : Thread nD τ).loc main_arg13)) (ix1 (0 : Fin 1)) := by
  have e : (W5 m ρ c (Proc.devRef .tc main_v49) : S1x1.Idx → EReal) = shapeCast S1x1 (W4 m ρ c (Proc.devRef .tc main_arg13) : S1.Idx → EReal) shapeCasts_S1_S1x1 := by
    dsimp only [W5, hostOps2]
    after_results
    rfl
  rw [e, Keep.W4_arg13]
  exact one_one _

theorem W5_v50_apply :
    (W5 m ρ c (Proc.devRef .tc main_v50) : S1x1.Idx → EReal) (ix2 (0 : Fin 1) (0 : Fin 1)) = (m ((c : Thread nD τ).loc main_arg15)) (ix1 (0 : Fin 1)) := by
  have e : (W5 m ρ c (Proc.devRef .tc main_v50) : S1x1.Idx → EReal) = shapeCast S1x1 (W4 m ρ c (Proc.devRef .tc main_arg15) : S1.Idx → EReal) shapeCasts_S1_S1x1 := by
    dsimp only [W5, hostOps2]
    after_results
    rfl
  rw [e, Keep.W4_arg15]
  exact one_one _

theorem W5_v51_apply :
    (W5 m ρ c (Proc.devRef .tc main_v51) : S1x1.Idx → EReal) (ix2 (0 : Fin 1) (0 : Fin 1)) = (m ((c : Thread nD τ).loc main_arg17)) (ix1 (0 : Fin 1)) := by
  have e : (W5 m ρ c (Proc.devRef .tc main_v51) : S1x1.Idx → EReal) = shapeCast S1x1 (W4 m ρ c (Proc.devRef .tc main_arg17) : S1.Idx → EReal) shapeCasts_S1_S1x1 := by
    dsimp only [W5, hostOps2]
    after_results
    rfl
  rw [e, Keep.W4_arg17]
  exact one_one _

/-! ## The third region's outputs: the program's two results -/

/-- The combine step at the third region's entry is the second layer's output. -/
theorem combine2_eq :
    Cert.BlockSpec.combine (P := 100000) (V5 m ρ c main_v37) (V5 m ρ c main_v26_0) (V5 m ρ c main_v11) (V5 m ρ c main_v13)
      = rep2 (m ((c : Thread nD τ).loc main_arg3)) (m ((c : Thread nD τ).loc main_arg0)) (m ((c : Thread nD τ).loc main_arg4)) (m ((c : Thread nD τ).loc main_arg5)) (m ((c : Thread nD τ).loc main_arg6)) (m ((c : Thread nD τ).loc main_arg7)) := by
  refine (Cert.SpecBridge.combine_eq (m ((c : Thread nD τ).loc main_arg3)) _ _ _ _ (g1 m c) (m ((c : Thread nD τ).loc main_arg7))
    (fun j k => AGG1_apply m ρ c j k)
    (fun j k => by
      show (W5 m ρ c (Proc.devRef .tc main_v26_0) : S100000x128.Idx → EReal) (ix2 j k) = _
      rw [Keep.W5_v26_0]; exact H1_apply m ρ c j k)
    (fun j => by
      show (W5 m ρ c (Proc.devRef .tc main_v11) : S100000x1.Idx → EReal) (ix2 j (0 : Fin 1)) = _
      rw [Keep.W5_v11]; exact W1_v11_apply m ρ c j)
    (fun k => by
      show (W5 m ρ c (Proc.devRef .tc main_v13) : S1x128.Idx → EReal) (ix2 (0 : Fin 1) k) = _
      rw [Keep.W5_v13]; exact W1_v13_apply m ρ c k)).trans ?_
  rfl

/-- THE FIRST RESULT, index by index. -/
theorem out0_apply (j : Fin NN) :
    (W6 m ρ c (Proc.devRef .tc main_v52_0) : S100000x1.Idx → EReal) (ix2 j (0 : Fin 1))
      = pOut (m ((c : Thread nD τ).loc main_arg3)) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg16)) (m ((c : Thread nD τ).loc main_arg17)) j := by
  rw [show W6 m ρ c (Proc.devRef .tc main_v52_0) = (dat2 (V5 m ρ) c).arrAt 15 cfg2.N from W6_arr m ρ c 15, Final2.final_15]
  show Cert.BlockSpec.headP (P := 100000) (V5 m ρ c main_v37) (V5 m ρ c main_v26_0) (V5 m ρ c main_v11) (V5 m ρ c main_v13) (V5 m ρ c main_arg16) (V5 m ρ c main_v51) j = _
  unfold Cert.BlockSpec.headP pOut
  rw [combine2_eq, Cert.SpecBridge.readoutB_eq _ _ _ (m ((c : Thread nD τ).loc main_arg17)) (W5_v51_apply m ρ c) j]
  show Ideal.logistic (readout _ (W5 m ρ c (Proc.devRef .tc main_arg16) : S128x1.Idx → EReal) _ j) = _
  rw [Keep.W5_arg16]

/-- THE SECOND RESULT, index by index. -/
theorem out1_apply (j : Fin NN) :
    (W6 m ρ c (Proc.devRef .tc main_v52_1) : S100000x1.Idx → EReal) (ix2 j (0 : Fin 1))
      = yOut (m ((c : Thread nD τ).loc main_arg3)) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) j := by
  rw [show W6 m ρ c (Proc.devRef .tc main_v52_1) = (dat2 (V5 m ρ) c).arrAt 16 cfg2.N from W6_arr m ρ c 16, Final2.final_16]
  show Cert.BlockSpec.headY (P := 100000) (V5 m ρ c main_v37) (V5 m ρ c main_v26_0) (V5 m ρ c main_v11) (V5 m ρ c main_v13) (V5 m ρ c main_v38)
    (V5 m ρ c main_v40) (V5 m ρ c main_v43) (V5 m ρ c main_v45) (V5 m ρ c main_v48) (V5 m ρ c main_arg12) (V5 m ρ c main_v49) (V5 m ρ c main_arg14) (V5 m ρ c main_v50) j = _
  unfold Cert.BlockSpec.headY yOut
  rw [combine2_eq,
    Cert.SpecBridge.hiddenB_eq _ _ _ (m ((c : Thread nD τ).loc main_arg10)) (m ((c : Thread nD τ).loc main_arg11)) (fun k n => W5_v45_apply m ρ c k n) (fun n => W5_v48_apply m ρ c n),
    Cert.SpecBridge.hiddenB_eq _ _ _ (m ((c : Thread nD τ).loc main_arg8)) (m ((c : Thread nD τ).loc main_arg9)) (fun k n => W5_v40_apply m ρ c k n) (fun n => W5_v43_apply m ρ c n),
    Cert.SpecBridge.readoutB_eq _ _ _ (m ((c : Thread nD τ).loc main_arg15)) (W5_v50_apply m ρ c) j,
    Cert.SpecBridge.readoutB_eq _ _ _ (m ((c : Thread nD τ).loc main_arg13)) (W5_v49_apply m ρ c) j]
  show Scalar.select (IntOp.cmpi .sgt ((W5 m ρ c (Proc.devRef .tc main_v38) : S100000x1.Idx → BitVec 32) (ix2 j (0 : Fin 1))) 0#32)
    (readout _ (W5 m ρ c (Proc.devRef .tc main_arg14) : S128x1.Idx → EReal) _ j) (readout _ (W5 m ρ c (Proc.devRef .tc main_arg12) : S128x1.Idx → EReal) _ j) = _
  rw [W5_v38_apply m ρ c j, Keep.W5_arg14, Keep.W5_arg12]

end Cert.KernelIdeal.Chain

end
-- ==== Proof.LibErealDistrib.lean ====
/-
  Two general laws of the extended reals: subtracting from zero is negation; and a FINITE non-negative real factor
  distributes over any finite sum of extended reals — the summands may be infinite, of either sign: no finiteness
  hypothesis on them is needed (the general distributive law fails on the extended reals only when the factor is
  infinite or the summands are infinities of opposite signs scaled by a signed factor).
-/
import Mathlib.Data.EReal.Operations
import Mathlib.Data.EReal.Inv
import Mathlib.Algebra.BigOperators.Fin

noncomputable section

namespace Cert.LibErealDistrib

/-- Subtracting an extended real from zero negates it. -/
theorem zero_sub_eq_neg (x : EReal) : 0 - x = -x := by rw [sub_eq_add_neg, zero_add]

/-- A finite non-negative real factor on the right distributes over a finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The same with the factor on the left. -/
theorem mul_sum_coe {ι : Type*} (s : Finset ι) (f : ι → EReal) {c : ℝ} (hc : 0 ≤ c) :
    (c : EReal) * (∑ i ∈ s, f i) = ∑ i ∈ s, (c : EReal) * f i := by
  rw [mul_comm, sum_mul_coe s f hc]
  exact Finset.sum_congr rfl fun i _ => mul_comm _ _

end Cert.LibErealDistrib

end
-- ==== Proof.LibAdjacencySum.lean ====
/-
  Finite sums of real numbers read as extended reals, and the regrouping of a weighted
  "adjacency" sum: summing, over the rows j, v j times the total weight of the kept edges
  whose row is j equals summing v (row e) * weight e over the kept edges e.
-/
import Mathlib.Data.EReal.Basic
import Mathlib.Algebra.BigOperators.Ring.Finset
import Mathlib.Algebra.BigOperators.Group.Finset.Sigma
import Mathlib.Data.Fintype.BigOperators

open scoped BigOperators

namespace Cert.LibAdjacencySum

/-- The inclusion of the reals in the extended reals commutes with finite sums:
    the extended real of `∑ i ∈ s, f i` is `∑ i ∈ s` of the extended reals `f i`. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The regrouping over the reals: each kept edge `e` lies in exactly one fibre `r e = j`, so
    `∑ j, v j * ∑ (e kept, r e = j), nrm e = ∑ (e kept), v (r e) * nrm e`. -/
theorem real_regroup {J E : Type*} [Fintype J] [DecidableEq J] [Fintype E]
    (r : E → J) (keep : E → Prop) [DecidablePred keep] (v : J → ℝ) (nrm : E → ℝ) :
    ∑ j, v j * ∑ e ∈ Finset.univ.filter (fun e => r e = j ∧ keep e), nrm e
      = ∑ e ∈ Finset.univ.filter keep, v (r e) * nrm e := by
  rw [← Finset.sum_fiberwise (Finset.univ.filter keep) r (fun e => v (r e) * nrm e)]
  refine Finset.sum_congr rfl fun j _ => ?_
  rw [Finset.mul_sum, Finset.filter_filter]
  refine Finset.sum_congr (Finset.filter_congr fun e _ => and_comm) fun e he => ?_
  rw [(Finset.mem_filter.1 he).2.2]

/-- THE REGROUPING IDENTITY over the extended reals, in the shape the two programs' terms have (every
    sum seeded with `0 +`): the dense product `∑ j, v j * G j`, where `G j = 0 + ∑ (e kept, r e = j), nrm e` is the
    accumulated weight of row `j`, equals the segment sum `0 + ∑ (e kept), v (r e) * nrm e`. All the values are
    real, so no `⊤ + ⊥` or `0 * ⊤` arises and the identity is the real one under the inclusion. -/
theorem sum_mul_adjacency {J E : Type*} [Fintype J] [DecidableEq J] [Fintype E]
    (r : E → J) (keep : E → Prop) [DecidablePred keep] (v : J → ℝ) (nrm : E → ℝ) :
    ∑ j, (v j : EReal) * ((0 : EReal) + ∑ e ∈ Finset.univ.filter (fun e => r e = j ∧ keep e), (nrm e : EReal))
      = (0 : EReal) + ∑ e ∈ Finset.univ.filter keep, (v (r e) : EReal) * (nrm e : EReal) := by
  simp only [zero_add, ← coe_sum, ← EReal.coe_mul]
  rw [real_regroup]

/-- The same identity with the kept edges given as a finite set `S` of edges. -/
theorem sum_mul_adjacency_finset {J E : Type*} [Fintype J] [DecidableEq J] [Fintype E] [DecidableEq E]
    (r : E → J) (S : Finset E) (v : J → ℝ) (nrm : E → ℝ) :
    ∑ j, (v j : EReal) * ((0 : EReal) + ∑ e ∈ S.filter (fun e => r e = j), (nrm e : EReal))
      = (0 : EReal) + ∑ e ∈ S, (v (r e) : EReal) * (nrm e : EReal) := by
  have h := sum_mul_adjacency r (fun e => e ∈ S) v nrm
  have hS : Finset.univ.filter (fun e => e ∈ S) = S := by ext e; simp
  rw [hS] at h
  rw [← h]
  refine Finset.sum_congr rfl fun j _ => ?_
  congr 2
  refine Finset.sum_congr ?_ fun _ _ => rfl
  ext e; simp [and_comm]

end Cert.LibAdjacencySum
-- ==== Proof.LayerLaw.lean ====
/-
  The law that joins the two arrangements of one graph convolution.

  One arrangement scales every edge's contribution by the product of the two end nodes' factors and adds a
  self-loop term scaled by the node's factor squared:
      (0 + Σ_{e lands on j} h (src e) * (d (src e) * d j)) + h j * (d j * d j).
  The other scales the features first and the sum afterwards:
      d j * ((0 + Σ_{e lands on j} h (src e) * d (src e)) + h j * d j).
  They agree because d j is a finite non-negative real: such a factor distributes over any finite sum of
  extended reals and over a sum of two, whatever the summands (they may be infinite: no finiteness of the
  features is needed), and multiplication of extended reals is commutative and associative.
  d j is such a real because the degree 0 + Σ 1 + 1 is a real number at least one, and the reciprocal
  square root of a positive real is a positive real.
  An edge that lands on j has a raw target index in range and non-negative, so wrapping leaves it alone and
  clamping it gives j.
-/
import proofs.«139885_j17411797418342_2_alg».proof.Proof.Spec
import proofs.«139885_j17411797418342_2_alg».proof.Proof.LibErealDistrib
import proofs.«139885_j17411797418342_2_alg».proof.Proof.LibAdjacencySum
import Idealize.ShloMosaic.PureOps.Ideal.Laws

noncomputable section

namespace Cert.LayerLaw

open Idealize.ShloMosaic Idealize.ShloMosaic.ValueIdx Cert.LibScatterRead Cert.Spec
open scoped BigOperators

/-- The rearrangement, over any finite set of edges: c a finite non-negative real, everything else arbitrary. -/
theorem rearrange {ι : Type*} (s : Finset ι) (u v : ι → EReal) (y : EReal) {c : ℝ} (hc : 0 ≤ c) :
    ((0 : EReal) + ∑ e ∈ s, u e * (v e * (c : EReal))) + y * ((c : EReal) * (c : EReal))
      = (c : EReal) * (((0 : EReal) + ∑ e ∈ s, u e * v e) + y * (c : EReal)) := by
  rw [zero_add, zero_add,
    EReal.left_distrib_of_nonneg_of_ne_top (EReal.coe_nonneg.mpr hc) (EReal.coe_ne_top c),
    Cert.LibErealDistrib.mul_sum_coe s _ hc]
  congr 1
  · refine Finset.sum_congr rfl fun e _ => ?_
    rw [← mul_assoc, mul_comm]
  · exact mul_left_comm _ _ _

/-- The pattern of 1.0 denotes the real number one. -/
theorem ofBits_one : Ideal.ofBits .f32 0x3F800000#32 = 1 := by
  simp [Ideal.ofBits, Ideal.ieee, -EReal.coe_mul]; norm_num

/-- The reciprocal square root of 0 + (one per element of s) + 1 is a non-negative real. -/
theorem rsqrt_count_real {ι : Type*} (s : Finset ι) :
    ∃ r : ℝ, 0 ≤ r ∧ Ideal.rsqrt ((Ideal.ofBits .f32 0x00000000#32 + ∑ _e ∈ s, Ideal.ofBits .f32 0x3F800000#32)
      + Ideal.ofBits .f32 0x3F800000#32) = (r : EReal) := by
  rw [Ideal.ofBits_zero_f32, ofBits_one, ← EReal.coe_one, zero_add, ← Cert.LibAdjacencySum.coe_sum, ← EReal.coe_add]
  have hpos : (0 : ℝ) < ∑ _e ∈ s, (1 : ℝ) + 1 := by
    have : (0 : ℝ) ≤ ∑ _e ∈ s, (1 : ℝ) := Finset.sum_nonneg fun _ _ => zero_le_one
    linarith
  refine ⟨(Real.sqrt (∑ _e ∈ s, (1 : ℝ) + 1))⁻¹, inv_nonneg.mpr (Real.sqrt_nonneg _), ?_⟩
  rw [Ideal.rsqrt_coe, if_neg (not_lt.mpr hpos.le), if_neg hpos.ne']

/-- Every node's factor is a finite non-negative real. -/
theorem dinv_real (ei : SEI.Idx → BitVec 32) (j : Fin NN) : ∃ r : ℝ, 0 ≤ r ∧ dinv ei j = (r : EReal) :=
  rsqrt_count_real (lands ei j)

/-- Wrapping leaves a non-negative index alone. -/
theorem wrap_of_nonneg (z : BitVec 32) (h : 0 ≤ z.toInt) : wrap z = z := by
  have hs : z.slt 0#32 = false := by
    simp [BitVec.slt, not_lt.mpr h]
  unfold wrap Scalar.select IntOp.cmpi
  simp only [hs]
  rfl

/-- An edge that lands on j names j as its wrapped and clamped target. -/
theorem dstc_of_lands (ei : SEI.Idx → BitVec 32) (j : Fin NN) (e : Fin EE) (he : e ∈ lands ei j) : dstc ei e = j := by
  have h : (ei (ix2 (1 : Fin 2) e)).toInt = (j.val : ℤ) := (Finset.mem_filter.mp he).2
  unfold dstc
  rw [wrap_of_nonneg _ (by rw [h]; exact Int.natCast_nonneg _)]
  exact ((eq_coe_iff_clampIdx NN_pos _ j).mp h).2

/-- THE LAYER LAW: the edge-weighted arrangement of one convolution of the features h equals the
    specification's, which scales the features by the node factors first. -/
theorem conv_of_edge_weighted (ei : SEI.Idx → BitVec 32) (h : Fin NN → Fin 128 → EReal) (b : SC.Idx → EReal)
    (j : Fin NN) (n : Fin 128) :
    max (((Ideal.ofBits .f32 0x00000000#32
            + ∑ e ∈ lands ei j, h (src ei e) n * (dinv ei (src ei e) * dinv ei (dstc ei e)))
          + h j n * (dinv ei j * dinv ei j)) + b (ix1 n)) (Ideal.ofBits .f32 0x00000000#32)
      = conv ei (fun j n => h j n * dinv ei j) b j n := by
  obtain ⟨c, hc, hd⟩ := dinv_real ei j
  unfold conv agg
  rw [Ideal.ofBits_zero_f32]
  have hsum : ∑ e ∈ lands ei j, h (src ei e) n * (dinv ei (src ei e) * dinv ei (dstc ei e))
      = ∑ e ∈ lands ei j, h (src ei e) n * (dinv ei (src ei e) * dinv ei j) :=
    Finset.sum_congr rfl fun e he => by rw [dstc_of_lands ei j e he]
  rw [hsum, hd, rearrange (lands ei j) (fun e => h (src ei e) n) (fun e => dinv ei (src ei e)) (h j n) hc]
  simp only [hd]

end Cert.LayerLaw

end
-- ==== Proof.RefLayer1.lean ====
/-
  The reference program's first graph convolution, read index by index.

  Its stages: the two rows of the edge array (sources and targets), each also with negative entries wrapped by the
  number of nodes; the degree as an accumulating scatter of ones at the raw targets, plus one; the node factor, its
  reciprocal square root; per edge the product of the factors at the wrapped-and-clamped source and target (two
  gathers); the dense product of the features with the weight matrix, gathered at the sources, scaled by the edge
  products and scattered with addition at the raw targets; the self-loop term; the bias; the rectifier. An accumulating
  scatter drops an update whose raw index names no node, and a gather clamps its index into range, so the edges that
  contribute to node j are exactly those whose raw target is j. The layer law then turns this edge-weighted arrangement
  into the specification's, which scales the features by the node factors first.
-/
import proofs.«139885_j17411797418342_2_alg».proof.Proof.Gen.ReferenceIdeal.Read
import proofs.«139885_j17411797418342_2_alg».proof.Proof.Spec
import proofs.«139885_j17411797418342_2_alg».proof.Proof.LayerLaw
import proofs.«139885_j17411797418342_2_alg».proof.Proof.LibRowScatter

noncomputable section

namespace Cert.RefLayer1

open Cert.ReferenceIdeal Cert.ReferenceIdeal.Read Idealize.ShloMosaic Idealize.ShloMosaic.ValueIdx
open Cert.LibScatterRead Cert.LibRowScatter
open scoped BigOperators

abbrev TI := (⟨S2x1600000, .i32⟩ : BufTy).Contents (Elt Ideal)
abbrev TX := (⟨S100000x128, .f32⟩ : BufTy).Contents (Elt Ideal)
abbrev TW := (⟨S128x128, .f32⟩ : BufTy).Contents (Elt Ideal)
abbrev TB := (⟨S128, .f32⟩ : BufTy).Contents (Elt Ideal)

/-! ## The edge array's rows -/

/-- The row of source indices. -/
theorem row_read (x3 : TI) (e : Fin 1600000) : val_main_v2 (F := Ideal) x3 (ix1 e) = x3 (ix2 (0 : Fin 2) e) := by
  rw [val_main_v2_apply, val_main_v1_apply]
  exact congrArg x3 (funext fun a => Fin.ext (by
    match a with
    | ⟨0, _⟩ => rfl
    | ⟨1, _⟩ => exact Nat.mod_eq_of_lt e.isLt))

/-- The row of target indices. -/
theorem col_read (x3 : TI) (e : Fin 1600000) : val_main_v4 (F := Ideal) x3 (ix1 e) = x3 (ix2 (1 : Fin 2) e) := by
  rw [val_main_v4_apply, val_main_v3_apply]
  exact congrArg x3 (funext fun a => Fin.ext (by
    match a with
    | ⟨0, _⟩ => rfl
    | ⟨1, _⟩ => exact Nat.mod_eq_of_lt e.isLt))

/-- The raw targets as a column (the degree scatter's indices). -/
theorem rawcol_deg_read (x3 : TI) (e : Fin 1600000) :
    val_main_v7 (F := Ideal) x3 (ix2 e (0 : Fin 1)) = x3 (ix2 (1 : Fin 2) e) := by
  rw [val_main_v7_apply, show idx_main_v7 (ix2 e (0 : Fin 1)) = ix1 e from funext fun a => match a with | ⟨0, _⟩ => rfl, col_read]

/-- The raw targets as a column (the feature scatter's indices). -/
theorem rawcol_read (x3 : TI) (e : Fin 1600000) :
    val_main_v38 (F := Ideal) x3 (ix2 e (0 : Fin 1)) = x3 (ix2 (1 : Fin 2) e) := by
  rw [val_main_v38_apply, show idx_main_v38 (ix2 e (0 : Fin 1)) = ix1 e from funext fun a => match a with | ⟨0, _⟩ => rfl, col_read]

/-- The wrapped sources as a column (the first factor gather's indices). -/
theorem wrow_a_read (x3 : TI) (e : Fin 1600000) :
    val_main_v17 (F := Ideal) x3 (ix2 e (0 : Fin 1)) = Cert.Spec.wrap (x3 (ix2 (0 : Fin 2) e)) := by
  rw [val_main_v17_apply, show idx_main_v17 (ix2 e (0 : Fin 1)) = ix1 e from funext fun a => match a with | ⟨0, _⟩ => rfl,
    val_main_v16_apply, val_main_v13_apply, val_main_v15_apply, val_main_v12_apply, val_main_v14_apply, row_read]
  rfl

/-- The wrapped targets as a column (the second factor gather's indices). -/
theorem wcol_read (x3 : TI) (e : Fin 1600000) :
    val_main_v24 (F := Ideal) x3 (ix2 e (0 : Fin 1)) = Cert.Spec.wrap (x3 (ix2 (1 : Fin 2) e)) := by
  rw [val_main_v24_apply, show idx_main_v24 (ix2 e (0 : Fin 1)) = ix1 e from funext fun a => match a with | ⟨0, _⟩ => rfl,
    val_main_v23_apply, val_main_v20_apply, val_main_v22_apply, val_main_v19_apply, val_main_v21_apply, col_read]
  rfl

/-- The wrapped sources as a column (the feature gather's indices). -/
theorem wrow_b_read (x3 : TI) (e : Fin 1600000) :
    val_main_v32 (F := Ideal) x3 (ix2 e (0 : Fin 1)) = Cert.Spec.wrap (x3 (ix2 (0 : Fin 2) e)) := by
  rw [val_main_v32_apply, show idx_main_v32 (ix2 e (0 : Fin 1)) = ix1 e from funext fun a => match a with | ⟨0, _⟩ => rfl,
    val_main_v31_apply, val_main_v28_apply, val_main_v30_apply, val_main_v27_apply, val_main_v29_apply, row_read]
  rfl

/-! ## Degree and node factor -/

/-- The scattered ones: zero plus one per edge landing on j. -/
theorem count_read (x3 : TI) (j : Fin 100000) :
    val_main_v8 (F := Ideal) x3 (ix1 j)
      = Ideal.ofBits .f32 0x00000000#32 + ∑ _e ∈ Cert.Spec.lands x3 j, Ideal.ofBits .f32 0x3F800000#32 := by
  unfold val_main_v8
  refine (scatterAdd1_apply (N := 100000) (E := 1600000) scatter_S100000_S1600000x1_S1600000_n_0_0_1.wf _ _ _ j).trans ?_
  simp only [rawcol_deg_read, val_main_v5_apply, val_main_v6_apply]
  rfl

/-- The node factor. -/
theorem dinv_read (x3 : TI) (j : Fin 100000) : val_main_v11 (F := Ideal) x3 (ix1 j) = Cert.Spec.dinv x3 j := by
  rw [val_main_v11_apply, val_main_v10_apply, count_read, val_main_v9_apply, val_main_cst_1_apply]
  simp only [Ideal.hostUnary_rsqrt_def, Ideal.addf_def, Ideal.ofBits_def]
  rfl

/-- The factor at an edge's source. -/
theorem dsrc_read (x3 : TI) (e : Fin 1600000) :
    val_main_v18 (F := Ideal) x3 (ix1 e) = Cert.Spec.dinv x3 (Cert.Spec.src x3 e) := by
  unfold val_main_v18
  refine (gather1_apply (N := 100000) (E := 1600000) gather_S100000_S1600000x1_S1600000_n_0_n_n_0_1_1.wf
    Cert.Spec.NN_pos _ _ e).trans ?_
  rw [wrow_a_read, dinv_read]
  rfl

/-- The factor at an edge's wrapped and clamped target. -/
theorem ddst_read (x3 : TI) (e : Fin 1600000) :
    val_main_v25 (F := Ideal) x3 (ix1 e) = Cert.Spec.dinv x3 (Cert.Spec.dstc x3 e) := by
  unfold val_main_v25
  refine (gather1_apply (N := 100000) (E := 1600000) gather_S100000_S1600000x1_S1600000_n_0_n_n_0_1_1.wf
    Cert.Spec.NN_pos _ _ e).trans ?_
  rw [wcol_read, dinv_read]
  rfl

/-- The edge's weight: the product of the two factors. -/
theorem norm_read (x3 : TI) (e : Fin 1600000) :
    val_main_v26 (F := Ideal) x3 (ix1 e)
      = Cert.Spec.dinv x3 (Cert.Spec.src x3 e) * Cert.Spec.dinv x3 (Cert.Spec.dstc x3 e) := by
  rw [val_main_v26_apply, dsrc_read, ddst_read]
  rfl

/-- The edge weights broadcast along the channels. -/
theorem normb_read (x3 : TI) (e : Fin 1600000) (n : Fin 128) :
    val_main_v35 (F := Ideal) x3 (ix2 e n)
      = Cert.Spec.dinv x3 (Cert.Spec.src x3 e) * Cert.Spec.dinv x3 (Cert.Spec.dstc x3 e) := by
  rw [val_main_v35_apply, val_main_v34_apply,
    show idx_main_v34 (idx_main_v35 (ix2 e n)) = ix1 e from funext fun a => match a with | ⟨0, _⟩ => rfl, norm_read]

/-- The squared node factor broadcast along the channels. -/
theorem selfw_read (x3 : TI) (j : Fin 100000) (n : Fin 128) :
    val_main_v42 (F := Ideal) x3 (ix2 j n) = Cert.Spec.dinv x3 j * Cert.Spec.dinv x3 j := by
  rw [val_main_v42_apply, val_main_v41_apply,
    show idx_main_v41 (idx_main_v42 (ix2 j n)) = ix1 j from funext fun a => match a with | ⟨0, _⟩ => rfl,
    val_main_v40_apply, dinv_read]
  rfl

/-! ## The features -/

/-- The dense product of the features with the weight matrix. -/
theorem dense_read (x0 : TX) (x4 : TW) (j : Fin 100000) (n : Fin 128) :
    val_main_v0 (F := Ideal) x0 x4 (ix2 j n) = ∑ k : Fin 128, x0 (ix2 j k) * x4 (ix2 k n) := by
  rw [val_main_v0_apply]
  refine Finset.sum_congr rfl fun k _ => ?_
  rw [show lidx_main_v0 (ix2 j n) k = ix2 j k from funext fun a => match a with | ⟨0, _⟩ => rfl | ⟨1, _⟩ => rfl,
    show ridx_main_v0 (ix2 j n) k = ix2 k n from funext fun a => match a with | ⟨0, _⟩ => rfl | ⟨1, _⟩ => rfl]

/-- The dense product's rows gathered at the edges' sources. -/
theorem hsrc_read (x0 : TX) (x3 : TI) (x4 : TW) (e : Fin 1600000) (n : Fin 128) :
    val_main_v33 (F := Ideal) x0 x3 x4 (ix2 e n) = val_main_v0 (F := Ideal) x0 x4 (ix2 (Cert.Spec.src x3 e) n) := by
  unfold val_main_v33
  refine (gatherRow_apply (N := 100000) (C := 128) (E := 1600000)
    gather_S100000x128_S1600000x1_S1600000x128_1_0_n_n_0_1_1128.wf Cert.Spec.NN_pos _ _ e n).trans ?_
  rw [wrow_b_read]
  rfl

/-- An edge's weighted message. -/
theorem msg_read (x0 : TX) (x3 : TI) (x4 : TW) (e : Fin 1600000) (n : Fin 128) :
    val_main_v36 (F := Ideal) x0 x3 x4 (ix2 e n)
      = val_main_v0 (F := Ideal) x0 x4 (ix2 (Cert.Spec.src x3 e) n)
        * (Cert.Spec.dinv x3 (Cert.Spec.src x3 e) * Cert.Spec.dinv x3 (Cert.Spec.dstc x3 e)) := by
  rw [val_main_v36_apply, hsrc_read, normb_read]
  rfl

/-- The messages summed at the raw targets. -/
theorem aggr_read (x0 : TX) (x3 : TI) (x4 : TW) (j : Fin 100000) (n : Fin 128) :
    val_main_v39 (F := Ideal) x0 x3 x4 (ix2 j n)
      = Ideal.ofBits .f32 0x00000000#32 + ∑ e ∈ Cert.Spec.lands x3 j,
          val_main_v0 (F := Ideal) x0 x4 (ix2 (Cert.Spec.src x3 e) n)
            * (Cert.Spec.dinv x3 (Cert.Spec.src x3 e) * Cert.Spec.dinv x3 (Cert.Spec.dstc x3 e)) := by
  unfold val_main_v39
  refine (scatterAddRow_apply (N := 100000) (C := 128) (E := 1600000)
    scatter_S100000x128_S1600000x1_S1600000x128_1_0_0_1.wf _ _ _ j n).trans ?_
  simp only [rawcol_read, msg_read, val_main_v37_apply]
  rfl

/-- The bias broadcast along the nodes. -/
theorem bias_read (x5 : TB) (j : Fin 100000) (n : Fin 128) : val_main_v46 (F := Ideal) x5 (ix2 j n) = x5 (ix1 n) := by
  rw [val_main_v46_apply, val_main_v45_apply]
  exact congrArg x5 (funext fun a => match a with | ⟨0, _⟩ => rfl)

/-! ## The layer -/

/-- THE LAYER: the reference's rectified convolution is the specification's convolution of the scaled features. -/
theorem layer_read (x0 : TX) (x3 : TI) (x4 : TW) (x5 : TB) (j : Fin 100000) (n : Fin 128) :
    val_main_v48 (F := Ideal) x0 x3 x4 x5 (ix2 j n)
      = Cert.Spec.conv x3 (Cert.Spec.scaled x3 (fun j k => x0 (ix2 j k)) x4) x5 j n := by
  rw [val_main_v48_apply, val_main_v47_apply, val_main_v44_apply, aggr_read, val_main_v43_apply, selfw_read, bias_read, val_main_call0_v0_apply]
  refine (Cert.LayerLaw.conv_of_edge_weighted x3 (fun j n => val_main_v0 (F := Ideal) x0 x4 (ix2 j n)) x5 j n).trans ?_
  refine congrArg (fun g => Cert.Spec.conv x3 g x5 j n) ?_
  funext j' n'
  show val_main_v0 (F := Ideal) x0 x4 (ix2 j' n') * Cert.Spec.dinv x3 j' = _
  rw [dense_read]
  rfl

end Cert.RefLayer1

end
-- ==== Proof.RefLayer2.lean ====
/-
  The reference program's second graph convolution, read index by index.

  Its stages: the two rows of the edge array (sources and targets), each also with negative entries wrapped by the
  number of nodes; the degree as an accumulating scatter of ones at the raw targets, plus one; the node factor, its
  reciprocal square root; per edge the product of the factors at the wrapped-and-clamped source and target (two
  gathers); the dense product of the features with the weight matrix, gathered at the sources, scaled by the edge
  products and scattered with addition at the raw targets; the self-loop term; the bias; the rectifier. An accumulating
  scatter drops an update whose raw index names no node, and a gather clamps its index into range, so the edges that
  contribute to node j are exactly those whose raw target is j. The layer law then turns this edge-weighted arrangement
  into the specification's, which scales the features by the node factors first.
-/
import proofs.«139885_j17411797418342_2_alg».proof.Proof.Gen.ReferenceIdeal.Read
import proofs.«139885_j17411797418342_2_alg».proof.Proof.Spec
import proofs.«139885_j17411797418342_2_alg».proof.Proof.LayerLaw
import proofs.«139885_j17411797418342_2_alg».proof.Proof.LibRowScatter

noncomputable section

namespace Cert.RefLayer2

open Cert.ReferenceIdeal Cert.ReferenceIdeal.Read Idealize.ShloMosaic Idealize.ShloMosaic.ValueIdx
open Cert.LibScatterRead Cert.LibRowScatter
open scoped BigOperators

abbrev TI := (⟨S2x1600000, .i32⟩ : BufTy).Contents (Elt Ideal)
abbrev TX := (⟨S100000x128, .f32⟩ : BufTy).Contents (Elt Ideal)
abbrev TW := (⟨S128x128, .f32⟩ : BufTy).Contents (Elt Ideal)
abbrev TB := (⟨S128, .f32⟩ : BufTy).Contents (Elt Ideal)

/-! ## The edge array's rows -/

/-- The row of source indices. -/
theorem row_read (x3 : TI) (e : Fin 1600000) : val_main_v51 (F := Ideal) x3 (ix1 e) = x3 (ix2 (0 : Fin 2) e) := by
  rw [val_main_v51_apply, val_main_v50_apply]
  exact congrArg x3 (funext fun a => Fin.ext (by
    match a with
    | ⟨0, _⟩ => rfl
    | ⟨1, _⟩ => exact Nat.mod_eq_of_lt e.isLt))

/-- The row of target indices. -/
theorem col_read (x3 : TI) (e : Fin 1600000) : val_main_v53 (F := Ideal) x3 (ix1 e) = x3 (ix2 (1 : Fin 2) e) := by
  rw [val_main_v53_apply, val_main_v52_apply]
  exact congrArg x3 (funext fun a => Fin.ext (by
    match a with
    | ⟨0, _⟩ => rfl
    | ⟨1, _⟩ => exact Nat.mod_eq_of_lt e.isLt))

/-- The raw targets as a column (the degree scatter's indices). -/
theorem rawcol_deg_read (x3 : TI) (e : Fin 1600000) :
    val_main_v56 (F := Ideal) x3 (ix2 e (0 : Fin 1)) = x3 (ix2 (1 : Fin 2) e) := by
  rw [val_main_v56_apply, show idx_main_v56 (ix2 e (0 : Fin 1)) = ix1 e from funext fun a => match a with | ⟨0, _⟩ => rfl, col_read]

/-- The raw targets as a column (the feature scatter's indices). -/
theorem rawcol_read (x3 : TI) (e : Fin 1600000) :
    val_main_v87 (F := Ideal) x3 (ix2 e (0 : Fin 1)) = x3 (ix2 (1 : Fin 2) e) := by
  rw [val_main_v87_apply, show idx_main_v87 (ix2 e (0 : Fin 1)) = ix1 e from funext fun a => match a with | ⟨0, _⟩ => rfl, col_read]

/-- The wrapped sources as a column (the first factor gather's indices). -/
theorem wrow_a_read (x3 : TI) (e : Fin 1600000) :
    val_main_v66 (F := Ideal) x3 (ix2 e (0 : Fin 1)) = Cert.Spec.wrap (x3 (ix2 (0 : Fin 2) e)) := by
  rw [val_main_v66_apply, show idx_main_v66 (ix2 e (0 : Fin 1)) = ix1 e from funext fun a => match a with | ⟨0, _⟩ => rfl,
    val_main_v65_apply, val_main_v62_apply, val_main_v64_apply, val_main_v61_apply, val_main_v63_apply, row_read]
  rfl

/-- The wrapped targets as a column (the second factor gather's indices). -/
theorem wcol_read (x3 : TI) (e : Fin 1600000) :
    val_main_v73 (F := Ideal) x3 (ix2 e (0 : Fin 1)) = Cert.Spec.wrap (x3 (ix2 (1 : Fin 2) e)) := by
  rw [val_main_v73_apply, show idx_main_v73 (ix2 e (0 : Fin 1)) = ix1 e from funext fun a => match a with | ⟨0, _⟩ => rfl,
    val_main_v72_apply, val_main_v69_apply, val_main_v71_apply, val_main_v68_apply, val_main_v70_apply, col_read]
  rfl

/-- The wrapped sources as a column (the feature gather's indices). -/
theorem wrow_b_read (x3 : TI) (e : Fin 1600000) :
    val_main_v81 (F := Ideal) x3 (ix2 e (0 : Fin 1)) = Cert.Spec.wrap (x3 (ix2 (0 : Fin 2) e)) := by
  rw [val_main_v81_apply, show idx_main_v81 (ix2 e (0 : Fin 1)) = ix1 e from funext fun a => match a with | ⟨0, _⟩ => rfl,
    val_main_v80_apply, val_main_v77_apply, val_main_v79_apply, val_main_v76_apply, val_main_v78_apply, row_read]
  rfl

/-! ## Degree and node factor -/

/-- The scattered ones: zero plus one per edge landing on j. -/
theorem count_read (x3 : TI) (j : Fin 100000) :
    val_main_v57 (F := Ideal) x3 (ix1 j)
      = Ideal.ofBits .f32 0x00000000#32 + ∑ _e ∈ Cert.Spec.lands x3 j, Ideal.ofBits .f32 0x3F800000#32 := by
  unfold val_main_v57
  refine (scatterAdd1_apply (N := 100000) (E := 1600000) scatter_S100000_S1600000x1_S1600000_n_0_0_1.wf _ _ _ j).trans ?_
  simp only [rawcol_deg_read, val_main_v54_apply, val_main_v55_apply]
  rfl

/-- The node factor. -/
theorem dinv_read (x3 : TI) (j : Fin 100000) : val_main_v60 (F := Ideal) x3 (ix1 j) = Cert.Spec.dinv x3 j := by
  rw [val_main_v60_apply, val_main_v59_apply, count_read, val_main_v58_apply, val_main_cst_10_apply]
  simp only [Ideal.hostUnary_rsqrt_def, Ideal.addf_def, Ideal.ofBits_def]
  rfl

/-- The factor at an edge's source. -/
theorem dsrc_read (x3 : TI) (e : Fin 1600000) :
    val_main_v67 (F := Ideal) x3 (ix1 e) = Cert.Spec.dinv x3 (Cert.Spec.src x3 e) := by
  unfold val_main_v67
  refine (gather1_apply (N := 100000) (E := 1600000) gather_S100000_S1600000x1_S1600000_n_0_n_n_0_1_1.wf
    Cert.Spec.NN_pos _ _ e).trans ?_
  rw [wrow_a_read, dinv_read]
  rfl

/-- The factor at an edge's wrapped and clamped target. -/
theorem ddst_read (x3 : TI) (e : Fin 1600000) :
    val_main_v74 (F := Ideal) x3 (ix1 e) = Cert.Spec.dinv x3 (Cert.Spec.dstc x3 e) := by
  unfold val_main_v74
  refine (gather1_apply (N := 100000) (E := 1600000) gather_S100000_S1600000x1_S1600000_n_0_n_n_0_1_1.wf
    Cert.Spec.NN_pos _ _ e).trans ?_
  rw [wcol_read, dinv_read]
  rfl

/-- The edge's weight: the product of the two factors. -/
theorem norm_read (x3 : TI) (e : Fin 1600000) :
    val_main_v75 (F := Ideal) x3 (ix1 e)
      = Cert.Spec.dinv x3 (Cert.Spec.src x3 e) * Cert.Spec.dinv x3 (Cert.Spec.dstc x3 e) := by
  rw [val_main_v75_apply, dsrc_read, ddst_read]
  rfl

/-- The edge weights broadcast along the channels. -/
theorem normb_read (x3 : TI) (e : Fin 1600000) (n : Fin 128) :
    val_main_v84 (F := Ideal) x3 (ix2 e n)
      = Cert.Spec.dinv x3 (Cert.Spec.src x3 e) * Cert.Spec.dinv x3 (Cert.Spec.dstc x3 e) := by
  rw [val_main_v84_apply, val_main_v83_apply,
    show idx_main_v83 (idx_main_v84 (ix2 e n)) = ix1 e from funext fun a => match a with | ⟨0, _⟩ => rfl, norm_read]

/-- The squared node factor broadcast along the channels. -/
theorem selfw_read (x3 : TI) (j : Fin 100000) (n : Fin 128) :
    val_main_v91 (F := Ideal) x3 (ix2 j n) = Cert.Spec.dinv x3 j * Cert.Spec.dinv x3 j := by
  rw [val_main_v91_apply, val_main_v90_apply,
    show idx_main_v90 (idx_main_v91 (ix2 j n)) = ix1 j from funext fun a => match a with | ⟨0, _⟩ => rfl,
    val_main_v89_apply, dinv_read]
  rfl

/-! ## The features -/

/-- The dense product of the features with the weight matrix. -/
theorem dense_read (x0 : TX) (x3 : TI) (x4 : TW) (x5 : TB) (x6 : TW) (j : Fin 100000) (n : Fin 128) :
    val_main_v49 (F := Ideal) x0 x3 x4 x5 x6 (ix2 j n) = ∑ k : Fin 128, (val_main_v48 (F := Ideal) x0 x3 x4 x5) (ix2 j k) * x6 (ix2 k n) := by
  rw [val_main_v49_apply]
  refine Finset.sum_congr rfl fun k _ => ?_
  rw [show lidx_main_v49 (ix2 j n) k = ix2 j k from funext fun a => match a with | ⟨0, _⟩ => rfl | ⟨1, _⟩ => rfl,
    show ridx_main_v49 (ix2 j n) k = ix2 k n from funext fun a => match a with | ⟨0, _⟩ => rfl | ⟨1, _⟩ => rfl]

/-- The dense product's rows gathered at the edges' sources. -/
theorem hsrc_read (x0 : TX) (x3 : TI) (x4 : TW) (x5 : TB) (x6 : TW) (e : Fin 1600000) (n : Fin 128) :
    val_main_v82 (F := Ideal) x0 x3 x4 x5 x6 (ix2 e n) = val_main_v49 (F := Ideal) x0 x3 x4 x5 x6 (ix2 (Cert.Spec.src x3 e) n) := by
  unfold val_main_v82
  refine (gatherRow_apply (N := 100000) (C := 128) (E := 1600000)
    gather_S100000x128_S1600000x1_S1600000x128_1_0_n_n_0_1_1128.wf Cert.Spec.NN_pos _ _ e n).trans ?_
  rw [wrow_b_read]
  rfl

/-- An edge's weighted message. -/
theorem msg_read (x0 : TX) (x3 : TI) (x4 : TW) (x5 : TB) (x6 : TW) (e : Fin 1600000) (n : Fin 128) :
    val_main_v85 (F := Ideal) x0 x3 x4 x5 x6 (ix2 e n)
      = val_main_v49 (F := Ideal) x0 x3 x4 x5 x6 (ix2 (Cert.Spec.src x3 e) n)
        * (Cert.Spec.dinv x3 (Cert.Spec.src x3 e) * Cert.Spec.dinv x3 (Cert.Spec.dstc x3 e)) := by
  rw [val_main_v85_apply, hsrc_read, normb_read]
  rfl

/-- The messages summed at the raw targets. -/
theorem aggr_read (x0 : TX) (x3 : TI) (x4 : TW) (x5 : TB) (x6 : TW) (j : Fin 100000) (n : Fin 128) :
    val_main_v88 (F := Ideal) x0 x3 x4 x5 x6 (ix2 j n)
      = Ideal.ofBits .f32 0x00000000#32 + ∑ e ∈ Cert.Spec.lands x3 j,
          val_main_v49 (F := Ideal) x0 x3 x4 x5 x6 (ix2 (Cert.Spec.src x3 e) n)
            * (Cert.Spec.dinv x3 (Cert.Spec.src x3 e) * Cert.Spec.dinv x3 (Cert.Spec.dstc x3 e)) := by
  unfold val_main_v88
  refine (scatterAddRow_apply (N := 100000) (C := 128) (E := 1600000)
    scatter_S100000x128_S1600000x1_S1600000x128_1_0_0_1.wf _ _ _ j n).trans ?_
  simp only [rawcol_read, msg_read, val_main_v86_apply]
  rfl

/-- The bias broadcast along the nodes. -/
theorem bias_read (x7 : TB) (j : Fin 100000) (n : Fin 128) : val_main_v95 (F := Ideal) x7 (ix2 j n) = x7 (ix1 n) := by
  rw [val_main_v95_apply, val_main_v94_apply]
  exact congrArg x7 (funext fun a => match a with | ⟨0, _⟩ => rfl)

/-! ## The layer -/

/-- THE LAYER: the reference's rectified convolution is the specification's convolution of the scaled features. -/
theorem layer_read (x0 : TX) (x3 : TI) (x4 : TW) (x5 : TB) (x6 : TW) (x7 : TB) (j : Fin 100000) (n : Fin 128) :
    val_main_v97 (F := Ideal) x0 x3 x4 x5 x6 x7 (ix2 j n)
      = Cert.Spec.conv x3 (Cert.Spec.scaled x3 (fun j k => (val_main_v48 (F := Ideal) x0 x3 x4 x5) (ix2 j k)) x6) x7 j n := by
  rw [val_main_v97_apply, val_main_v96_apply, val_main_v93_apply, aggr_read, val_main_v92_apply, selfw_read, bias_read, val_main_call1_v0_apply]
  refine (Cert.LayerLaw.conv_of_edge_weighted x3 (fun j n => val_main_v49 (F := Ideal) x0 x3 x4 x5 x6 (ix2 j n)) x7 j n).trans ?_
  refine congrArg (fun g => Cert.Spec.conv x3 g x7 j n) ?_
  funext j' n'
  show val_main_v49 (F := Ideal) x0 x3 x4 x5 x6 (ix2 j' n') * Cert.Spec.dinv x3 j' = _
  rw [dense_read]
  rfl

end Cert.RefLayer2

end
-- ==== Proof.RefRep.lean ====
/-
  The reference program's two convolution layers are the specification's: the second layer's input is the first
  layer's output, so the first layer's reading is substituted into the second's.
-/
import proofs.«139885_j17411797418342_2_alg».proof.Proof.RefLayer1
import proofs.«139885_j17411797418342_2_alg».proof.Proof.RefLayer2

noncomputable section

namespace Cert.RefRep

open Cert.ReferenceIdeal Cert.ReferenceIdeal.Read Idealize.ShloMosaic Idealize.ShloMosaic.ValueIdx
open Cert.RefLayer1 (TI TX TW TB)

/-- The first layer's output, as a function of node and channel. -/
theorem rep1_fun (x0 : TX) (x3 : TI) (x4 : TW) (x5 : TB) :
    (fun j k => val_main_v48 (F := Ideal) x0 x3 x4 x5 (ix2 j k)) = Cert.Spec.rep1 x3 x0 x4 x5 :=
  funext fun j => funext fun k => Cert.RefLayer1.layer_read x0 x3 x4 x5 j k

/-- The second layer's output, as a function of node and channel. -/
theorem rep2_fun (x0 : TX) (x3 : TI) (x4 : TW) (x5 : TB) (x6 : TW) (x7 : TB) :
    (fun j k => val_main_v97 (F := Ideal) x0 x3 x4 x5 x6 x7 (ix2 j k)) = Cert.Spec.rep2 x3 x0 x4 x5 x6 x7 :=
  funext fun j => funext fun k => by
    rw [Cert.RefLayer2.layer_read, rep1_fun]
    rfl

end Cert.RefRep

end
-- ==== Proof.RefHead.lean ====
/-
  The reference program's head, read index by index from the second layer's output.

  Two hidden branches, each the second layer times the LAST of two stacked weight matrices (a slice at offset one and a
  reshape) plus the last of two stacked biases, rectified; each followed by a scalar read-out, a dot product with a
  column plus a bias; the node's integer flag chooses between the two read-outs. Separately, a read-out of the second
  layer itself goes through the logistic function, which the program spells as one divided by one plus the exponential
  of the negated argument.
-/
import proofs.«139885_j17411797418342_2_alg».proof.Proof.Gen.ReferenceIdeal.Read
import proofs.«139885_j17411797418342_2_alg».proof.Proof.Spec
import proofs.«139885_j17411797418342_2_alg».proof.Proof.LayerLaw

noncomputable section

namespace Cert.RefHead

open Cert.ReferenceIdeal Cert.ReferenceIdeal.Read Idealize.ShloMosaic Idealize.ShloMosaic.ValueIdx
open scoped BigOperators

abbrev TI := (⟨S2x1600000, .i32⟩ : BufTy).Contents (Elt Ideal)
abbrev TX := (⟨S100000x128, .f32⟩ : BufTy).Contents (Elt Ideal)
abbrev TW := (⟨S128x128, .f32⟩ : BufTy).Contents (Elt Ideal)
abbrev TB := (⟨S128, .f32⟩ : BufTy).Contents (Elt Ideal)
abbrev T2W := (⟨S2x128x128, .f32⟩ : BufTy).Contents (Elt Ideal)
abbrev T2B := (⟨S2x128, .f32⟩ : BufTy).Contents (Elt Ideal)
abbrev TC := (⟨S128x1, .f32⟩ : BufTy).Contents (Elt Ideal)
abbrev T1 := (⟨S1, .f32⟩ : BufTy).Contents (Elt Ideal)
abbrev TT := (⟨S100000, .i32⟩ : BufTy).Contents (Elt Ideal)

/-! ## The two hidden branches -/

/-- The last of the two stacked weight matrices (the branch chosen when the flag is not positive). -/
theorem wlast_a (x8 : T2W) (k n : Fin 128) : val_main_v99 (F := Ideal) x8 (ix2 k n) = x8 (ix3 (1 : Fin 2) k n) := by
  rw [val_main_v99_apply, val_main_v98_apply]
  have hk := k.isLt
  have hn := n.isLt
  exact congrArg x8 (funext fun a => Fin.ext (by
    match a with
    | ⟨0, _⟩ => rfl
    | ⟨1, _⟩ => show (k.val * 128 + n.val) / 128 % 128 = k.val; omega
    | ⟨2, _⟩ => show (k.val * 128 + n.val) % 128 = n.val; omega))

/-- The last of the two stacked biases, broadcast along the nodes (the branch chosen when the flag is not positive). -/
theorem blast_a (x9 : T2B) (j : Fin 100000) (n : Fin 128) :
    val_main_v104 (F := Ideal) x9 (ix2 j n) = x9 (ix2 (1 : Fin 2) n) := by
  rw [val_main_v104_apply, val_main_v103_apply, val_main_v102_apply, val_main_v101_apply]
  exact congrArg x9 (funext fun a => Fin.ext (by
    match a with
    | ⟨0, _⟩ => rfl
    | ⟨1, _⟩ => exact Nat.mod_eq_of_lt n.isLt))

/-- The hidden branch (the branch chosen when the flag is not positive): the second layer times the last weight matrix, plus the last bias, rectified. -/
theorem hidden_a (x0 : TX) (x3 : TI) (x4 : TW) (x5 : TB) (x6 : TW) (x7 : TB) (x8 : T2W) (x9 : T2B) (j : Fin 100000) (n : Fin 128) :
    val_main_v106 (F := Ideal) x0 x3 x4 x5 x6 x7 x8 x9 (ix2 j n) = Cert.Spec.hidden (fun j k => val_main_v97 (F := Ideal) x0 x3 x4 x5 x6 x7 (ix2 j k)) x8 x9 j n := by
  rw [val_main_v106_apply, val_main_v105_apply, val_main_v100_apply, blast_a, val_main_call2_v0_apply]
  have hs : (∑ k : Fin 128, (val_main_v97 (F := Ideal) x0 x3 x4 x5 x6 x7) (lidx_main_v100 (ix2 j n) k) * (val_main_v99 (F := Ideal) x8) (ridx_main_v100 (ix2 j n) k))
      = ∑ k : Fin 128, val_main_v97 (F := Ideal) x0 x3 x4 x5 x6 x7 (ix2 j k) * x8 (ix3 (1 : Fin 2) k n) :=
    Finset.sum_congr rfl fun k _ => by
      rw [show lidx_main_v100 (ix2 j n) k = ix2 j k from
            funext fun a => match a with | ⟨0, _⟩ => rfl | ⟨1, _⟩ => rfl,
        show ridx_main_v100 (ix2 j n) k = ix2 k n from
            funext fun a => match a with | ⟨0, _⟩ => rfl | ⟨1, _⟩ => rfl, wlast_a]
  rw [hs]
  rfl

/-- The last of the two stacked weight matrices (the branch chosen when the flag is positive). -/
theorem wlast_b (x10 : T2W) (k n : Fin 128) : val_main_v108 (F := Ideal) x10 (ix2 k n) = x10 (ix3 (1 : Fin 2) k n) := by
  rw [val_main_v108_apply, val_main_v107_apply]
  have hk := k.isLt
  have hn := n.isLt
  exact congrArg x10 (funext fun a => Fin.ext (by
    match a with
    | ⟨0, _⟩ => rfl
    | ⟨1, _⟩ => show (k.val * 128 + n.val) / 128 % 128 = k.val; omega
    | ⟨2, _⟩ => show (k.val * 128 + n.val) % 128 = n.val; omega))

/-- The last of the two stacked biases, broadcast along the nodes (the branch chosen when the flag is positive). -/
theorem blast_b (x11 : T2B) (j : Fin 100000) (n : Fin 128) :
    val_main_v113 (F := Ideal) x11 (ix2 j n) = x11 (ix2 (1 : Fin 2) n) := by
  rw [val_main_v113_apply, val_main_v112_apply, val_main_v111_apply, val_main_v110_apply]
  exact congrArg x11 (funext fun a => Fin.ext (by
    match a with
    | ⟨0, _⟩ => rfl
    | ⟨1, _⟩ => exact Nat.mod_eq_of_lt n.isLt))

/-- The hidden branch (the branch chosen when the flag is positive): the second layer times the last weight matrix, plus the last bias, rectified. -/
theorem hidden_b (x0 : TX) (x3 : TI) (x4 : TW) (x5 : TB) (x6 : TW) (x7 : TB) (x10 : T2W) (x11 : T2B) (j : Fin 100000) (n : Fin 128) :
    val_main_v115 (F := Ideal) x0 x3 x4 x5 x6 x7 x10 x11 (ix2 j n) = Cert.Spec.hidden (fun j k => val_main_v97 (F := Ideal) x0 x3 x4 x5 x6 x7 (ix2 j k)) x10 x11 j n := by
  rw [val_main_v115_apply, val_main_v114_apply, val_main_v109_apply, blast_b, val_main_call3_v0_apply]
  have hs : (∑ k : Fin 128, (val_main_v97 (F := Ideal) x0 x3 x4 x5 x6 x7) (lidx_main_v109 (ix2 j n) k) * (val_main_v108 (F := Ideal) x10) (ridx_main_v109 (ix2 j n) k))
      = ∑ k : Fin 128, val_main_v97 (F := Ideal) x0 x3 x4 x5 x6 x7 (ix2 j k) * x10 (ix3 (1 : Fin 2) k n) :=
    Finset.sum_congr rfl fun k _ => by
      rw [show lidx_main_v109 (ix2 j n) k = ix2 j k from
            funext fun a => match a with | ⟨0, _⟩ => rfl | ⟨1, _⟩ => rfl,
        show ridx_main_v109 (ix2 j n) k = ix2 k n from
            funext fun a => match a with | ⟨0, _⟩ => rfl | ⟨1, _⟩ => rfl, wlast_b]
  rw [hs]
  rfl

/-! ## The read-outs -/

/-- The read-out (of the first hidden branch): a dot product with a column, plus a bias. -/
theorem readout_a (x0 : TX) (x3 : TI) (x4 : TW) (x5 : TB) (x6 : TW) (x7 : TB) (x8 : T2W) (x9 : T2B) (x12 : TC) (x13 : T1) (j : Fin 100000) :
    val_main_v120 (F := Ideal) x0 x3 x4 x5 x6 x7 x8 x9 x12 x13 (ix1 j) = Cert.Spec.readout (Cert.Spec.hidden (fun j k => val_main_v97 (F := Ideal) x0 x3 x4 x5 x6 x7 (ix2 j k)) x8 x9) x12 x13 j := by
  rw [val_main_v120_apply, show idx_main_v120 (ix1 j) = ix2 j (0 : Fin 1) from
      funext fun a => Fin.ext (by
        match a with
        | ⟨0, _⟩ => exact Nat.div_one _
        | ⟨1, _⟩ => rfl),
    val_main_v119_apply, val_main_v116_apply, val_main_v118_apply, val_main_v117_apply]
  have hs : (∑ k : Fin 128, (val_main_v106 (F := Ideal) x0 x3 x4 x5 x6 x7 x8 x9) (lidx_main_v116 (ix2 j (0 : Fin 1)) k) * x12 (ridx_main_v116 (ix2 j (0 : Fin 1)) k))
      = ∑ k : Fin 128, (Cert.Spec.hidden (fun j k => val_main_v97 (F := Ideal) x0 x3 x4 x5 x6 x7 (ix2 j k)) x8 x9) j k * x12 (ix2 k (0 : Fin 1)) :=
    Finset.sum_congr rfl fun k _ => by
      rw [show lidx_main_v116 (ix2 j (0 : Fin 1)) k = ix2 j k from
            funext fun a => match a with | ⟨0, _⟩ => rfl | ⟨1, _⟩ => rfl,
        show ridx_main_v116 (ix2 j (0 : Fin 1)) k = ix2 k (0 : Fin 1) from
            funext fun a => match a with | ⟨0, _⟩ => rfl | ⟨1, _⟩ => rfl, hidden_a]
  rw [hs]
  exact congrArg (fun t => (∑ k : Fin 128, (Cert.Spec.hidden (fun j k => val_main_v97 (F := Ideal) x0 x3 x4 x5 x6 x7 (ix2 j k)) x8 x9) j k * x12 (ix2 k (0 : Fin 1))) + x13 t)
    (funext fun a => match a with | ⟨0, _⟩ => rfl)

/-- The read-out (of the second hidden branch): a dot product with a column, plus a bias. -/
theorem readout_b (x0 : TX) (x3 : TI) (x4 : TW) (x5 : TB) (x6 : TW) (x7 : TB) (x10 : T2W) (x11 : T2B) (x14 : TC) (x15 : T1) (j : Fin 100000) :
    val_main_v125 (F := Ideal) x0 x3 x4 x5 x6 x7 x10 x11 x14 x15 (ix1 j) = Cert.Spec.readout (Cert.Spec.hidden (fun j k => val_main_v97 (F := Ideal) x0 x3 x4 x5 x6 x7 (ix2 j k)) x10 x11) x14 x15 j := by
  rw [val_main_v125_apply, show idx_main_v125 (ix1 j) = ix2 j (0 : Fin 1) from
      funext fun a => Fin.ext (by
        match a with
        | ⟨0, _⟩ => exact Nat.div_one _
        | ⟨1, _⟩ => rfl),
    val_main_v124_apply, val_main_v121_apply, val_main_v123_apply, val_main_v122_apply]
  have hs : (∑ k : Fin 128, (val_main_v115 (F := Ideal) x0 x3 x4 x5 x6 x7 x10 x11) (lidx_main_v121 (ix2 j (0 : Fin 1)) k) * x14 (ridx_main_v121 (ix2 j (0 : Fin 1)) k))
      = ∑ k : Fin 128, (Cert.Spec.hidden (fun j k => val_main_v97 (F := Ideal) x0 x3 x4 x5 x6 x7 (ix2 j k)) x10 x11) j k * x14 (ix2 k (0 : Fin 1)) :=
    Finset.sum_congr rfl fun k _ => by
      rw [show lidx_main_v121 (ix2 j (0 : Fin 1)) k = ix2 j k from
            funext fun a => match a with | ⟨0, _⟩ => rfl | ⟨1, _⟩ => rfl,
        show ridx_main_v121 (ix2 j (0 : Fin 1)) k = ix2 k (0 : Fin 1) from
            funext fun a => match a with | ⟨0, _⟩ => rfl | ⟨1, _⟩ => rfl, hidden_b]
  rw [hs]
  exact congrArg (fun t => (∑ k : Fin 128, (Cert.Spec.hidden (fun j k => val_main_v97 (F := Ideal) x0 x3 x4 x5 x6 x7 (ix2 j k)) x10 x11) j k * x14 (ix2 k (0 : Fin 1))) + x15 t)
    (funext fun a => match a with | ⟨0, _⟩ => rfl)

/-- The read-out (of the second layer itself): a dot product with a column, plus a bias. -/
theorem readout_p (x0 : TX) (x3 : TI) (x4 : TW) (x5 : TB) (x6 : TW) (x7 : TB) (x16 : TC) (x17 : T1) (j : Fin 100000) :
    val_main_v133 (F := Ideal) x0 x3 x4 x5 x6 x7 x16 x17 (ix1 j) = Cert.Spec.readout (fun j k => val_main_v97 (F := Ideal) x0 x3 x4 x5 x6 x7 (ix2 j k)) x16 x17 j := by
  rw [val_main_v133_apply, show idx_main_v133 (ix1 j) = ix2 j (0 : Fin 1) from
      funext fun a => Fin.ext (by
        match a with
        | ⟨0, _⟩ => exact Nat.div_one _
        | ⟨1, _⟩ => rfl),
    val_main_v132_apply, val_main_v129_apply, val_main_v131_apply, val_main_v130_apply]
  have hs : (∑ k : Fin 128, (val_main_v97 (F := Ideal) x0 x3 x4 x5 x6 x7) (lidx_main_v129 (ix2 j (0 : Fin 1)) k) * x16 (ridx_main_v129 (ix2 j (0 : Fin 1)) k))
      = ∑ k : Fin 128, (fun j k => val_main_v97 (F := Ideal) x0 x3 x4 x5 x6 x7 (ix2 j k)) j k * x16 (ix2 k (0 : Fin 1)) :=
    Finset.sum_congr rfl fun k _ => by
      rw [show lidx_main_v129 (ix2 j (0 : Fin 1)) k = ix2 j k from
            funext fun a => match a with | ⟨0, _⟩ => rfl | ⟨1, _⟩ => rfl,
        show ridx_main_v129 (ix2 j (0 : Fin 1)) k = ix2 k (0 : Fin 1) from
            funext fun a => match a with | ⟨0, _⟩ => rfl | ⟨1, _⟩ => rfl]
  rw [hs]
  exact congrArg (fun t => (∑ k : Fin 128, (fun j k => val_main_v97 (F := Ideal) x0 x3 x4 x5 x6 x7 (ix2 j k)) j k * x16 (ix2 k (0 : Fin 1))) + x17 t)
    (funext fun a => match a with | ⟨0, _⟩ => rfl)

/-! ## The two results -/

/-- The second result: the flag's choice between the two read-outs. -/
theorem choice_read (x0 : TX) (x3 : TI) (x4 : TW) (x5 : TB) (x6 : TW) (x7 : TB) (x1 : TT) (x8 : T2W) (x9 : T2B) (x10 : T2W) (x11 : T2B) (x12 : TC) (x13 : T1)
    (x14 : TC) (x15 : T1) (j : Fin 100000) :
    val_main_v141 (F := Ideal) x0 x1 x3 x4 x5 x6 x7 x8 x9 x10 x11 x12 x13 x14 x15 (ix2 j (0 : Fin 1))
      = Scalar.select (IntOp.cmpi .sgt (x1 (ix1 j)) 0#32)
          (Cert.Spec.readout (Cert.Spec.hidden (fun j k => val_main_v97 (F := Ideal) x0 x3 x4 x5 x6 x7 (ix2 j k)) x10 x11) x14 x15 j)
          (Cert.Spec.readout (Cert.Spec.hidden (fun j k => val_main_v97 (F := Ideal) x0 x3 x4 x5 x6 x7 (ix2 j k)) x8 x9) x12 x13 j) := by
  rw [val_main_v141_apply, show idx_main_v141 (ix2 j (0 : Fin 1)) = ix1 j from
      funext fun a => match a with | ⟨0, _⟩ => rfl,
    val_main_v128_apply, val_main_v127_apply, val_main_v126_apply, readout_a, readout_b]
  rfl

/-- The first result: the logistic function of the second layer's read-out. -/
theorem logistic_read (x0 : TX) (x3 : TI) (x4 : TW) (x5 : TB) (x6 : TW) (x7 : TB) (x16 : TC) (x17 : T1) (j : Fin 100000) :
    val_main_v140 (F := Ideal) x0 x3 x4 x5 x6 x7 x16 x17 (ix2 j (0 : Fin 1))
      = Ideal.logistic (Cert.Spec.readout (fun j k => val_main_v97 (F := Ideal) x0 x3 x4 x5 x6 x7 (ix2 j k)) x16 x17 j) := by
  rw [val_main_v140_apply, show idx_main_v140 (ix2 j (0 : Fin 1)) = ix1 j from
      funext fun a => match a with | ⟨0, _⟩ => rfl,
    val_main_v139_apply, val_main_v137_apply, val_main_v135_apply, val_main_v134_apply, val_main_v138_apply,
    val_main_v136_apply, val_main_cst_19_apply, val_main_cst_20_apply, readout_p]
  simp only [Ideal.hostDivf_def, Ideal.addf_def, Ideal.hostUnary_exp_def, Ideal.hostNegf_def, Ideal.negf_def,
    Ideal.ofBits_def, Cert.LayerLaw.ofBits_one]
  rfl

end Cert.RefHead

end
-- ==== Proof.RefValue.lean ====
/-
  The reference program's two results, index by index, are the specification's: the second layer (both layers read by
  the layer law) feeds the head, whose stages are read in order.
-/
import proofs.«139885_j17411797418342_2_alg».proof.Proof.RefRep
import proofs.«139885_j17411797418342_2_alg».proof.Proof.RefHead

noncomputable section

namespace Cert.RefValue

open Cert.ReferenceIdeal Cert.ReferenceIdeal.Read Idealize.ShloMosaic Idealize.ShloMosaic.ValueIdx

/-- The first result: the logistic read-out of the second layer. -/
theorem out0_apply (x0 : (⟨S100000x128, .f32⟩ : BufTy).Contents (Elt Ideal)) (x3 : (⟨S2x1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x16 : (⟨S128x1, .f32⟩ : BufTy).Contents (Elt Ideal)) (x17 : (⟨S1, .f32⟩ : BufTy).Contents (Elt Ideal)) (j : Fin 100000) :
    val_main_v140 (F := Ideal) x0 x3 x4 x5 x6 x7 x16 x17 (ix2 j (0 : Fin 1))
      = Cert.Spec.pOut x3 x0 x4 x5 x6 x7 x16 x17 j := by
  rw [Cert.RefHead.logistic_read, Cert.RefRep.rep2_fun]
  rfl

/-- The second result: the flag's choice between the two branches' read-outs. -/
theorem out1_apply (x0 : (⟨S100000x128, .f32⟩ : BufTy).Contents (Elt Ideal)) (x1 : (⟨S100000, .i32⟩ : BufTy).Contents (Elt Ideal)) (x3 : (⟨S2x1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x8 : (⟨S2x128x128, .f32⟩ : BufTy).Contents (Elt Ideal)) (x9 : (⟨S2x128, .f32⟩ : BufTy).Contents (Elt Ideal)) (x10 : (⟨S2x128x128, .f32⟩ : BufTy).Contents (Elt Ideal)) (x11 : (⟨S2x128, .f32⟩ : BufTy).Contents (Elt Ideal))
    (x12 : (⟨S128x1, .f32⟩ : BufTy).Contents (Elt Ideal)) (x13 : (⟨S1, .f32⟩ : BufTy).Contents (Elt Ideal)) (x14 : (⟨S128x1, .f32⟩ : BufTy).Contents (Elt Ideal)) (x15 : (⟨S1, .f32⟩ : BufTy).Contents (Elt Ideal))
    (j : Fin 100000) :
    val_main_v141 (F := Ideal) x0 x1 x3 x4 x5 x6 x7 x8 x9 x10 x11 x12 x13 x14 x15 (ix2 j (0 : Fin 1))
      = Cert.Spec.yOut x3 x0 x1 x4 x5 x6 x7 x8 x9 x10 x11 x12 x13 x14 x15 j := by
  rw [Cert.RefHead.choice_read, Cert.RefRep.rep2_fun]
  rfl

end Cert.RefValue

end
-- ==== Proof.lean ====
/-
  Both programs compute a two-layer graph convolution followed by a two-branch head, on the extended reals.
  The kernel program folds the edge normalisation `dinv[row] * dinv[col]` into a node-side rescale: with
  `g = (features @ W) * dinv` a layer is `max (dinv * (Σ_{edges into j} g[source] + g[j]) + b) 0`; the reference scales
  every edge's message by `dinv[source] * dinv[target]` and adds the self loop `h * dinv²`. The two agree because
  `dinv` is a finite non-negative real (a degree is at least one), which distributes over any sum of extended reals,
  and multiplication is commutative and associative. Both sides are proved equal, index by index, to one specification
  (Proof/Spec.lean): the kernel program region by region (three kernel regions between host stretches), the reference
  operation by operation.
-/
import proofs.«139885_j17411797418342_2_alg».proof.Defs
import proofs.«139885_j17411797418342_2_alg».proof.Proof.Gen.Kernel
import proofs.«139885_j17411797418342_2_alg».proof.Proof.Gen.KernelIdeal
import proofs.«139885_j17411797418342_2_alg».proof.Proof.Gen.ReferenceIdeal
import proofs.«139885_j17411797418342_2_alg».proof.Proof.Gen.Pre_finite_inputs
import proofs.«139885_j17411797418342_2_alg».proof.Proof.KernelFrameP
import proofs.«139885_j17411797418342_2_alg».proof.Proof.KerRun
import proofs.«139885_j17411797418342_2_alg».proof.Proof.KerChain1
import proofs.«139885_j17411797418342_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs, and its arguments end unchanged. -/
theorem frame_k [Cert.Kernel.Facts] [Cert.Pre_finite_inputs.Facts] : Cert.frame_Kernel := fun m ρ _ => Cert.Kernel.GenP.frame m ρ

/-- The idealized kernel program runs, and its arguments end unchanged. -/
theorem frame_ki [Cert.KernelIdeal.Facts] [Cert.Pre_finite_inputs.Facts] : Cert.frame_KernelIdeal := fun m ρ _ => Cert.KernelIdeal.GenP.frame m ρ

/-- The idealized reference runs, and its arguments end unchanged: its run with the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- A result column is determined by its entries `(j, 0)`. -/
theorem col_ext (f g : Cert.KernelIdeal.S100000x1.Idx → EReal) (h : ∀ j : Fin 100000, f (ix2 j (0 : Fin 1)) = g (ix2 j (0 : Fin 1))) : f = g := by
  funext i
  obtain ⟨j, u, rfl⟩ : ∃ (j : Fin 100000) (u : Fin 1), i = ix2 j u := ⟨i 0, i 1, eq_ix2 i⟩
  obtain rfl : u = 0 := Subsingleton.elim _ _
  exact h j

/-- From memories agreeing on the arguments both idealized programs run and end with equal results: each result of
    each program is, index by index, the specification's function of the arguments. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.GenP.W6 m ρ c (Proc.devRef .tc Cert.KernelIdeal.main_v52_0),
    fun c => Cert.KernelIdeal.GenP.W6 m ρ c (Proc.devRef .tc Cert.KernelIdeal.main_v52_1),
    Cert.KernelIdeal.RunValue.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17⟩ := hagree c
    rw [Cert.ReferenceIdeal.Read.val_main_v140_eq, a0, a3, a4, a5, a6, a7, a16, a17]
    refine col_ext _ _ fun j => ?_
    exact (Cert.RefValue.out0_apply _ _ _ _ _ _ _ _ j).trans (Cert.KernelIdeal.Chain.out0_apply m ρ c j).symm
  · obtain ⟨a0, a1, a2, a3, a4, a5, a6, a7, a8, a9, a10, a11, a12, a13, a14, a15, a16, a17⟩ := hagree c
    rw [Cert.ReferenceIdeal.Read.val_main_v141_eq, a0, a1, a3, a4, a5, a6, a7, a8, a9, a10, a11, a12, a13, a14, a15]
    refine col_ext _ _ fun j => ?_
    exact (Cert.RefValue.out1_apply _ _ _ _ _ _ _ _ _ _ _ _ _ _ _ j).trans (Cert.KernelIdeal.Chain.out1_apply m ρ c j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
